-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x18x2048 : Shape := ⟨3, ![512, 18, 2048]⟩
abbrev S512x18x4 : Shape := ⟨3, ![512, 18, 4]⟩
abbrev S3x2048 : Shape := ⟨2, ![3, 2048]⟩
abbrev S3 : Shape := ⟨1, ![3]⟩
abbrev S2048x4 : Shape := ⟨2, ![2048, 4]⟩
abbrev S2048 : Shape := ⟨1, ![2048]⟩
abbrev S2048x2048 : Shape := ⟨2, ![2048, 2048]⟩
abbrev S_ : Shape := ⟨0, ![]⟩

class Facts : Prop where
  bcast_S_S512x18x2048 : S_.BroadcastsInDim S512x18x2048 (![] : Fin 0 → Fin S512x18x2048.rank)
  reducesTo_S512x18x2048_S_d0_1_2 : S512x18x2048.ReducesTo [0, 1, 2] S_
  h_S_ : 0 < S_.numel
  bcast_S_S512x18x4 : S_.BroadcastsInDim S512x18x4 (![] : Fin 0 → Fin S512x18x4.rank)
  reducesTo_S512x18x4_S_d0_1_2 : S512x18x4.ReducesTo [0, 1, 2] S_
  bcast_S_S3x2048 : S_.BroadcastsInDim S3x2048 (![] : Fin 0 → Fin S3x2048.rank)
  reducesTo_S3x2048_S_d0_1 : S3x2048.ReducesTo [0, 1] S_
  bcast_S_S3 : S_.BroadcastsInDim S3 (![] : Fin 0 → Fin S3.rank)
  reducesTo_S3_S_d0 : S3.ReducesTo [0] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part5 {F : FTy → Type} [FloatOps F] (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  main_v88

def fn_part4 {F : FTy → Type} [FloatOps F] (main_arg14 : FVec F S2048x2048 .f32) (main_arg15 : FVec F S2048 .f32) (main_arg16 : FVec F S2048 .f32) (main_arg17 : FVec F S2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_v83 main_v84 main_cst_32

def fn_part3 {F : FTy → Type} [FloatOps F] (main_arg11 : FVec F S2048 .f32) (main_arg12 : FVec F S2048 .f32) (main_arg13 : FVec F S2048 .f32) (main_arg14 : FVec F S2048x2048 .f32) (main_arg15 : FVec F S2048 .f32) (main_arg16 : FVec F S2048 .f32) (main_arg17 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_v63 main_v67

def fn_part2 {F : FTy → Type} [FloatOps F] (main_arg7 : FVec F S2048 .f32) (main_arg8 : FVec F S3x2048 .f32) (main_arg9 : FVec F S3 .f32) (main_arg10 : FVec F S2048x2048 .f32) (main_arg11 : FVec F S2048 .f32) (main_arg12 : FVec F S2048 .f32) (main_arg13 : FVec F S2048 .f32) (main_arg14 : FVec F S2048x2048 .f32) (main_arg15 : FVec F S2048 .f32) (main_arg16 : FVec F S2048 .f32) (main_arg17 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S3x2048 .f32 := Host.absf main_arg8
  let main_cst_14 : FVec F S_ .f32 := constant S_ .f32 0x7F800000#32
  let main_v40 : FVec F S3x2048 .f32 := broadcastInDim S3x2048 ![] bcast_S_S3x2048 main_cst_14
  let main_v41 : IVec S3x2048 1 := cmpf .olt main_v39 main_v40
  let main_c_15 : IVec S_ 1 := constantI S_ 1 1#1
  let main_v42 : IVec S_ 1 := (fun x v => Host.reduce IntOp.andi x v reducesTo_S3x2048_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_v48 main_v49 main_v50

def fn_part1 {F : FTy → Type} [FloatOps F] (main_arg4 : FVec F S2048x4 .f32) (main_arg5 : FVec F S2048 .f32) (main_arg6 : FVec F S2048 .f32) (main_arg7 : FVec F S2048 .f32) (main_arg8 : FVec F S3x2048 .f32) (main_arg9 : FVec F S3 .f32) (main_arg10 : FVec F S2048x2048 .f32) (main_arg11 : FVec F S2048 .f32) (main_arg12 : FVec F S2048 .f32) (main_arg13 : FVec F S2048 .f32) (main_arg14 : FVec F S2048x2048 .f32) (main_arg15 : FVec F S2048 .f32) (main_arg16 : FVec F S2048 .f32) (main_arg17 : FVec F S2048 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S2048x4 .f32 := Host.absf main_arg4
  let main_cst_6 : FVec F S_ .f32 := constant S_ .f32 0x7F800000#32
  let main_v20 : FVec F S2048x4 .f32 := broadcastInDim S2048x4 ![] bcast_S_S2048x4 main_cst_6
  let main_v21 : IVec S2048x4 1 := cmpf .olt main_v19 main_v20
  let main_c_7 : IVec S_ 1 := constantI S_ 1 1#1
  let main_v22 : IVec S_ 1 := (fun x v => Host.reduce IntOp.andi x v reducesTo_S2048x4_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S512x18x2048 .f32) (main_arg1 : FVec F S512x18x4 .f32) (main_arg2 : FVec F S3x2048 .f32) (main_arg3 : FVec F S3 .f32) (main_arg4 : FVec F S2048x4 .f32) (main_arg5 : FVec F S2048 .f32) (main_arg6 : FVec F S2048 .f32) (main_arg7 : FVec F S2048 .f32) (main_arg8 : FVec F S3x2048 .f32) (main_arg9 : FVec F S3 .f32) (main_arg10 : FVec F S2048x2048 .f32) (main_arg11 : FVec F S2048 .f32) (main_arg12 : FVec F S2048 .f32) (main_arg13 : FVec F S2048 .f32) (main_arg14 : FVec F S2048x2048 .f32) (main_arg15 : FVec F S2048 .f32) (main_arg16 : FVec F S2048 .f32) (main_arg17 : FVec F S2048 .f32) : IVec S_ 1 :=
  let main_v0 : FVec F S512x18x2048 .f32 := Host.absf main_arg0
  let main_cst : FVec F S_ .f32 := constant S_ .f32 0x7F800000#32
  let main_v1 : FVec F S512x18x2048 .f32 := broadcastInDim S512x18x2048 ![] bcast_S_S512x18x2048 main_cst
  let main_v2 : IVec S512x18x2048 1 := cmpf .olt main_v0 main_v1
  let main_c : IVec S_ 1 := constantI S_ 1 1#1
  let main_v3 : IVec S_ 1 := (fun x v => Host.reduce IntOp.andi x v reducesTo_S512x18x2048_S_d0_1_2 h_S_) main_v2 main_c
  let main_v4 : FVec F S512x18x4 .f32 := Host.absf main_arg1
  let main_cst_0 : FVec F S_ .f32 := constant S_ .f32 0x7F800000#32
  let main_v5 : FVec F S512x18x4 .f32 := broadcastInDim S512x18x4 ![] bcast_S_S512x18x4 main_cst_0
  let main_v6 : IVec S512x18x4 1 := cmpf .olt main_v4 main_v5
  let main_c_1 : IVec S_ 1 := constantI S_ 1 1#1
  let main_v7 : IVec S_ 1 := (fun x v => Host.reduce IntOp.andi x v reducesTo_S512x18x4_S_d0_1_2 h_S_) main_v6 main_c_1
  let main_v8 : IVec S_ 1 := andi main_v3 main_v7
  let main_v9 : FVec F S3x2048 .f32 := Host.absf main_arg2
  let main_cst_2 : FVec F S_ .f32 := constant S_ .f32 0x7F800000#32
  let main_v10 : FVec F S3x2048 .f32 := broadcastInDim S3x2048 ![] bcast_S_S3x2048 main_cst_2
  let main_v11 : IVec S3x2048 1 := cmpf .olt main_v9 main_v10
  let main_c_3 : IVec S_ 1 := constantI S_ 1 1#1
  let main_v12 : IVec S_ 1 := (fun x v => Host.reduce IntOp.andi x v reducesTo_S3x2048_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S512x18x2048 : Shape := ⟨3, ![512, 18, 2048]⟩
abbrev S512x18x4 : Shape := ⟨3, ![512, 18, 4]⟩
abbrev S3x2048 : Shape := ⟨2, ![3, 2048]⟩
abbrev S3 : Shape := ⟨1, ![3]⟩
abbrev S2048x4 : Shape := ⟨2, ![2048, 4]⟩
abbrev S2048 : Shape := ⟨1, ![2048]⟩
abbrev S2048x2048 : Shape := ⟨2, ![2048, 2048]⟩
abbrev S4x2048 : Shape := ⟨2, ![4, 2048]⟩
abbrev S512x18x18 : Shape := ⟨3, ![512, 18, 18]⟩
abbrev S8x18x2048 : Shape := ⟨3, ![8, 18, 2048]⟩
abbrev S8x18x4 : Shape := ⟨3, ![8, 18, 4]⟩
abbrev S8x18x18 : Shape := ⟨3, ![8, 18, 18]⟩
abbrev S144x2048 : Shape := ⟨2, ![144, 2048]⟩
abbrev S144x3 : Shape := ⟨2, ![144, 3]⟩
abbrev S1x3 : Shape := ⟨2, ![1, 3]⟩
abbrev S8x18x3 : Shape := ⟨3, ![8, 18, 3]⟩
abbrev S8x18 : Shape := ⟨2, ![8, 18]⟩
abbrev S8x18x1 : Shape := ⟨3, ![8, 18, 1]⟩
abbrev S144x144 : Shape := ⟨2, ![144, 144]⟩
abbrev S18x18 : Shape := ⟨2, ![18, 18]⟩
abbrev S1x18x18 : Shape := ⟨3, ![1, 18, 18]⟩
abbrev S8x1x18 : Shape := ⟨3, ![8, 1, 18]⟩
abbrev S144x4 : Shape := ⟨2, ![144, 4]⟩
abbrev S1x2048 : Shape := ⟨2, ![1, 2048]⟩
abbrev S8x3 : Shape := ⟨2, ![8, 3]⟩
abbrev S8x1x3 : Shape := ⟨3, ![8, 1, 3]⟩
abbrev S8x3x2048 : Shape := ⟨3, ![8, 3, 2048]⟩
abbrev S24x2048 : Shape := ⟨2, ![24, 2048]⟩
abbrev S8x1x2048 : Shape := ⟨3, ![8, 1, 2048]⟩
abbrev S8x2048 : Shape := ⟨2, ![8, 2048]⟩

abbrev nBuf : Space → Nat
  | .hbm => 26
  | .vmem => 30
  | .smem => 0
  | _ => 0

abbrev bufTy : (tb : Table) → Fin (tcTables nBuf tb) → BufTy
  | .hbm, ⟨0, _⟩ => ⟨S512x18x2048, .f32⟩
  | .hbm, ⟨1, _⟩ => ⟨S512x18x4, .f32⟩
  | .hbm, ⟨2, _⟩ => ⟨S3x2048, .f32⟩
  | .hbm, ⟨3, _⟩ => ⟨S3, .f32⟩
  | .hbm, ⟨4, _⟩ => ⟨S2048x4, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S3x2048, .f32⟩
  | .hbm, ⟨9, _⟩ => ⟨S3, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048x2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048x2048, .bf16⟩
  | .hbm, ⟨19, _⟩ => ⟨S2048x2048, .bf16⟩
  | .hbm, ⟨20, _⟩ => ⟨S4x2048, .f32⟩
  | .hbm, ⟨21, _⟩ => ⟨S512x18x2048, .f32⟩
  | .hbm, ⟨22, _⟩ => ⟨S512x18x18, .f32⟩
  | .hbm, ⟨23, _⟩ => ⟨S512x18x18, .f32⟩
  | .hbm, ⟨24, _⟩ => ⟨S512x18x18, .f32⟩
  | .hbm, ⟨25, _⟩ => ⟨S512x18x18, .f32⟩
  | .local _ .vmem, ⟨0, _⟩ => ⟨S8x18x2048, .f32⟩
  | .local _ .vmem, ⟨1, _⟩ => ⟨S8x18x2048, .f32⟩
  | .local _ .vmem, ⟨2, _⟩ => ⟨S8x18x4, .f32⟩
  | .local _ .vmem, ⟨3, _⟩ => ⟨S8x18x4, .f32⟩
  | .local _ .vmem, ⟨4, _⟩ => ⟨S3x2048, .f32⟩
  | .local _ .vmem, ⟨5, _⟩ => ⟨S3, .f32⟩
  | .local _ .vmem, ⟨6, _⟩ => ⟨S4x2048, .f32⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S3x2048, .f32⟩
  | .local _ .vmem, ⟨11, _⟩ => ⟨S3, .f32⟩
  | .local _ .vmem, ⟨12, _⟩ => ⟨S2048x2048, .bf16⟩
  | .local _ .vmem, ⟨13, _⟩ => ⟨S2048, .f32⟩
  | .local _ .vmem, ⟨14, _⟩ => ⟨S2048, .f32⟩
  | .local _ .vmem, ⟨15, _⟩ => ⟨S2048, .f32⟩
  | .local _ .vmem, ⟨16, _⟩ => ⟨S2048x2048, .bf16⟩
  | .local _ .vmem, ⟨17, _⟩ => ⟨S2048, .f32⟩
  | .local _ .vmem, ⟨18, _⟩ => ⟨S2048, .f32⟩
  | .local _ .vmem, ⟨19, _⟩ => ⟨S2048, .f32⟩
  | .local _ .vmem, ⟨20, _⟩ => ⟨S8x18x2048, .f32⟩
  | .local _ .vmem, ⟨21, _⟩ => ⟨S8x18x2048, .f32⟩
  | .local _ .vmem, ⟨22, _⟩ => ⟨S8x18x18, .f32⟩
  | .local _ .vmem, ⟨23, _⟩ => ⟨S8x18x18, .f32⟩
  | .local _ .vmem, ⟨24, _⟩ => ⟨S8x18x18, .f32⟩
  | .local _ .vmem, ⟨25, _⟩ => ⟨S8x18x18, .f32⟩
  | .local _ .vmem, ⟨26, _⟩ => ⟨S8x18x18, .f32⟩
  | .local _ .vmem, ⟨27, _⟩ => ⟨S8x18x18, .f32⟩
  | .local _ .vmem, ⟨28, _⟩ => ⟨S8x18x18, .f32⟩
  | .local _ .vmem, ⟨29, _⟩ => ⟨S8x18x18, .f32⟩
  | _, _ => ⟨S512x18x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v3_3 : Ref sig .tc := ⟨.hbm, 24, rfl⟩
abbrev main_v3_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x18x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x18x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S8x18x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x18x18 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x18x18 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x18x18 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x18x18 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  bitsLt_bf16_f32 : FTy.bits .bf16 < FTy.bits .f32
  transposes_S2048x4_S4x2048_1_0 : S2048x4.Transposes [1, 0] S4x2048
  inb_S8x18x2048_S8x18x2048_0_0_0 : ∀ a, (![0, 0, 0] : Fin 3 → Nat) a + S8x18x2048.size a ≤ S8x18x2048.size a
  h_S8x18x2048 : 0 < S8x18x2048.numel
  inb_S8x18x4_S8x18x4_0_0_0 : ∀ a, (![0, 0, 0] : Fin 3 → Nat) a + S8x18x4.size a ≤ S8x18x4.size a
  h_S8x18x4 : 0 < S8x18x4.numel
  shapeCasts_S8x18x2048_S144x2048 : S8x18x2048.ShapeCasts S144x2048
  inb_S3x2048_S3x2048_0_0 : ∀ a, (![0, 0] : Fin 2 → Nat) a + S3x2048.size a ≤ S3x2048.size a
  h_S3x2048 : 0 < S3x2048.numel
  inb_S3_S3_0 : ∀ a, (![0] : Fin 1 → Nat) a + S3.size a ≤ S3.size a
  h_S3 : 0 < S3.numel
  shapeCasts_S3_S1x3 : S3.ShapeCasts S1x3
  broadcasts_S1x3_S144x3 : S1x3.Broadcasts S144x3
  shapeCasts_S144x3_S8x18x3 : S144x3.ShapeCasts S8x18x3
  reduces_S8x18x3_S8x18 : S8x18x3.Reduces [2] S8x18
  shapeCasts_S8x18_S8x18x1 : S8x18.ShapeCasts S8x18x1
  broadcasts_S8x18x1_S8x18x3 : S8x18x1.Broadcasts S8x18x3
  reduces_S8x18x2048_S8x18 : S8x18x2048.Reduces [2] S8x18
  broadcasts_S8x18x1_S8x18x2048 : S8x18x1.Broadcasts S8x18x2048
  slices_S144x144_o0_0_S18x18 : S144x144.Slices ![0, 0] S18x18
  slices_S144x144_o18_18_S18x18 : S144x144.Slices ![18, 18] S18x18
  slices_S144x144_o36_36_S18x18 : S144x144.Slices ![36, 36] S18x18
  slices_S144x144_o54_54_S18x18 : S144x144.Slices ![54, 54] S18x18
  slices_S144x144_o72_72_S18x18 : S144x144.Slices ![72, 72] S18x18
  slices_S144x144_o90_90_S18x18 : S144x144.Slices ![90, 90] S18x18
  slices_S144x144_o108_108_S18x18 : S144x144.Slices ![108, 108] S18x18
  slices_S144x144_o126_126_S18x18 : S144x144.Slices ![126, 126] S18x18
  shapeCasts_S18x18_S1x18x18 : S18x18.ShapeCasts S1x18x18
  concatenates_S1x18x18_S1x18x18_S1x18x18_S1x18x18_S1x18x18_S1x18x18_S1x18x18_S1x18x18_S8x18x18_d0 : Shape.Concatenates [S1x18x18, S1x18x18, S1x18x18, S1x18x18, S1x18x18, S1x18x18, S1x18x18, S1x18x18] S8x18x18 0
  slices_S8x18x3_o0_0_0_S8x18x1 : S8x18x3.Slices ![0, 0, 0] S8x18x1
  shapeCasts_S8x18x1_S8x18 : S8x18x1.ShapeCasts S8x18
  slices_S8x18x3_o0_0_1_S8x18x1 : S8x18x3.Slices ![0, 0, 1] S8x18x1
  slices_S8x18x3_o0_0_2_S8x18x1 : S8x18x3.Slices ![0, 0, 2] S8x18x1
  shapeCasts_S8x18_S8x1x18 : S8x18.ShapeCasts S8x1x18
  broadcasts_S8x18x1_S8x18x18 : S8x18x1.Broadcasts S8x18x18
  broadcasts_S8x1x18_S8x18x18 : S8x1x18.Broadcasts S8x18x18
  shapeCasts_S8x18x4_S144x4 : S8x18x4.ShapeCasts S144x4
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S144x2048 : S1x2048.Broadcasts S144x2048
  slices_S8x18x4_o0_0_0_S8x18x1 : S8x18x4.Slices ![0, 0, 0] S8x18x1
  slices_S8x18x4_o0_0_2_S8x18x1 : S8x18x4.Slices ![0, 0, 2] S8x18x1
  slices_S8x18x4_o0_0_1_S8x18x1 : S8x18x4.Slices ![0, 0, 1] S8x18x1
  slices_S8x18x4_o0_0_3_S8x18x1 : S8x18x4.Slices ![0, 0, 3] S8x18x1
  reduces_S8x18x3_S8x3 : S8x18x3.Reduces [1] S8x3
  shapeCasts_S8x3_S8x1x3 : S8x3.ShapeCasts S8x1x3
  broadcasts_S8x1x3_S8x18x3 : S8x1x3.Broadcasts S8x18x3
  shapeCasts_S8x3x2048_S24x2048 : S8x3x2048.ShapeCasts S24x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x2048_S24x2048 : S1x2048.Broadcasts S24x2048
  shapeCasts_S24x2048_S8x3x2048 : S24x2048.ShapeCasts S8x3x2048
  slices_S8x3x2048_o0_0_0_S8x1x2048 : S8x3x2048.Slices ![0, 0, 0] S8x1x2048
  shapeCasts_S8x1x2048_S8x2048 : S8x1x2048.ShapeCasts S8x2048
  shapeCasts_S8x2048_S8x1x2048 : S8x2048.ShapeCasts S8x1x2048
  slices_S8x3x2048_o0_1_0_S8x1x2048 : S8x3x2048.Slices ![0, 1, 0] S8x1x2048
  slices_S8x3x2048_o0_2_0_S8x1x2048 : S8x3x2048.Slices ![0, 2, 0] S8x1x2048
  broadcasts_S8x1x2048_S8x18x2048 : S8x1x2048.Broadcasts S8x18x2048
  shapeCasts_S144x2048_S8x18x2048 : S144x2048.ShapeCasts S8x18x2048
  inb_S8x18x18_S8x18x18_0_0_0 : ∀ a, (![0, 0, 0] : Fin 3 → Nat) a + S8x18x18.size a ≤ S8x18x18.size a
  h_S8x18x18 : 0 < S8x18x18.numel
  dot_S144x2048_S3x2048_S144x3_1_1_0_0_n_n_wf : DotDims.WF S144x2048 S3x2048 S144x3 [1] [1] [0] [0] [] []
  dot_S144x2048_S144x2048_S144x144_1_1_0_0_n_n_wf : DotDims.WF S144x2048 S144x2048 S144x144 [1] [1] [0] [0] [] []
  dot_S144x4_S4x2048_S144x2048_1_0_0_1_n_n_wf : DotDims.WF S144x4 S4x2048 S144x2048 [1] [0] [0] [1] [] []
  dot_S8x18x3_S8x18x2048_S8x3x2048_1_1_2_2_0_0_wf : DotDims.WF S8x18x3 S8x18x2048 S8x3x2048 [1] [1] [2] [2] [0] [0]
  dot_S24x2048_S2048x2048_S24x2048_1_1_0_0_n_n_wf : DotDims.WF S24x2048 S2048x2048 S24x2048 [1] [1] [0] [0] [] []
  dot_S144x2048_S2048x2048_S144x2048_1_1_0_0_n_n_wf : DotDims.WF S144x2048 S2048x2048 S144x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x18x2048.size a ≤ S512x18x2048.size a
  hwx0_0 : ∀ i : grid0.Coords, EltTy.bits .f32 = 32 ∨ (Rect.block (s := S512x18x2048) S8x18x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x18x4.size a ≤ S512x18x4.size a
  hwx0_1 : ∀ i : grid0.Coords, EltTy.bits .f32 = 32 ∨ (Rect.block (s := S512x18x4) S8x18x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x2048.size a ≤ S3x2048.size a
  hwx0_2 : ∀ i : grid0.Coords, EltTy.bits .f32 = 32 ∨ (Rect.block (s := S3x2048) S3x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x2048.size a ≤ S4x2048.size a
  hwx0_4 : ∀ i : grid0.Coords, EltTy.bits .f32 = 32 ∨ (Rect.block (s := S4x2048) S4x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x2048.size a ≤ S3x2048.size a
  hwx0_8 : ∀ i : grid0.Coords, EltTy.bits .f32 = 32 ∨ (Rect.block (s := S3x2048) S3x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3.size a ≤ S3.size a
  hwx0_9 : ∀ i : grid0.Coords, EltTy.bits .f32 = 32 ∨ (Rect.block (s := S3) S3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x2048.size a ≤ S2048x2048.size a
  hwx0_10 : ∀ i : grid0.Coords, EltTy.bits .bf16 = 32 ∨ (Rect.block (s := S2048x2048) S2048x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048.size a ≤ S2048.size a
  hwx0_11 : ∀ i : grid0.Coords, EltTy.bits .f32 = 32 ∨ (Rect.block (s := S2048) S2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S2048.size a
  hwx0_12 : ∀ i : grid0.Coords, EltTy.bits .f32 = 32 ∨ (Rect.block (s := S2048) S2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2048.size a ≤ S2048.size a
  hwx0_13 : ∀ i : grid0.Coords, EltTy.bits .f32 = 32 ∨ (Rect.block (s := S2048) S2048.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2048x2048.size a ≤ S2048x2048.size a
  hwx0_14 : ∀ i : grid0.Coords, EltTy.bits .bf16 = 32 ∨ (Rect.block (s := S2048x2048) S2048x2048.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048.size a ≤ S2048.size a
  hwx0_15 : ∀ i : grid0.Coords, EltTy.bits .f32 = 32 ∨ (Rect.block (s := S2048) S2048.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2048.size a ≤ S2048.size a
  hwx0_16 : ∀ i : grid0.Coords, EltTy.bits .f32 = 32 ∨ (Rect.block (s := S2048) S2048.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S2048.size a ≤ S2048.size a
  hwx0_17 : ∀ i : grid0.Coords, EltTy.bits .f32 = 32 ∨ (Rect.block (s := S2048) S2048.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S8x18x2048.size a ≤ S512x18x2048.size a
  hwx0_18 : ∀ i : grid0.Coords, EltTy.bits .f32 = 32 ∨ (Rect.block (s := S512x18x2048) S8x18x2048.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S8x18x18.size a ≤ S512x18x18.size a
  hwx0_19 : ∀ i : grid0.Coords, EltTy.bits .f32 = 32 ∨ (Rect.block (s := S512x18x18) S8x18x18.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S8x18x18.size a ≤ S512x18x18.size a
  hwx0_20 : ∀ i : grid0.Coords, EltTy.bits .f32 = 32 ∨ (Rect.block (s := S512x18x18) S8x18x18.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S8x18x18.size a ≤ S512x18x18.size a
  hwx0_21 : ∀ i : grid0.Coords, EltTy.bits .f32 = 32 ∨ (Rect.block (s := S512x18x18) S8x18x18.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S8x18x18.size a ≤ S512x18x18.size a
  hwx0_22 : ∀ i : grid0.Coords, EltTy.bits .f32 = 32 ∨ (Rect.block (s := S512x18x18) S8x18x18.size (cc0_transform_22 i) (hinb0_22 i)).WholeWords (EltTy.packing .f32)

variable [Facts₀]

def dot_S144x2048_S3x2048_S144x3_1_1_0_0_n_n : DotDims S144x2048 S3x2048 S144x3 where
  lhsContracting := [1]
  rhsContracting := [1]
  lhsNonContracting := [0]
  rhsNonContracting := [0]
  lhsBatch := []
  rhsBatch := []
  wf := dot_S144x2048_S3x2048_S144x3_1_1_0_0_n_n_wf
def dot_S144x2048_S144x2048_S144x144_1_1_0_0_n_n : DotDims S144x2048 S144x2048 S144x144 where
  lhsContracting := [1]
  rhsContracting := [1]
  lhsNonContracting := [0]
  rhsNonContracting := [0]
  lhsBatch := []
  rhsBatch := []
  wf := dot_S144x2048_S144x2048_S144x144_1_1_0_0_n_n_wf
def dot_S144x4_S4x2048_S144x2048_1_0_0_1_n_n : DotDims S144x4 S4x2048 S144x2048 where
  lhsContracting := [1]
  rhsContracting := [0]
  lhsNonContracting := [0]
  rhsNonContracting := [1]
  lhsBatch := []
  rhsBatch := []
  wf := dot_S144x4_S4x2048_S144x2048_1_0_0_1_n_n_wf
def dot_S8x18x3_S8x18x2048_S8x3x2048_1_1_2_2_0_0 : DotDims S8x18x3 S8x18x2048 S8x3x2048 where
  lhsContracting := [1]
  rhsContracting := [1]
  lhsNonContracting := [2]
  rhsNonContracting := [2]
  lhsBatch := [0]
  rhsBatch := [0]
  wf := dot_S8x18x3_S8x18x2048_S8x3x2048_1_1_2_2_0_0_wf
def dot_S24x2048_S2048x2048_S24x2048_1_1_0_0_n_n : DotDims S24x2048 S2048x2048 S24x2048 where
  lhsContracting := [1]
  rhsContracting := [1]
  lhsNonContracting := [0]
  rhsNonContracting := [0]
  lhsBatch := []
  rhsBatch := []
  wf := dot_S24x2048_S2048x2048_S24x2048_1_1_0_0_n_n_wf
def dot_S144x2048_S2048x2048_S144x2048_1_1_0_0_n_n : DotDims S144x2048 S2048x2048 S144x2048 where
  lhsContracting := [1]
  rhsContracting := [1]
  lhsNonContracting := [0]
  rhsNonContracting := [0]
  lhsBatch := []
  rhsBatch := []
  wf := dot_S144x2048_S2048x2048_S144x2048_1_1_0_0_n_n_wf

abbrev win0_0 : Pipeline.Window sig grid0 :=
  Pipeline.Window.ofSpec (Memref.whole main_arg0) S8x18x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x18x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S2048x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S2048x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2048.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2048.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S2048.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v3_0) S8x18x2048.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v3_1) S8x18x18.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v3_2) S8x18x18.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v3_3) S8x18x18.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v3_4) S8x18x18.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S512x18x2048 : Shape := ⟨3, ![512, 18, 2048]⟩
abbrev S512x18x4 : Shape := ⟨3, ![512, 18, 4]⟩
abbrev S3x2048 : Shape := ⟨2, ![3, 2048]⟩
abbrev S3 : Shape := ⟨1, ![3]⟩
abbrev S2048x4 : Shape := ⟨2, ![2048, 4]⟩
abbrev S2048 : Shape := ⟨1, ![2048]⟩
abbrev S2048x2048 : Shape := ⟨2, ![2048, 2048]⟩
abbrev S512x18x3 : Shape := ⟨3, ![512, 18, 3]⟩
abbrev S1x1x3 : Shape := ⟨3, ![1, 1, 3]⟩
abbrev S_ : Shape := ⟨0, ![]⟩
abbrev S512x18 : Shape := ⟨2, ![512, 18]⟩
abbrev S512x18x1 : Shape := ⟨3, ![512, 18, 1]⟩
abbrev S512x18x18 : Shape := ⟨3, ![512, 18, 18]⟩
abbrev S1x1x2048 : Shape := ⟨3, ![1, 1, 2048]⟩
abbrev S512x1x18 : Shape := ⟨3, ![512, 1, 18]⟩
abbrev S512x3 : Shape := ⟨2, ![512, 3]⟩
abbrev S512x1x3 : Shape := ⟨3, ![512, 1, 3]⟩
abbrev S512x3x2048 : Shape := ⟨3, ![512, 3, 2048]⟩

abbrev nBuf : Space → Nat
  | .hbm => 204
  | .vmem => 0
  | .smem => 0
  | _ => 0

abbrev hbmTy0_0 (i : Nat) : BufTy := match i % 128 with
  | 0 => ⟨S512x18x2048, .f32⟩
  | 1 => ⟨S512x18x4, .f32⟩
  | 2 => ⟨S3x2048, .f32⟩
  | 3 => ⟨S3, .f32⟩
  | 4 => ⟨S2048x4, .f32⟩
  | 5 => ⟨S2048, .f32⟩
  | 6 => ⟨S2048, .f32⟩
  | 7 => ⟨S2048, .f32⟩
  | 8 => ⟨S3x2048, .f32⟩
  | 9 => ⟨S3, .f32⟩
  | 10 => ⟨S2048x2048, .f32⟩
  | 11 => ⟨S2048, .f32⟩
  | 12 => ⟨S2048, .f32⟩
  | 13 => ⟨S2048, .f32⟩
  | 14 => ⟨S2048x2048, .f32⟩
  | 15 => ⟨S2048, .f32⟩
  | 16 => ⟨S2048, .f32⟩
  | 17 => ⟨S2048, .f32⟩
  | 18 => ⟨S512x18x3, .f32⟩
  | 19 => ⟨S1x1x3, .f32⟩
  | 20 => ⟨S512x18x3, .f32⟩
  | 21 => ⟨S512x18x3, .f32⟩
  | 22 => ⟨S_, .f32⟩
  | 23 => ⟨S512x18, .f32⟩
  | 24 => ⟨S_, .f32⟩
  | 25 => ⟨S512x18, .f32⟩
  | 26 => ⟨S512x18, .f32⟩
  | 27 => ⟨S512x18x1, .f32⟩
  | 28 => ⟨S512x18x3, .f32⟩
  | 29 => ⟨S512x18x3, .f32⟩
  | 30 => ⟨S512x18x3, .f32⟩
  | 31 => ⟨S_, .f32⟩
  | 32 => ⟨S512x18, .f32⟩
  | 33 => ⟨S512x18x1, .f32⟩
  | 34 => ⟨S512x18x3, .f32⟩
  | 35 => ⟨S512x18x3, .f32⟩
  | 36 => ⟨S512x18x2048, .f32⟩
  | 37 => ⟨S_, .f32⟩
  | 38 => ⟨S512x18, .f32⟩
  | 39 => ⟨S512x18x1, .f32⟩
  | 40 => ⟨S512x18x1, .f32⟩
  | 41 => ⟨S_, .f32⟩
  | 42 => ⟨S512x18x1, .f32⟩
  | 43 => ⟨S512x18x1, .f32⟩
  | 44 => ⟨S512x18x2048, .f32⟩
  | 45 => ⟨S512x18x2048, .f32⟩
  | 46 => ⟨S512x18x18, .f32⟩
  | 47 => ⟨S512x18x3, .f32⟩
  | 48 => ⟨S_, .f32⟩
  | 49 => ⟨S512x18, .f32⟩
  | 50 => ⟨S512x18x1, .f32⟩
  | 51 => ⟨S512x18x1, .f32⟩
  | 52 => ⟨S_, .f32⟩
  | 53 => ⟨S512x18x1, .f32⟩
  | 54 => ⟨S512x18x1, .f32⟩
  | 55 => ⟨S512x18x3, .f32⟩
  | 56 => ⟨S512x18x3, .f32⟩
  | 57 => ⟨S512x18x18, .f32⟩
  | 58 => ⟨S512x18x2048, .f32⟩
  | 59 => ⟨S1x1x2048, .f32⟩
  | 60 => ⟨S512x18x2048, .f32⟩
  | 61 => ⟨S512x18x2048, .f32⟩
  | 62 => ⟨S_, .f32⟩
  | 63 => ⟨S2048, .f32⟩
  | 64 => ⟨S2048, .f32⟩
  | 65 => ⟨S1x1x2048, .f32⟩
  | 66 => ⟨S512x18x2048, .f32⟩
  | 67 => ⟨S512x18x2048, .f32⟩
  | 68 => ⟨S1x1x2048, .f32⟩
  | 69 => ⟨S512x18x2048, .f32⟩
  | 70 => ⟨S512x18x2048, .f32⟩
  | 71 => ⟨S_, .f32⟩
  | 72 => ⟨S512x18x2048, .f32⟩
  | 73 => ⟨S512x18x2048, .f32⟩
  | 74 => ⟨S512x18x3, .f32⟩
  | 75 => ⟨S1x1x3, .f32⟩
  | 76 => ⟨S512x18x3, .f32⟩
  | 77 => ⟨S512x18x3, .f32⟩
  | 78 => ⟨S_, .f32⟩
  | 79 => ⟨S512x18, .f32⟩
  | 80 => ⟨S_, .f32⟩
  | 81 => ⟨S512x18, .f32⟩
  | 82 => ⟨S512x18, .f32⟩
  | 83 => ⟨S512x18x1, .f32⟩
  | 84 => ⟨S512x18x3, .f32⟩
  | 85 => ⟨S512x18x3, .f32⟩
  | 86 => ⟨S512x18x3, .f32⟩
  | 87 => ⟨S_, .f32⟩
  | 88 => ⟨S512x18, .f32⟩
  | 89 => ⟨S512x18x1, .f32⟩
  | 90 => ⟨S512x18x3, .f32⟩
  | 91 => ⟨S512x18x3, .f32⟩
  | 92 => ⟨S512x18x1, .f32⟩
  | 93 => ⟨S512x18, .f32⟩
  | 94 => ⟨S512x18x1, .f32⟩
  | 95 => ⟨S512x18, .f32⟩
  | 96 => ⟨S_, .f32⟩
  | 97 => ⟨S512x18, .f32⟩
  | 98 => ⟨S512x18, .f32⟩
  | 99 => ⟨S512x18, .f32⟩
  | 100 => ⟨S512x18, .f32⟩
  | 101 => ⟨S512x18x1, .f32⟩
  | 102 => ⟨S512x18, .f32⟩
  | 103 => ⟨S512x18x1, .f32⟩
  | 104 => ⟨S512x18, .f32⟩
  | 105 => ⟨S_, .f32⟩
  | 106 => ⟨S512x18, .f32⟩
  | 107 => ⟨S512x18, .f32⟩
  | 108 => ⟨S512x18, .f32⟩
  | 109 => ⟨S512x18, .f32⟩
  | 110 => ⟨S512x1x18, .f32⟩
  | 111 => ⟨S512x18x1, .f32⟩
  | 112 => ⟨S512x18x18, .f32⟩
  | 113 => ⟨S512x18x18, .f32⟩
  | 114 => ⟨S512x18x18, .f32⟩
  | 115 => ⟨S512x18x18, .f32⟩
  | 116 => ⟨S512x1x18, .f32⟩
  | 117 => ⟨S512x18x1, .f32⟩
  | 118 => ⟨S512x18x18, .f32⟩
  | 119 => ⟨S512x18x18, .f32⟩
  | 120 => ⟨S512x18x18, .f32⟩
  | 121 => ⟨S512x18x18, .f32⟩
  | 122 => ⟨S512x18x18, .f32⟩
  | 123 => ⟨S_, .f32⟩
  | 124 => ⟨S512x18x18, .f32⟩
  | 125 => ⟨S512x18x18, .i1⟩
  | 126 => ⟨S_, .f32⟩
  | 127 => ⟨S_, .f32⟩
  | _ => ⟨S512x18x2048, .f32⟩

abbrev hbmTy0_1 (i : Nat) : BufTy := match i % 128 with
  | 0 => ⟨S512x18x18, .f32⟩
  | 1 => ⟨S512x18x18, .f32⟩
  | 2 => ⟨S512x18x18, .f32⟩
  | 3 => ⟨S_, .f32⟩
  | 4 => ⟨S_, .f32⟩
  | 5 => ⟨S512x18x18, .f32⟩
  | 6 => ⟨S512x18x18, .f32⟩
  | 7 => ⟨S_, .f32⟩
  | 8 => ⟨S512x18x18, .f32⟩
  | 9 => ⟨S512x18x18, .f32⟩
  | 10 => ⟨S_, .f32⟩
  | 11 => ⟨S512x18x18, .f32⟩
  | 12 => ⟨S512x18x18, .f32⟩
  | 13 => ⟨S512x18x3, .f32⟩
  | 14 => ⟨S_, .f32⟩
  | 15 => ⟨S512x18, .f32⟩
  | 16 => ⟨S512x18x1, .f32⟩
  | 17 => ⟨S512x18x1, .f32⟩
  | 18 => ⟨S_, .f32⟩
  | 19 => ⟨S512x18x1, .f32⟩
  | 20 => ⟨S512x18x1, .f32⟩
  | 21 => ⟨S512x18x3, .f32⟩
  | 22 => ⟨S512x18x3, .f32⟩
  | 23 => ⟨S512x18x18, .f32⟩
  | 24 => ⟨S512x18x3, .f32⟩
  | 25 => ⟨S_, .f32⟩
  | 26 => ⟨S512x3, .f32⟩
  | 27 => ⟨S512x1x3, .f32⟩
  | 28 => ⟨S_, .f32⟩
  | 29 => ⟨S512x1x3, .f32⟩
  | 30 => ⟨S512x1x3, .f32⟩
  | 31 => ⟨S512x18x3, .f32⟩
  | 32 => ⟨S512x18x3, .f32⟩
  | 33 => ⟨S_, .f32⟩
  | 34 => ⟨S512x18, .f32⟩
  | 35 => ⟨S512x18x1, .f32⟩
  | 36 => ⟨S_, .f32⟩
  | 37 => ⟨S512x18x1, .f32⟩
  | 38 => ⟨S512x18x1, .f32⟩
  | 39 => ⟨S512x18x3, .f32⟩
  | 40 => ⟨S512x18x3, .f32⟩
  | 41 => ⟨S512x3x2048, .f32⟩
  | 42 => ⟨S512x3x2048, .f32⟩
  | 43 => ⟨S1x1x2048, .f32⟩
  | 44 => ⟨S512x3x2048, .f32⟩
  | 45 => ⟨S512x3x2048, .f32⟩
  | 46 => ⟨S_, .f32⟩
  | 47 => ⟨S2048, .f32⟩
  | 48 => ⟨S2048, .f32⟩
  | 49 => ⟨S1x1x2048, .f32⟩
  | 50 => ⟨S512x3x2048, .f32⟩
  | 51 => ⟨S512x3x2048, .f32⟩
  | 52 => ⟨S1x1x2048, .f32⟩
  | 53 => ⟨S512x3x2048, .f32⟩
  | 54 => ⟨S512x3x2048, .f32⟩
  | 55 => ⟨S_, .f32⟩
  | 56 => ⟨S512x3x2048, .f32⟩
  | 57 => ⟨S512x3x2048, .f32⟩
  | 58 => ⟨S512x18x2048, .f32⟩
  | 59 => ⟨S512x18x2048, .f32⟩
  | 60 => ⟨S1x1x2048, .f32⟩
  | 61 => ⟨S512x18x2048, .f32⟩
  | 62 => ⟨S512x18x2048, .f32⟩
  | 63 => ⟨S_, .f32⟩
  | 64 => ⟨S2048, .f32⟩
  | 65 => ⟨S2048, .f32⟩
  | 66 => ⟨S1x1x2048, .f32⟩
  | 67 => ⟨S512x18x2048, .f32⟩
  | 68 => ⟨S512x18x2048, .f32⟩
  | 69 => ⟨S1x1x2048, .f32⟩
  | 70 => ⟨S512x18x2048, .f32⟩
  | 71 => ⟨S512x18x2048, .f32⟩
  | 72 => ⟨S_, .f32⟩
  | 73 => ⟨S512x18x2048, .f32⟩
  | 74 => ⟨S512x18x2048, .f32⟩
  | 75 => ⟨S512x18x2048, .f32⟩
  | _ => ⟨S512x18x2048, .f32⟩

abbrev hbmTy (i : Nat) : BufTy := match i / 128 with
  | 0 => hbmTy0_0 i
  | 1 => hbmTy0_1 i
  | _ => ⟨S512x18x2048, .f32⟩

abbrev bufTy : (tb : Table) → Fin (tcTables nBuf tb) → BufTy
  | .hbm, ⟨i, _⟩ => hbmTy i
  | _, _ => ⟨S512x18x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call2_cst : Ref sig .tc := ⟨.hbm, 71, rfl⟩
abbrev main_call2_v0 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_cst_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_7 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_9 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_10 : Ref sig .tc := ⟨.hbm, 123, rfl⟩
abbrev main_v84 : Ref sig .tc := ⟨.hbm, 124, rfl⟩
abbrev main_v85 : Ref sig .tc := ⟨.hbm, 125, rfl⟩
abbrev main_cst_11 : Ref sig .tc := ⟨.hbm, 126, rfl⟩
abbrev main_call3_v0 : Ref sig .tc := ⟨.hbm, 127, rfl⟩
abbrev main_call3_v1 : Ref sig .tc := ⟨.hbm, 128, rfl⟩
abbrev main_v86 : Ref sig .tc := ⟨.hbm, 129, rfl⟩
abbrev main_v87 : Ref sig .tc := ⟨.hbm, 130, rfl⟩
abbrev main_cst_12 : Ref sig .tc := ⟨.hbm, 131, rfl⟩
abbrev main_call4_v0 : Ref sig .tc := ⟨.hbm, 132, rfl⟩
abbrev main_call4_v1 : Ref sig .tc := ⟨.hbm, 133, rfl⟩
abbrev main_v88 : Ref sig .tc := ⟨.hbm, 134, rfl⟩
abbrev main_cst_13 : Ref sig .tc := ⟨.hbm, 135, rfl⟩
abbrev main_v89 : Ref sig .tc := ⟨.hbm, 136, rfl⟩
abbrev main_v90 : Ref sig .tc := ⟨.hbm, 137, rfl⟩
abbrev main_cst_14 : Ref sig .tc := ⟨.hbm, 138, rfl⟩
abbrev main_v91 : Ref sig .tc := ⟨.hbm, 139, rfl⟩
abbrev main_v92 : Ref sig .tc := ⟨.hbm, 140, rfl⟩
abbrev main_call5_v0 : Ref sig .tc := ⟨.hbm, 141, rfl⟩
abbrev main_call5_cst : Ref sig .tc := ⟨.hbm, 142, rfl⟩
abbrev main_call5_v1 : Ref sig .tc := ⟨.hbm, 143, rfl⟩
abbrev main_call5_v2 : Ref sig .tc := ⟨.hbm, 144, rfl⟩
abbrev main_v93 : Ref sig .tc := ⟨.hbm, 145, rfl⟩
abbrev main_cst_15 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_16 : Ref sig .tc := ⟨.hbm, 153, rfl⟩
abbrev main_v100 : Ref sig .tc := ⟨.hbm, 154, rfl⟩
abbrev main_v101 : Ref sig .tc := ⟨.hbm, 155, rfl⟩
abbrev main_cst_17 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_18 : Ref sig .tc := ⟨.hbm, 161, rfl⟩
abbrev main_v106 : Ref sig .tc := ⟨.hbm, 162, rfl⟩
abbrev main_v107 : Ref sig .tc := ⟨.hbm, 163, rfl⟩
abbrev main_cst_19 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_20 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_call6_cst : Ref sig .tc := ⟨.hbm, 183, rfl⟩
abbrev main_call6_v0 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_21 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_call7_cst : Ref sig .tc := ⟨.hbm, 200, rfl⟩
abbrev main_call7_v0 : Ref sig .tc := ⟨.hbm, 201, rfl⟩
abbrev main_v139 : Ref sig .tc := ⟨.hbm, 202, rfl⟩
abbrev main_v140 : Ref sig .tc := ⟨.hbm, 203, rfl⟩

abbrev nD : Nat := 1
abbrev τ : Topo := Topo.v7x

variable {F : FTy → Type} [FloatOps F]

class Facts₀ : Prop where
  bcast_S3_S1x1x3_2 : S3.BroadcastsInDim S1x1x3 (![2] : Fin 1 → Fin S1x1x3.rank)
  bcast_S1x1x3_S512x18x3_0_1_2 : S1x1x3.BroadcastsInDim S512x18x3 (![0, 1, 2] : Fin 3 → Fin S512x18x3.rank)
  reducesTo_S512x18x3_S512x18_d2 : S512x18x3.ReducesTo [2] S512x18
  h_S_ : 0 < S_.numel
  bcast_S_S512x18 : S_.BroadcastsInDim S512x18 (![] : Fin 0 → Fin S512x18.rank)
  bcast_S512x18_S512x18x1_0_1 : S512x18.BroadcastsInDim S512x18x1 (![0, 1] : Fin 2 → Fin S512x18x1.rank)
  bcast_S512x18x1_S512x18x3_0_1_2 : S512x18x1.BroadcastsInDim S512x18x3 (![0, 1, 2] : Fin 3 → Fin S512x18x3.rank)
  reducesTo_S512x18x2048_S512x18_d2 : S512x18x2048.ReducesTo [2] S512x18
  bcast_S_S512x18x1 : S_.BroadcastsInDim S512x18x1 (![] : Fin 0 → Fin S512x18x1.rank)
  bcast_S512x18x1_S512x18x2048_0_1_2 : S512x18x1.BroadcastsInDim S512x18x2048 (![0, 1, 2] : Fin 3 → Fin S512x18x2048.rank)
  bcast_S2048_S1x1x2048_2 : S2048.BroadcastsInDim S1x1x2048 (![2] : Fin 1 → Fin S1x1x2048.rank)
  bcast_S1x1x2048_S512x18x2048_0_1_2 : S1x1x2048.BroadcastsInDim S512x18x2048 (![0, 1, 2] : Fin 3 → Fin S512x18x2048.rank)
  bcast_S_S2048 : S_.BroadcastsInDim S2048 (![] : Fin 0 → Fin S2048.rank)
  bcast_S_S512x18x2048 : S_.BroadcastsInDim S512x18x2048 (![] : Fin 0 → Fin S512x18x2048.rank)
  slices_S512x18x4_S512x18x1_0_0_0 : S512x18x4.Slices ![0, 0, 0] S512x18x1
  shapeCasts_S512x18x1_S512x18 : S512x18x1.ShapeCasts S512x18
  slices_S512x18x4_S512x18x1_0_0_2 : S512x18x4.Slices ![0, 0, 2] S512x18x1
  slices_S512x18x4_S512x18x1_0_0_1 : S512x18x4.Slices ![0, 0, 1] S512x18x1
  slices_S512x18x4_S512x18x1_0_0_3 : S512x18x4.Slices ![0, 0, 3] S512x18x1
  bcast_S512x18_S512x1x18_0_2 : S512x18.BroadcastsInDim S512x1x18 (![0, 2] : Fin 2 → Fin S512x1x18.rank)
  bcast_S512x1x18_S512x18x18_0_1_2 : S512x1x18.BroadcastsInDim S512x18x18 (![0, 1, 2] : Fin 3 → Fin S512x18x18.rank)
  bcast_S512x18x1_S512x18x18_0_1_2 : S512x18x1.BroadcastsInDim S512x18x18 (![0, 1, 2] : Fin 3 → Fin S512x18x18.rank)
  bcast_S_S512x18x18 : S_.BroadcastsInDim S512x18x18 (![] : Fin 0 → Fin S512x18x18.rank)
  reducesTo_S512x18x3_S512x3_d1 : S512x18x3.ReducesTo [1] S512x3
  bcast_S512x3_S512x1x3_0_2 : S512x3.BroadcastsInDim S512x1x3 (![0, 2] : Fin 2 → Fin S512x1x3.rank)
  bcast_S_S512x1x3 : S_.BroadcastsInDim S512x1x3 (![] : Fin 0 → Fin S512x1x3.rank)
  bcast_S512x1x3_S512x18x3_0_1_2 : S512x1x3.BroadcastsInDim S512x18x3 (![0, 1, 2] : Fin 3 → Fin S512x18x3.rank)
  bcast_S1x1x2048_S512x3x2048_0_1_2 : S1x1x2048.BroadcastsInDim S512x3x2048 (![0, 1, 2] : Fin 3 → Fin S512x3x2048.rank)
  bcast_S_S512x3x2048 : S_.BroadcastsInDim S512x3x2048 (![] : Fin 0 → Fin S512x3x2048.rank)
  dot_S512x18x2048_S3x2048_S512x18x3_2_1_01_0_n_n_wf : DotDims.WF S512x18x2048 S3x2048 S512x18x3 [2] [1] [0, 1] [0] [] []
  dot_S512x18x2048_S512x18x2048_S512x18x18_2_2_1_1_0_0_wf : DotDims.WF S512x18x2048 S512x18x2048 S512x18x18 [2] [2] [1] [1] [0] [0]
  dot_S512x18x3_S512x18x3_S512x18x18_2_2_1_1_0_0_wf : DotDims.WF S512x18x3 S512x18x3 S512x18x18 [2] [2] [1] [1] [0] [0]
  dot_S512x18x4_S2048x4_S512x18x2048_2_1_01_0_n_n_wf : DotDims.WF S512x18x4 S2048x4 S512x18x2048 [2] [1] [0, 1] [0] [] []
  dot_S512x18x3_S512x18x2048_S512x3x2048_1_1_2_2_0_0_wf : DotDims.WF S512x18x3 S512x18x2048 S512x3x2048 [1] [1] [2] [2] [0] [0]
  dot_S512x3x2048_S2048x2048_S512x3x2048_2_1_01_0_n_n_wf : DotDims.WF S512x3x2048 S2048x2048 S512x3x2048 [2] [1] [0, 1] [0] [] []
  dot_S512x18x3_S512x3x2048_S512x18x2048_2_1_1_2_0_0_wf : DotDims.WF S512x18x3 S512x3x2048 S512x18x2048 [2] [1] [1] [2] [0] [0]
  dot_S512x18x2048_S2048x2048_S512x18x2048_2_1_01_0_n_n_wf : DotDims.WF S512x18x2048 S2048x2048 S512x18x2048 [2] [1] [0, 1] [0] [] []

variable [Facts₀]

def dot_S512x18x2048_S3x2048_S512x18x3_2_1_01_0_n_n : DotDims S512x18x2048 S3x2048 S512x18x3 where
  lhsContracting := [2]
  rhsContracting := [1]
  lhsNonContracting := [0, 1]
  rhsNonContracting := [0]
  lhsBatch := []
  rhsBatch := []
  wf := dot_S512x18x2048_S3x2048_S512x18x3_2_1_01_0_n_n_wf
def dot_S512x18x2048_S512x18x2048_S512x18x18_2_2_1_1_0_0 : DotDims S512x18x2048 S512x18x2048 S512x18x18 where
  lhsContracting := [2]
  rhsContracting := [2]
  lhsNonContracting := [1]
  rhsNonContracting := [1]
  lhsBatch := [0]
  rhsBatch := [0]
  wf := dot_S512x18x2048_S512x18x2048_S512x18x18_2_2_1_1_0_0_wf
def dot_S512x18x3_S512x18x3_S512x18x18_2_2_1_1_0_0 : DotDims S512x18x3 S512x18x3 S512x18x18 where
  lhsContracting := [2]
  rhsContracting := [2]
  lhsNonContracting := [1]
  rhsNonContracting := [1]
  lhsBatch := [0]
  rhsBatch := [0]
  wf := dot_S512x18x3_S512x18x3_S512x18x18_2_2_1_1_0_0_wf
def dot_S512x18x4_S2048x4_S512x18x2048_2_1_01_0_n_n : DotDims S512x18x4 S2048x4 S512x18x2048 where
  lhsContracting := [2]
  rhsContracting := [1]
  lhsNonContracting := [0, 1]
  rhsNonContracting := [0]
  lhsBatch := []
  rhsBatch := []
  wf := dot_S512x18x4_S2048x4_S512x18x2048_2_1_01_0_n_n_wf
def dot_S512x18x3_S512x18x2048_S512x3x2048_1_1_2_2_0_0 : DotDims S512x18x3 S512x18x2048 S512x3x2048 where
  lhsContracting := [1]
  rhsContracting := [1]
  lhsNonContracting := [2]
  rhsNonContracting := [2]
  lhsBatch := [0]
  rhsBatch := [0]
  wf := dot_S512x18x3_S512x18x2048_S512x3x2048_1_1_2_2_0_0_wf
def dot_S512x3x2048_S2048x2048_S512x3x2048_2_1_01_0_n_n : DotDims S512x3x2048 S2048x2048 S512x3x2048 where
  lhsContracting := [2]
  rhsContracting := [1]
  lhsNonContracting := [0, 1]
  rhsNonContracting := [0]
  lhsBatch := []
  rhsBatch := []
  wf := dot_S512x3x2048_S2048x2048_S512x3x2048_2_1_01_0_n_n_wf
def dot_S512x18x3_S512x3x2048_S512x18x2048_2_1_1_2_0_0 : DotDims S512x18x3 S512x3x2048 S512x18x2048 where
  lhsContracting := [2]
  rhsContracting := [1]
  lhsNonContracting := [1]
  rhsNonContracting := [2]
  lhsBatch := [0]
  rhsBatch := [0]
  wf := dot_S512x18x3_S512x3x2048_S512x18x2048_2_1_1_2_0_0_wf
def dot_S512x18x2048_S2048x2048_S512x18x2048_2_1_01_0_n_n : DotDims S512x18x2048 S2048x2048 S512x18x2048 where
  lhsContracting := [2]
  rhsContracting := [1]
  lhsNonContracting := [0, 1]
  rhsNonContracting := [0]
  lhsBatch := []
  rhsBatch := []
  wf := dot_S512x18x2048_S2048x2048_S512x18x2048_2_1_01_0_n_n_wf

class Facts : Prop extends Facts₀ where

variable [Facts]
-- ==== Proof.Lay.lean ====
/-
  The layout operations of the kernel body, each read at explicit coordinates: a block of eight batch elements of 18
  rows is also a matrix of 144 rows (row 18 p + n is row n of batch element p); a value per row is kept as a unit
  column or a unit row and spread back over the features, the clusters or the other rows; a single cluster or a single
  coordinate is cut out as a unit column; and a sum or a maximum along the last axis, or a sum down the rows, is a sum
  or a fold over that axis' coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Lay

open Idealize.ShloMosaic Idealize.ShloMosaic.ValueIdx

variable {α : Type}

/-- Row `n` of batch element `p` among the 144 rows of a block. -/
abbrev row (p : Fin 8) (n : Fin 18) : Fin 144 := ⟨p.val * 18 + n.val, by have := p.isLt; have := n.isLt; omega⟩

/-- Cluster row `k` of batch element `p` among the 24 cluster rows of a block. -/
abbrev crow (p : Fin 8) (k : Fin 3) : Fin 24 := ⟨p.val * 3 + k.val, by have := p.isLt; have := k.isLt; omega⟩

/-! ## Eight batch elements of 18 rows as 144 rows, and back -/

theorem fold_rows {D : Nat} (v : (⟨3, ![8, 18, D]⟩ : Shape).Idx → α) (h : (⟨3, ![8, 18, D]⟩ : Shape).ShapeCasts ⟨2, ![144, D]⟩)
    (p : Fin 8) (n : Fin 18) (c : Fin D) : shapeCast ⟨2, ![144, D]⟩ v h (ix2 (row p n) c) = v (ix3 p n c) :=
  shapeCast_apply v h _ _ (by rw [Shape.rowMajor_val_three, Shape.rowMajor_val_two]; rfl)

theorem unfold_rows {D : Nat} (v : (⟨2, ![144, D]⟩ : Shape).Idx → α) (h : (⟨2, ![144, D]⟩ : Shape).ShapeCasts ⟨3, ![8, 18, D]⟩)
    (p : Fin 8) (n : Fin 18) (c : Fin D) : shapeCast ⟨3, ![8, 18, D]⟩ v h (ix3 p n c) = v (ix2 (row p n) c) :=
  shapeCast_apply v h _ _ (by rw [Shape.rowMajor_val_three, Shape.rowMajor_val_two]; rfl)

theorem fold_crows {D : Nat} (v : (⟨3, ![8, 3, D]⟩ : Shape).Idx → α) (h : (⟨3, ![8, 3, D]⟩ : Shape).ShapeCasts ⟨2, ![24, D]⟩)
    (p : Fin 8) (k : Fin 3) (c : Fin D) : shapeCast ⟨2, ![24, D]⟩ v h (ix2 (crow p k) c) = v (ix3 p k c) :=
  shapeCast_apply v h _ _ (by rw [Shape.rowMajor_val_three, Shape.rowMajor_val_two]; rfl)

theorem unfold_crows {D : Nat} (v : (⟨2, ![24, D]⟩ : Shape).Idx → α) (h : (⟨2, ![24, D]⟩ : Shape).ShapeCasts ⟨3, ![8, 3, D]⟩)
    (p : Fin 8) (k : Fin 3) (c : Fin D) : shapeCast ⟨3, ![8, 3, D]⟩ v h (ix3 p k c) = v (ix2 (crow p k) c) :=
  shapeCast_apply v h _ _ (by rw [Shape.rowMajor_val_three, Shape.rowMajor_val_two]; rfl)

/-! ## A value per row (or per batch element and cluster), kept with a unit axis -/

theorem keep_last {A N : Nat} (v : (⟨2, ![A, N]⟩ : Shape).Idx → α) (h : (⟨2, ![A, N]⟩ : Shape).ShapeCasts ⟨3, ![A, N, 1]⟩)
    (p : Fin A) (n : Fin N) (u : Fin 1) : shapeCast ⟨3, ![A, N, 1]⟩ v h (ix3 p n u) = v (ix2 p n) :=
  shapeCast_apply v h _ _ (by
    rw [Shape.rowMajor_val_three, Shape.rowMajor_val_two]
    show p.val * N + n.val = (p.val * N + n.val) * 1 + u.val
    have := u.isLt; omega)

theorem keep_mid {A N : Nat} (v : (⟨2, ![A, N]⟩ : Shape).Idx → α) (h : (⟨2, ![A, N]⟩ : Shape).ShapeCasts ⟨3, ![A, 1, N]⟩)
    (p : Fin A) (u : Fin 1) (n : Fin N) : shapeCast ⟨3, ![A, 1, N]⟩ v h (ix3 p u n) = v (ix2 p n) :=
  shapeCast_apply v h _ _ (by
    rw [Shape.rowMajor_val_three, Shape.rowMajor_val_two]
    show p.val * N + n.val = (p.val * 1 + u.val) * N + n.val
    have hu : u.val = 0 := by have := u.isLt; omega
    rw [hu, Nat.mul_one, Nat.add_zero])

theorem drop_last {A N : Nat} (v : (⟨3, ![A, N, 1]⟩ : Shape).Idx → α) (h : (⟨3, ![A, N, 1]⟩ : Shape).ShapeCasts ⟨2, ![A, N]⟩)
    (p : Fin A) (n : Fin N) : shapeCast ⟨2, ![A, N]⟩ v h (ix2 p n) = v (ix3 p n (0 : Fin 1)) :=
  shapeCast_apply v h _ _ (by
    rw [Shape.rowMajor_val_three, Shape.rowMajor_val_two]
    show (p.val * N + n.val) * 1 + 0 = p.val * N + n.val
    omega)

theorem drop_mid {A N : Nat} (v : (⟨3, ![A, 1, N]⟩ : Shape).Idx → α) (h : (⟨3, ![A, 1, N]⟩ : Shape).ShapeCasts ⟨2, ![A, N]⟩)
    (p : Fin A) (n : Fin N) : shapeCast ⟨2, ![A, N]⟩ v h (ix2 p n) = v (ix3 p (0 : Fin 1) n) :=
  shapeCast_apply v h _ _ (by
    rw [Shape.rowMajor_val_three, Shape.rowMajor_val_two]
    show (p.val * 1 + 0) * N + n.val = p.val * N + n.val
    rw [Nat.mul_one, Nat.add_zero])

/-! ## Spread back over an axis -/

theorem spread_last {A N D : Nat} (v : (⟨3, ![A, N, 1]⟩ : Shape).Idx → α) (h : (⟨3, ![A, N, 1]⟩ : Shape).Broadcasts ⟨3, ![A, N, D]⟩)
    (hA : A ≠ 1) (hN : N ≠ 1) (p : Fin A) (n : Fin N) (c : Fin D) : broadcastTo ⟨3, ![A, N, D]⟩ v h (ix3 p n c) = v (ix3 p n (0 : Fin 1)) := by
  refine broadcastTo_apply v h (ix3 p n c) (ix3 p n (0 : Fin 1)) fun ax => ?_
  match ax with
  | ⟨0, _⟩ => show p.val = if A = 1 then 0 else p.val; rw [if_neg hA]
  | ⟨1, _⟩ => show n.val = if N = 1 then 0 else n.val; rw [if_neg hN]
  | ⟨2, _⟩ => rfl

theorem spread_mid {A N D : Nat} (v : (⟨3, ![A, 1, D]⟩ : Shape).Idx → α) (h : (⟨3, ![A, 1, D]⟩ : Shape).Broadcasts ⟨3, ![A, N, D]⟩)
    (hA : A ≠ 1) (hD : D ≠ 1) (p : Fin A) (n : Fin N) (c : Fin D) : broadcastTo ⟨3, ![A, N, D]⟩ v h (ix3 p n c) = v (ix3 p (0 : Fin 1) c) := by
  refine broadcastTo_apply v h (ix3 p n c) (ix3 p (0 : Fin 1) c) fun ax => ?_
  match ax with
  | ⟨0, _⟩ => show p.val = if A = 1 then 0 else p.val; rw [if_neg hA]
  | ⟨1, _⟩ => rfl
  | ⟨2, _⟩ => show c.val = if D = 1 then 0 else c.val; rw [if_neg hD]

/-- A vector of `D` entries as one row spread over `R` rows. -/
theorem spread_vec {R D : Nat} (v : (⟨1, ![D]⟩ : Shape).Idx → α) (h1 : (⟨1, ![D]⟩ : Shape).ShapeCasts ⟨2, ![1, D]⟩)
    (h2 : (⟨2, ![1, D]⟩ : Shape).Broadcasts ⟨2, ![R, D]⟩) (r : Fin R) (c : Fin D) :
    broadcastTo ⟨2, ![R, D]⟩ (shapeCast ⟨2, ![1, D]⟩ v h1) h2 (ix2 r c) = v (ix1 c) := by
  rw [broadcastTo_1b_ab_apply, shapeCast_a_1a_apply]

/-! ## One cluster, one coordinate, one cluster row cut out -/

theorem cut_last {A N D : Nat} (o : Nat) (ho : o < D) (v : (⟨3, ![A, N, D]⟩ : Shape).Idx → α)
    (h : (⟨3, ![A, N, D]⟩ : Shape).Slices ![0, 0, o] ⟨3, ![A, N, 1]⟩) (p : Fin A) (n : Fin N) (u : Fin 1) :
    extractStridedSlice ⟨3, ![A, N, 1]⟩ ![0, 0, o] v h (ix3 p n u) = v (ix3 p n ⟨o, ho⟩) := by
  refine extractStridedSlice_apply _ v h (ix3 p n u) (ix3 p n ⟨o, ho⟩) fun ax => ?_
  match ax with
  | ⟨0, _⟩ => show p.val = 0 + p.val; omega
  | ⟨1, _⟩ => show n.val = 0 + n.val; omega
  | ⟨2, _⟩ => show o = o + u.val; have := u.isLt; omega

theorem cut_mid {A N D : Nat} (o : Nat) (ho : o < N) (v : (⟨3, ![A, N, D]⟩ : Shape).Idx → α)
    (h : (⟨3, ![A, N, D]⟩ : Shape).Slices ![0, o, 0] ⟨3, ![A, 1, D]⟩) (p : Fin A) (u : Fin 1) (c : Fin D) :
    extractStridedSlice ⟨3, ![A, 1, D]⟩ ![0, o, 0] v h (ix3 p u c) = v (ix3 p ⟨o, ho⟩ c) := by
  refine extractStridedSlice_apply _ v h (ix3 p u c) (ix3 p ⟨o, ho⟩ c) fun ax => ?_
  match ax with
  | ⟨0, _⟩ => show p.val = 0 + p.val; omega
  | ⟨1, _⟩ => show o = o + u.val; have := u.isLt; omega
  | ⟨2, _⟩ => show c.val = 0 + c.val; omega

/-! ## Sums and maxima along an axis -/

theorem lane_sum {A N D : Nat} {φ : FTy} (v : FVec Ideal ⟨3, ![A, N, D]⟩ φ) (acc : BitVec φ.bits)
    (h : (⟨3, ![A, N, D]⟩ : Shape).Reduces [2] ⟨2, ![A, N]⟩) (hφ : FKind.Formats φ) (hacc : acc = FKind.add.neutral φ hφ)
    (p : Fin A) (n : Fin N) :
    multiReduction .add [2] ⟨2, ![A, N]⟩ v acc h hφ hacc (ix2 p n) = ∑ k : Fin D, v (ix3 p n k) := by
  rw [Ideal.multiReduction_add_single]
  refine Finset.sum_congr rfl fun k _ => congrArg v (funext fun ax => Fin.ext ?_)
  match ax with
  | ⟨0, _⟩ => rfl
  | ⟨1, _⟩ => rfl
  | ⟨2, _⟩ => rfl

theorem lane_max {A N D : Nat} {φ : FTy} (v : FVec Ideal ⟨3, ![A, N, D]⟩ φ) (acc : BitVec φ.bits)
    (h : (⟨3, ![A, N, D]⟩ : Shape).Reduces [2] ⟨2, ![A, N]⟩) (hφ : FKind.Formats φ) (hacc : acc = FKind.maximumf.neutral φ hφ)
    (p : Fin A) (n : Fin N) :
    multiReduction .maximumf [2] ⟨2, ![A, N]⟩ v acc h hφ hacc (ix2 p n)
      = (Finset.univ : Finset (Fin D)).fold max (Ideal.ofBits φ acc) (fun k => v (ix3 p n k)) := by
  rw [Ideal.multiReduction_maximumf_single]
  have e : (v ∘ h.lift (ix2 p n)) = fun k : Fin D => v (ix3 p n k) :=
    funext fun k => congrArg v (funext fun ax => Fin.ext (by
      match ax with
      | ⟨0, _⟩ => rfl
      | ⟨1, _⟩ => rfl
      | ⟨2, _⟩ => rfl))
  rw [e]
  rfl

theorem mid_sum {A N D : Nat} {φ : FTy} (v : FVec Ideal ⟨3, ![A, N, D]⟩ φ) (acc : BitVec φ.bits)
    (h : (⟨3, ![A, N, D]⟩ : Shape).Reduces [1] ⟨2, ![A, D]⟩) (hφ : FKind.Formats φ) (hacc : acc = FKind.add.neutral φ hφ)
    (p : Fin A) (c : Fin D) :
    multiReduction .add [1] ⟨2, ![A, D]⟩ v acc h hφ hacc (ix2 p c) = ∑ n : Fin N, v (ix3 p n c) := by
  rw [Ideal.multiReduction_add_single]
  refine Finset.sum_congr rfl fun k _ => congrArg v (funext fun ax => Fin.ext ?_)
  match ax with
  | ⟨0, _⟩ => rfl
  | ⟨1, _⟩ => rfl
  | ⟨2, _⟩ => rfl

end Cert.Bridge.Lay

end
-- ==== Proof.Spec.lean ====
/-
  What the two programs compute, stated once, batch by batch, over plain index types.

  One batch element carries a matrix X of 18 rows of 2048 features and a matrix Cd of 18 rows of 4 coordinates.
  Two soft assignments of the 18 rows to 3 clusters are formed: z1, the softmax over the clusters of a linear map of a
  row of X, and z2, the softmax of a linear map of a hidden row (a linear map of the coordinates, scaled, shifted and
  clipped below at zero). Each assignment, normalized row by row to Euclidean length one (the length clipped below at a
  small constant), gives an 18 x 18 table of inner products of rows. The sum z = z1 + z2, normalized once down the rows
  and once across the clusters, carries X to 3 cluster rows and back: u = encᵀ X, a linear map with scale, shift and
  clip, then dec times that, one more such linear map, and X added back.

  Every function is over an arbitrary number B of batch elements, so that the same text describes one block of eight
  batch elements and the whole array of 512. Float words stay words: the same word on both sides is never evaluated.
-/
import Idealize.ShloMosaic.PureOps.Ideal
import Idealize.ShloMosaic.PureOps.Ideal.Laws
import Idealize.ShloMosaic.Lib.ValueIdx

noncomputable section

namespace Cert.Bridge.Spec

open Idealize.ShloMosaic Idealize.ShloMosaic.ValueIdx

/-- The word of minus infinity, the softmax's neutral element for the row maximum. -/
abbrev ninf : EReal := Ideal.ofBits .f32 0xFF800000#32
/-- The small constant below which a length or a normalizing sum is not allowed to fall. -/
abbrev eps : EReal := Ideal.ofBits .f32 0x2B8CBCCC#32
/-- The scale every learned gain is multiplied with. -/
abbrev bn : EReal := Ideal.ofBits .f32 0x3F7FFFAC#32
/-- The word of zero, the clip's floor. -/
abbrev zw : EReal := Ideal.ofBits .f32 0x00000000#32

/-! ## One row -/

/-- A row's maximum over the three clusters, never below minus infinity's word. -/
def rowmax (l : Fin 3 → EReal) : EReal := max ninf ((Finset.univ : Finset (Fin 3)).fold max ninf l)

/-- The softmax of a row of three logits: exponentials of the logits less the row maximum, over their sum. -/
def smax (l : Fin 3 → EReal) (k : Fin 3) : EReal :=
  Ideal.div (Ideal.exp (l k - rowmax l)) (∑ k' : Fin 3, Ideal.exp (l k' - rowmax l))

/-- The sum of a row's squares. -/
def sumsq (z : Fin 3 → EReal) : EReal := ∑ k : Fin 3, z k * z k

/-- A row over its Euclidean length, the length clipped below at `eps`. -/
def l2n (z : Fin 3 → EReal) (k : Fin 3) : EReal := Ideal.div (z k) (max (Ideal.sqrt (sumsq z)) eps)

/-- A linear map followed by the gain (scaled by `bn`), the shift and the clip at zero. -/
def act (s bias gain shift : EReal) : EReal := max ((s + bias) * (gain * bn) + shift) zw

/-! ## One batch element -/

section Batch
variable (X : Fin 18 → Fin 2048 → EReal) (Cd : Fin 18 → Fin 4 → EReal)
variable (W1 : Fin 3 → Fin 2048 → EReal) (B1 : Fin 3 → EReal)
variable (W2a : Fin 2048 → Fin 4 → EReal) (B2a G2 Be2 : Fin 2048 → EReal)
variable (W2b : Fin 3 → Fin 2048 → EReal) (B2b : Fin 3 → EReal)
variable (Wc : Fin 2048 → Fin 2048 → EReal) (Bc Gc Bec : Fin 2048 → EReal)
variable (W3 : Fin 2048 → Fin 2048 → EReal) (B3 G3 Be3 : Fin 2048 → EReal)

/-- The three logits of row `n` of a matrix of 2048 features under a 3 x 2048 linear map with bias. -/
def lin (M : Fin 18 → Fin 2048 → EReal) (W : Fin 3 → Fin 2048 → EReal) (Bv : Fin 3 → EReal) (n : Fin 18) (k : Fin 3) : EReal :=
  (∑ c : Fin 2048, M n c * W k c) + Bv k

/-- The first assignment: the softmax of the logits of a row of X. -/
def z1 (n : Fin 18) : Fin 3 → EReal := smax (lin X W1 B1 n)

/-- The hidden row: a linear map of the four coordinates, then gain, shift and clip. -/
def hid (n : Fin 18) (c : Fin 2048) : EReal := act (∑ f : Fin 4, Cd n f * W2a c f) (B2a c) (G2 c) (Be2 c)

/-- The second assignment: the softmax of the logits of a hidden row. -/
def z2 (n : Fin 18) : Fin 3 → EReal := smax (lin (hid Cd W2a B2a G2 Be2) W2b B2b n)

/-- The table of inner products of the normalized rows of an assignment. -/
def cosAff (z : Fin 18 → Fin 3 → EReal) (i j : Fin 18) : EReal := ∑ k : Fin 3, l2n (z i) k * l2n (z j) k

/-- The sum of the two assignments. -/
def zs (z z' : Fin 18 → Fin 3 → EReal) (n : Fin 18) (k : Fin 3) : EReal := z n k + z' n k

/-- Normalized down the rows. -/
def enc (z : Fin 18 → Fin 3 → EReal) (n : Fin 18) (k : Fin 3) : EReal := Ideal.div (z n k) ((∑ n' : Fin 18, z n' k) + eps)

/-- Normalized across the clusters. -/
def dec (z : Fin 18 → Fin 3 → EReal) (n : Fin 18) (k : Fin 3) : EReal := Ideal.div (z n k) ((∑ k' : Fin 3, z n k') + eps)

/-- The cluster rows: the encoding's transpose times X. -/
def clus (e : Fin 18 → Fin 3 → EReal) (k : Fin 3) (c : Fin 2048) : EReal := ∑ n : Fin 18, e n k * X n c

/-- A 2048 x 2048 linear map of rows with bias, gain, shift and clip. -/
def conv {ι : Type} (M : ι → Fin 2048 → EReal) (W : Fin 2048 → Fin 2048 → EReal) (Bv Gv Sv : Fin 2048 → EReal) (r : ι) (d : Fin 2048) : EReal :=
  act (∑ c : Fin 2048, M r c * W d c) (Bv d) (Gv d) (Sv d)

/-- Back from the cluster rows to the 18 rows. -/
def spread (dd : Fin 18 → Fin 3 → EReal) (U : Fin 3 → Fin 2048 → EReal) (n : Fin 18) (c : Fin 2048) : EReal := ∑ k : Fin 3, dd n k * U k c

/-- The first result's batch element. -/
def yOut (n : Fin 18) (d : Fin 2048) : EReal :=
  let z := zs (z1 X W1 B1) (z2 Cd W2a B2a G2 Be2 W2b B2b)
  conv (spread (dec z) (conv (clus X (enc z)) Wc Bc Gc Bec)) W3 B3 G3 Be3 n d + X n d

end Batch

/-! ## Arrays: a batch axis in front -/

section Arrays
variable {B : Nat}

/-- Batch element `b` of a three-axis array, as a matrix. -/
def slab {a c : Nat} (A : (⟨3, ![B, a, c]⟩ : Shape).Idx → EReal) (b : Fin B) : Fin a → Fin c → EReal := fun i j => A (ix3 b i j)
/-- A two-axis array as a matrix. -/
def mat {a c : Nat} (A : (⟨2, ![a, c]⟩ : Shape).Idx → EReal) : Fin a → Fin c → EReal := fun i j => A (ix2 i j)
/-- A two-axis array as the transposed matrix. -/
def matT {a c : Nat} (A : (⟨2, ![a, c]⟩ : Shape).Idx → EReal) : Fin c → Fin a → EReal := fun i j => A (ix2 j i)
/-- A one-axis array as a vector. -/
def vec {a : Nat} (A : (⟨1, ![a]⟩ : Shape).Idx → EReal) : Fin a → EReal := fun i => A (ix1 i)

end Arrays

end Cert.Bridge.Spec

end
-- ==== Proof.KMat.lean ====
/-
  The kernel body's matrix products into a zero accumulator, each read at an index as the plain sum, over the contracted
  axis, of the products of the two operands' entries. No order of summation and no rounding is left at the exact
  instance, so each is the sum the reference's contraction denotes.
-/
import proofs.«131870_j89318139887950_2_alg».proof.Proof.Gen.KernelIdeal
import Idealize.ShloMosaic.Lib.ValueIdx
import Idealize.ShloMosaic.PureOps.Ideal.Laws

noncomputable section

namespace Cert.Bridge.K

open Cert.KernelIdeal Idealize.ShloMosaic Idealize.ShloMosaic.ValueIdx

/-- Row q of 144 against the three cluster rows of a 3 x 2048 matrix: a sum over the 2048 features. -/
theorem mm_logits (l : FVec Ideal S144x2048 .bf16) (r : FVec Ideal S3x2048 .bf16) (q : Fin 144) (k : Fin 3) :
    matmul dot_S144x2048_S3x2048_S144x3_1_1_0_0_n_n none l r (constant S144x3 .f32 0x00000000#32) (ix2 q k)
      = ∑ c : Fin 2048, l (ix2 q c) * r (ix2 k c) := by
  show FloatOps.matmul dot_S144x2048_S3x2048_S144x3_1_1_0_0_n_n none l r (constant S144x3 .f32 0x00000000#32) (ix2 q k) = _
  rw [Ideal.matmul_constant_zero_apply, ← Equiv.sum_comp (contrEquiv1 dot_S144x2048_S3x2048_S144x3_1_1_0_0_n_n 2048 rfl rfl).symm]
  refine Finset.sum_congr rfl fun c _ => ?_
  have hk := contrEquiv1_symm_val dot_S144x2048_S3x2048_S144x3_1_1_0_0_n_n 2048 rfl rfl c
  have el : dot_S144x2048_S3x2048_S144x3_1_1_0_0_n_n.lhsIdx (ix2 q k) ((contrEquiv1 dot_S144x2048_S3x2048_S144x3_1_1_0_0_n_n 2048 rfl rfl).symm c) = ix2 q c := funext fun a => Fin.ext (by
    match a with
    | ⟨0, _⟩ =>
      show (dot_S144x2048_S3x2048_S144x3_1_1_0_0_n_n.lhsIdx (ix2 q k) ((contrEquiv1 dot_S144x2048_S3x2048_S144x3_1_1_0_0_n_n 2048 rfl rfl).symm c) 0).val = q.val
      unfold DotDims.lhsIdx
      rw [dif_neg (show ¬(0 : Fin S144x2048.rank) ∈ dot_S144x2048_S3x2048_S144x3_1_1_0_0_n_n.lhsBatch by decide), dif_pos (show (0 : Fin S144x2048.rank) ∈ dot_S144x2048_S3x2048_S144x3_1_1_0_0_n_n.lhsNonContracting by decide)]
      rfl
    | ⟨1, _⟩ => exact (dot_S144x2048_S3x2048_S144x3_1_1_0_0_n_n.lhsIdx_val_of_single rfl _ _).trans hk)
  have er : dot_S144x2048_S3x2048_S144x3_1_1_0_0_n_n.rhsIdx (ix2 q k) ((contrEquiv1 dot_S144x2048_S3x2048_S144x3_1_1_0_0_n_n 2048 rfl rfl).symm c) = ix2 k c := funext fun a => Fin.ext (by
    match a with
    | ⟨0, _⟩ =>
      show (dot_S144x2048_S3x2048_S144x3_1_1_0_0_n_n.rhsIdx (ix2 q k) ((contrEquiv1 dot_S144x2048_S3x2048_S144x3_1_1_0_0_n_n 2048 rfl rfl).symm c) 0).val = k.val
      unfold DotDims.rhsIdx
      rw [dif_neg (show ¬(0 : Fin S3x2048.rank) ∈ dot_S144x2048_S3x2048_S144x3_1_1_0_0_n_n.rhsBatch by decide), dif_pos (show (0 : Fin S3x2048.rank) ∈ dot_S144x2048_S3x2048_S144x3_1_1_0_0_n_n.rhsNonContracting by decide)]
      rfl
    | ⟨1, _⟩ => exact (dot_S144x2048_S3x2048_S144x3_1_1_0_0_n_n.rhsIdx_val_of_single rfl _ _).trans hk)
  rw [el, er]

/-- Row q of four coordinates against a 4 x 2048 matrix: a sum over the four coordinates. -/
theorem mm_hidden (l : FVec Ideal S144x4 .bf16) (r : FVec Ideal S4x2048 .bf16) (q : Fin 144) (d : Fin 2048) :
    matmul dot_S144x4_S4x2048_S144x2048_1_0_0_1_n_n none l r (constant S144x2048 .f32 0x00000000#32) (ix2 q d)
      = ∑ c : Fin 4, l (ix2 q c) * r (ix2 c d) := by
  show FloatOps.matmul dot_S144x4_S4x2048_S144x2048_1_0_0_1_n_n none l r (constant S144x2048 .f32 0x00000000#32) (ix2 q d) = _
  rw [Ideal.matmul_constant_zero_apply, ← Equiv.sum_comp (contrEquiv1 dot_S144x4_S4x2048_S144x2048_1_0_0_1_n_n 4 rfl rfl).symm]
  refine Finset.sum_congr rfl fun c _ => ?_
  have hk := contrEquiv1_symm_val dot_S144x4_S4x2048_S144x2048_1_0_0_1_n_n 4 rfl rfl c
  have el : dot_S144x4_S4x2048_S144x2048_1_0_0_1_n_n.lhsIdx (ix2 q d) ((contrEquiv1 dot_S144x4_S4x2048_S144x2048_1_0_0_1_n_n 4 rfl rfl).symm c) = ix2 q c := funext fun a => Fin.ext (by
    match a with
    | ⟨0, _⟩ =>
      show (dot_S144x4_S4x2048_S144x2048_1_0_0_1_n_n.lhsIdx (ix2 q d) ((contrEquiv1 dot_S144x4_S4x2048_S144x2048_1_0_0_1_n_n 4 rfl rfl).symm c) 0).val = q.val
      unfold DotDims.lhsIdx
      rw [dif_neg (show ¬(0 : Fin S144x4.rank) ∈ dot_S144x4_S4x2048_S144x2048_1_0_0_1_n_n.lhsBatch by decide), dif_pos (show (0 : Fin S144x4.rank) ∈ dot_S144x4_S4x2048_S144x2048_1_0_0_1_n_n.lhsNonContracting by decide)]
      rfl
    | ⟨1, _⟩ => exact (dot_S144x4_S4x2048_S144x2048_1_0_0_1_n_n.lhsIdx_val_of_single rfl _ _).trans hk)
  have er : dot_S144x4_S4x2048_S144x2048_1_0_0_1_n_n.rhsIdx (ix2 q d) ((contrEquiv1 dot_S144x4_S4x2048_S144x2048_1_0_0_1_n_n 4 rfl rfl).symm c) = ix2 c d := funext fun a => Fin.ext (by
    match a with
    | ⟨0, _⟩ => exact (dot_S144x4_S4x2048_S144x2048_1_0_0_1_n_n.rhsIdx_val_of_single rfl _ _).trans hk
    | ⟨1, _⟩ =>
      show (dot_S144x4_S4x2048_S144x2048_1_0_0_1_n_n.rhsIdx (ix2 q d) ((contrEquiv1 dot_S144x4_S4x2048_S144x2048_1_0_0_1_n_n 4 rfl rfl).symm c) 1).val = d.val
      unfold DotDims.rhsIdx
      rw [dif_neg (show ¬(1 : Fin S4x2048.rank) ∈ dot_S144x4_S4x2048_S144x2048_1_0_0_1_n_n.rhsBatch by decide), dif_pos (show (1 : Fin S4x2048.rank) ∈ dot_S144x4_S4x2048_S144x2048_1_0_0_1_n_n.rhsNonContracting by decide)]
      rfl)
  rw [el, er]

/-- Batch element p: the encoding's transpose times the features, a sum over the 18 rows. -/
theorem mm_clusters (l : FVec Ideal S8x18x3 .bf16) (r : FVec Ideal S8x18x2048 .bf16) (p : Fin 8) (k : Fin 3) (d : Fin 2048) :
    matmul dot_S8x18x3_S8x18x2048_S8x3x2048_1_1_2_2_0_0 none l r (constant S8x3x2048 .f32 0x00000000#32) (ix3 p k d)
      = ∑ c : Fin 18, l (ix3 p c k) * r (ix3 p c d) := by
  show FloatOps.matmul dot_S8x18x3_S8x18x2048_S8x3x2048_1_1_2_2_0_0 none l r (constant S8x3x2048 .f32 0x00000000#32) (ix3 p k d) = _
  rw [Ideal.matmul_constant_zero_apply, ← Equiv.sum_comp (contrEquiv1 dot_S8x18x3_S8x18x2048_S8x3x2048_1_1_2_2_0_0 18 rfl rfl).symm]
  refine Finset.sum_congr rfl fun c _ => ?_
  have hk := contrEquiv1_symm_val dot_S8x18x3_S8x18x2048_S8x3x2048_1_1_2_2_0_0 18 rfl rfl c
  have el : dot_S8x18x3_S8x18x2048_S8x3x2048_1_1_2_2_0_0.lhsIdx (ix3 p k d) ((contrEquiv1 dot_S8x18x3_S8x18x2048_S8x3x2048_1_1_2_2_0_0 18 rfl rfl).symm c) = ix3 p c k := funext fun a => Fin.ext (by
    match a with
    | ⟨0, _⟩ =>
      show (dot_S8x18x3_S8x18x2048_S8x3x2048_1_1_2_2_0_0.lhsIdx (ix3 p k d) ((contrEquiv1 dot_S8x18x3_S8x18x2048_S8x3x2048_1_1_2_2_0_0 18 rfl rfl).symm c) 0).val = p.val
      unfold DotDims.lhsIdx
      rw [dif_pos (show (0 : Fin S8x18x3.rank) ∈ dot_S8x18x3_S8x18x2048_S8x3x2048_1_1_2_2_0_0.lhsBatch by decide)]
      rfl
    | ⟨1, _⟩ => exact (dot_S8x18x3_S8x18x2048_S8x3x2048_1_1_2_2_0_0.lhsIdx_val_of_single rfl _ _).trans hk
    | ⟨2, _⟩ =>
      show (dot_S8x18x3_S8x18x2048_S8x3x2048_1_1_2_2_0_0.lhsIdx (ix3 p k d) ((contrEquiv1 dot_S8x18x3_S8x18x2048_S8x3x2048_1_1_2_2_0_0 18 rfl rfl).symm c) 2).val = k.val
      unfold DotDims.lhsIdx
      rw [dif_neg (show ¬(2 : Fin S8x18x3.rank) ∈ dot_S8x18x3_S8x18x2048_S8x3x2048_1_1_2_2_0_0.lhsBatch by decide), dif_pos (show (2 : Fin S8x18x3.rank) ∈ dot_S8x18x3_S8x18x2048_S8x3x2048_1_1_2_2_0_0.lhsNonContracting by decide)]
      rfl)
  have er : dot_S8x18x3_S8x18x2048_S8x3x2048_1_1_2_2_0_0.rhsIdx (ix3 p k d) ((contrEquiv1 dot_S8x18x3_S8x18x2048_S8x3x2048_1_1_2_2_0_0 18 rfl rfl).symm c) = ix3 p c d := funext fun a => Fin.ext (by
    match a with
    | ⟨0, _⟩ =>
      show (dot_S8x18x3_S8x18x2048_S8x3x2048_1_1_2_2_0_0.rhsIdx (ix3 p k d) ((contrEquiv1 dot_S8x18x3_S8x18x2048_S8x3x2048_1_1_2_2_0_0 18 rfl rfl).symm c) 0).val = p.val
      unfold DotDims.rhsIdx
      rw [dif_pos (show (0 : Fin S8x18x2048.rank) ∈ dot_S8x18x3_S8x18x2048_S8x3x2048_1_1_2_2_0_0.rhsBatch by decide)]
      rfl
    | ⟨1, _⟩ => exact (dot_S8x18x3_S8x18x2048_S8x3x2048_1_1_2_2_0_0.rhsIdx_val_of_single rfl _ _).trans hk
    | ⟨2, _⟩ =>
      show (dot_S8x18x3_S8x18x2048_S8x3x2048_1_1_2_2_0_0.rhsIdx (ix3 p k d) ((contrEquiv1 dot_S8x18x3_S8x18x2048_S8x3x2048_1_1_2_2_0_0 18 rfl rfl).symm c) 2).val = d.val
      unfold DotDims.rhsIdx
      rw [dif_neg (show ¬(2 : Fin S8x18x2048.rank) ∈ dot_S8x18x3_S8x18x2048_S8x3x2048_1_1_2_2_0_0.rhsBatch by decide), dif_pos (show (2 : Fin S8x18x2048.rank) ∈ dot_S8x18x3_S8x18x2048_S8x3x2048_1_1_2_2_0_0.rhsNonContracting by decide)]
      rfl)
  rw [el, er]

/-- Cluster row q of 24 against row d of a 2048 x 2048 matrix: a sum over the 2048 features. -/
theorem mm_conv24 (l : FVec Ideal S24x2048 .bf16) (r : FVec Ideal S2048x2048 .bf16) (q : Fin 24) (d : Fin 2048) :
    matmul dot_S24x2048_S2048x2048_S24x2048_1_1_0_0_n_n none l r (constant S24x2048 .f32 0x00000000#32) (ix2 q d)
      = ∑ c : Fin 2048, l (ix2 q c) * r (ix2 d c) := by
  show FloatOps.matmul dot_S24x2048_S2048x2048_S24x2048_1_1_0_0_n_n none l r (constant S24x2048 .f32 0x00000000#32) (ix2 q d) = _
  rw [Ideal.matmul_constant_zero_apply, ← Equiv.sum_comp (contrEquiv1 dot_S24x2048_S2048x2048_S24x2048_1_1_0_0_n_n 2048 rfl rfl).symm]
  refine Finset.sum_congr rfl fun c _ => ?_
  have hk := contrEquiv1_symm_val dot_S24x2048_S2048x2048_S24x2048_1_1_0_0_n_n 2048 rfl rfl c
  have el : dot_S24x2048_S2048x2048_S24x2048_1_1_0_0_n_n.lhsIdx (ix2 q d) ((contrEquiv1 dot_S24x2048_S2048x2048_S24x2048_1_1_0_0_n_n 2048 rfl rfl).symm c) = ix2 q c := funext fun a => Fin.ext (by
    match a with
    | ⟨0, _⟩ =>
      show (dot_S24x2048_S2048x2048_S24x2048_1_1_0_0_n_n.lhsIdx (ix2 q d) ((contrEquiv1 dot_S24x2048_S2048x2048_S24x2048_1_1_0_0_n_n 2048 rfl rfl).symm c) 0).val = q.val
      unfold DotDims.lhsIdx
      rw [dif_neg (show ¬(0 : Fin S24x2048.rank) ∈ dot_S24x2048_S2048x2048_S24x2048_1_1_0_0_n_n.lhsBatch by decide), dif_pos (show (0 : Fin S24x2048.rank) ∈ dot_S24x2048_S2048x2048_S24x2048_1_1_0_0_n_n.lhsNonContracting by decide)]
      rfl
    | ⟨1, _⟩ => exact (dot_S24x2048_S2048x2048_S24x2048_1_1_0_0_n_n.lhsIdx_val_of_single rfl _ _).trans hk)
  have er : dot_S24x2048_S2048x2048_S24x2048_1_1_0_0_n_n.rhsIdx (ix2 q d) ((contrEquiv1 dot_S24x2048_S2048x2048_S24x2048_1_1_0_0_n_n 2048 rfl rfl).symm c) = ix2 d c := funext fun a => Fin.ext (by
    match a with
    | ⟨0, _⟩ =>
      show (dot_S24x2048_S2048x2048_S24x2048_1_1_0_0_n_n.rhsIdx (ix2 q d) ((contrEquiv1 dot_S24x2048_S2048x2048_S24x2048_1_1_0_0_n_n 2048 rfl rfl).symm c) 0).val = d.val
      unfold DotDims.rhsIdx
      rw [dif_neg (show ¬(0 : Fin S2048x2048.rank) ∈ dot_S24x2048_S2048x2048_S24x2048_1_1_0_0_n_n.rhsBatch by decide), dif_pos (show (0 : Fin S2048x2048.rank) ∈ dot_S24x2048_S2048x2048_S24x2048_1_1_0_0_n_n.rhsNonContracting by decide)]
      rfl
    | ⟨1, _⟩ => exact (dot_S24x2048_S2048x2048_S24x2048_1_1_0_0_n_n.rhsIdx_val_of_single rfl _ _).trans hk)
  rw [el, er]

/-- Row q of 144 against row d of a 2048 x 2048 matrix: a sum over the 2048 features. -/
theorem mm_conv144 (l : FVec Ideal S144x2048 .bf16) (r : FVec Ideal S2048x2048 .bf16) (q : Fin 144) (d : Fin 2048) :
    matmul dot_S144x2048_S2048x2048_S144x2048_1_1_0_0_n_n none l r (constant S144x2048 .f32 0x00000000#32) (ix2 q d)
      = ∑ c : Fin 2048, l (ix2 q c) * r (ix2 d c) := by
  show FloatOps.matmul dot_S144x2048_S2048x2048_S144x2048_1_1_0_0_n_n none l r (constant S144x2048 .f32 0x00000000#32) (ix2 q d) = _
  rw [Ideal.matmul_constant_zero_apply, ← Equiv.sum_comp (contrEquiv1 dot_S144x2048_S2048x2048_S144x2048_1_1_0_0_n_n 2048 rfl rfl).symm]
  refine Finset.sum_congr rfl fun c _ => ?_
  have hk := contrEquiv1_symm_val dot_S144x2048_S2048x2048_S144x2048_1_1_0_0_n_n 2048 rfl rfl c
  have el : dot_S144x2048_S2048x2048_S144x2048_1_1_0_0_n_n.lhsIdx (ix2 q d) ((contrEquiv1 dot_S144x2048_S2048x2048_S144x2048_1_1_0_0_n_n 2048 rfl rfl).symm c) = ix2 q c := funext fun a => Fin.ext (by
    match a with
    | ⟨0, _⟩ =>
      show (dot_S144x2048_S2048x2048_S144x2048_1_1_0_0_n_n.lhsIdx (ix2 q d) ((contrEquiv1 dot_S144x2048_S2048x2048_S144x2048_1_1_0_0_n_n 2048 rfl rfl).symm c) 0).val = q.val
      unfold DotDims.lhsIdx
      rw [dif_neg (show ¬(0 : Fin S144x2048.rank) ∈ dot_S144x2048_S2048x2048_S144x2048_1_1_0_0_n_n.lhsBatch by decide), dif_pos (show (0 : Fin S144x2048.rank) ∈ dot_S144x2048_S2048x2048_S144x2048_1_1_0_0_n_n.lhsNonContracting by decide)]
      rfl
    | ⟨1, _⟩ => exact (dot_S144x2048_S2048x2048_S144x2048_1_1_0_0_n_n.lhsIdx_val_of_single rfl _ _).trans hk)
  have er : dot_S144x2048_S2048x2048_S144x2048_1_1_0_0_n_n.rhsIdx (ix2 q d) ((contrEquiv1 dot_S144x2048_S2048x2048_S144x2048_1_1_0_0_n_n 2048 rfl rfl).symm c) = ix2 d c := funext fun a => Fin.ext (by
    match a with
    | ⟨0, _⟩ =>
      show (dot_S144x2048_S2048x2048_S144x2048_1_1_0_0_n_n.rhsIdx (ix2 q d) ((contrEquiv1 dot_S144x2048_S2048x2048_S144x2048_1_1_0_0_n_n 2048 rfl rfl).symm c) 0).val = d.val
      unfold DotDims.rhsIdx
      rw [dif_neg (show ¬(0 : Fin S2048x2048.rank) ∈ dot_S144x2048_S2048x2048_S144x2048_1_1_0_0_n_n.rhsBatch by decide), dif_pos (show (0 : Fin S2048x2048.rank) ∈ dot_S144x2048_S2048x2048_S144x2048_1_1_0_0_n_n.rhsNonContracting by decide)]
      rfl
    | ⟨1, _⟩ => exact (dot_S144x2048_S2048x2048_S144x2048_1_1_0_0_n_n.rhsIdx_val_of_single rfl _ _).trans hk)
  rw [el, er]

end Cert.Bridge.K

end
-- ==== Proof.KSoft.lean ====
/-
  The kernel body's recurring stretches, each named once and read at explicit coordinates once:
  the softmax over the three clusters of a block of logits; the three logits of each of the 144 rows of a block under a
  3 x 2048 linear map with bias (one matrix product over the 2048 features); the gain, shift and clip applied to rows of
  2048 features; a block's rows normalized to Euclidean length one.
-/
import proofs.«131870_j89318139887950_2_alg».proof.Proof.Gen.KernelIdeal.Skeleton
import proofs.«131870_j89318139887950_2_alg».proof.Proof.Lay
import proofs.«131870_j89318139887950_2_alg».proof.Proof.Spec
import proofs.«131870_j89318139887950_2_alg».proof.Proof.KMat

noncomputable section

namespace Cert.Bridge.K

open Cert.KernelIdeal Cert.KernelIdeal.Gen Idealize.ShloMosaic Idealize.ShloMosaic.ValueIdx Cert.Bridge.Spec Cert.Bridge.Lay

/-! ## Pointwise operations of one operand at an index -/

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-! ## The softmax over the clusters -/

/-- The body's softmax of a block of logits: the row maximum (never below minus infinity's word) taken off, the
    exponentials, their row sum, the quotient. -/
def kSoft {F : FTy → Type} [FloatOps F] (v11 : FVec F S8x18x3 .f32) : FVec F S8x18x3 .f32 :=
  divf
    (exp (subf v11 (broadcastTo S8x18x3 (shapeCast S8x18x1 (maximumf (broadcast S8x18 (Scalar.ofBits .f32 0xFF800000#32))
      (multiReduction .maximumf [2] S8x18 v11 0xFF800000#32 reduces_S8x18x3_S8x18 (.inl rfl) rfl)) shapeCasts_S8x18_S8x18x1) broadcasts_S8x18x1_S8x18x3)))
    (broadcastTo S8x18x3 (shapeCast S8x18x1 (multiReduction .add [2] S8x18
      (exp (subf v11 (broadcastTo S8x18x3 (shapeCast S8x18x1 (maximumf (broadcast S8x18 (Scalar.ofBits .f32 0xFF800000#32))
        (multiReduction .maximumf [2] S8x18 v11 0xFF800000#32 reduces_S8x18x3_S8x18 (.inl rfl) rfl)) shapeCasts_S8x18_S8x18x1) broadcasts_S8x18x1_S8x18x3)))
      0x00000000#32 reduces_S8x18x3_S8x18 (.inl rfl) rfl) shapeCasts_S8x18_S8x18x1) broadcasts_S8x18x1_S8x18x3)

/-- Entry (p, n, k) of the body's softmax is the softmax of row (p, n) of the logits, at cluster k. -/
theorem kSoft_apply (v11 : FVec Ideal S8x18x3 .f32) (p : Fin 8) (n : Fin 18) (k : Fin 3) :
    kSoft v11 (ix3 p n k) = smax (fun k' => v11 (ix3 p n k')) k := by
  unfold kSoft smax rowmax
  simp only [divf_apply, exp_apply, subf_apply, maximumf_apply, broadcast_apply,
    spread_last _ _ (by decide : (8 : Nat) ≠ 1) (by decide : (18 : Nat) ≠ 1), keep_last]
  refine congr (congrArg Ideal.div ?_) ?_
  · exact congrArg (fun M => Ideal.exp (v11 (ix3 p n k) - max ninf M)) (lane_max v11 _ _ _ _ p n)
  · refine (lane_sum _ _ _ _ _ p n).trans (Finset.sum_congr rfl fun k' _ => ?_)
    simp only [exp_apply, subf_apply, maximumf_apply, broadcast_apply,
      spread_last _ _ (by decide : (8 : Nat) ≠ 1) (by decide : (18 : Nat) ≠ 1), keep_last]
    exact congrArg (fun M => Ideal.exp (v11 (ix3 p n k') - max ninf M)) (lane_max v11 _ _ _ _ p n)

/-! ## Three logits per row: one matrix product over the features, plus the bias -/

/-- The body's logits of the 144 rows of a block under a 3 x 2048 map with bias, as a block of 8 x 18 rows. -/
def kLin {F : FTy → Type} [FloatOps F] (M : FVec F S144x2048 .f32) (W : Vec F S3x2048 .f32) (Bv : Vec F S3 .f32) : FVec F S8x18x3 .f32 :=
  shapeCast S8x18x3 (addf (matmul dot_S144x2048_S3x2048_S144x3_1_1_0_0_n_n none (truncf .bf16 M bitsLt_bf16_f32) (truncf .bf16 W bitsLt_bf16_f32)
    (constant S144x3 .f32 0x00000000#32)) (broadcastTo S144x3 (shapeCast S1x3 Bv shapeCasts_S3_S1x3) broadcasts_S1x3_S144x3)) shapeCasts_S144x3_S8x18x3

theorem kLin_apply (M : FVec Ideal S144x2048 .f32) (W : Vec Ideal S3x2048 .f32) (Bv : Vec Ideal S3 .f32) (p : Fin 8) (n : Fin 18) (k : Fin 3) :
    kLin M W Bv (ix3 p n k) = (∑ c : Fin 2048, M (ix2 (row p n) c) * W (ix2 k c)) + Bv (ix1 k) := by
  unfold kLin
  rw [unfold_rows, addf_apply, mm_logits, spread_vec]
  rfl

/-! ## Gain, shift and clip of rows of 2048 features -/

/-- The body's gain (scaled by the common word), shift and clip at zero of `R` rows of 2048 features. -/
def kAct {F : FTy → Type} [FloatOps F] {R : Nat} (hb : (⟨2, ![1, 2048]⟩ : Shape).Broadcasts ⟨2, ![R, 2048]⟩)
    (pre : FVec F ⟨2, ![R, 2048]⟩ .f32) (g be : Vec F S2048 .f32) : FVec F ⟨2, ![R, 2048]⟩ .f32 :=
  maximumf (addf (mulf pre (broadcastTo ⟨2, ![R, 2048]⟩ (shapeCast S1x2048 (mulf g (broadcast S2048 (Scalar.ofBits .f32 0x3F7FFFAC#32))) shapeCasts_S2048_S1x2048) hb))
    (broadcastTo ⟨2, ![R, 2048]⟩ (shapeCast S1x2048 be shapeCasts_S2048_S1x2048) hb)) (broadcast ⟨2, ![R, 2048]⟩ (Scalar.ofBits .f32 0x00000000#32))

theorem kAct_apply {R : Nat} (hb : (⟨2, ![1, 2048]⟩ : Shape).Broadcasts ⟨2, ![R, 2048]⟩)
    (pre : FVec Ideal ⟨2, ![R, 2048]⟩ .f32) (g be : Vec Ideal S2048 .f32) (r : Fin R) (d : Fin 2048) :
    kAct hb pre g be (ix2 r d) = max (pre (ix2 r d) * (g (ix1 d) * bn) + be (ix1 d)) zw := by
  unfold kAct
  rw [maximumf_apply, addf_apply, mulf_apply, spread_vec, spread_vec, mulf_apply]
  rfl

/-! ## The two soft assignments of a block -/

/-- The first assignment's payload is the softmax of the logits of the block's 144 rows. -/
theorem pay1_eq {F : FTy → Type} [FloatOps F] (v0 : Vec F S8x18x2048 .f32) (v3 : Vec F S3x2048 .f32) (v7 : Vec F S3 .f32) :
    k0_pay1 v0 v3 v7 = kSoft (kLin (shapeCast S144x2048 v0 shapeCasts_S8x18x2048_S144x2048) v3 v7) := rfl

/-- Entry (p, n, k) of the first assignment of a block: the specification's `z1` of batch element p. -/
theorem pay1_apply (v0 : Vec Ideal S8x18x2048 .f32) (v3 : Vec Ideal S3x2048 .f32) (v7 : Vec Ideal S3 .f32) (p : Fin 8) (n : Fin 18) (k : Fin 3) :
    k0_pay1 v0 v3 v7 (ix3 p n k) = z1 (slab (B := 8) v0 p) (mat v3) (vec v7) n k := by
  rw [pay1_eq, kSoft_apply]
  unfold z1
  refine congrArg (fun l => smax l k) (funext fun k' => ?_)
  rw [kLin_apply]
  unfold lin
  simp only [fold_rows]
  rfl

/-- The hidden rows before gain, shift and clip: the four coordinates through a 4 x 2048 map, plus the bias. -/
theorem pay13_eq {F : FTy → Type} [FloatOps F] (v1 : Vec F S8x18x4 .f32) (v84 : Vec F S4x2048 .f32) (v89 : Vec F S2048 .f32) :
    k0_pay13 v1 v84 v89 = addf (matmul dot_S144x4_S4x2048_S144x2048_1_0_0_1_n_n none (truncf .bf16 (shapeCast S144x4 v1 shapeCasts_S8x18x4_S144x4) bitsLt_bf16_f32)
      (truncf .bf16 (shapeCast S4x2048 v84 shapeCasts_S4x2048_S4x2048) bitsLt_bf16_f32) (constant S144x2048 .f32 0x00000000#32))
      (broadcastTo S144x2048 (shapeCast S1x2048 v89 shapeCasts_S2048_S1x2048) broadcasts_S1x2048_S144x2048) := rfl

theorem pay13_apply (v1 : Vec Ideal S8x18x4 .f32) (v84 : Vec Ideal S4x2048 .f32) (v89 : Vec Ideal S2048 .f32) (p : Fin 8) (n : Fin 18) (d : Fin 2048) :
    k0_pay13 v1 v84 v89 (ix2 (row p n) d) = (∑ f : Fin 4, v1 (ix3 p n f) * v84 (ix2 f d)) + v89 (ix1 d) := by
  rw [pay13_eq, addf_apply, mm_hidden, spread_vec]
  simp only [truncf_apply, fold_rows, shapeCast_self]

/-- The second assignment's payload is the softmax of the logits of the clipped hidden rows. -/
theorem pay14_eq {F : FTy → Type} [FloatOps F] (v92 : FVec F S144x2048 .f32) (v93 v94 : Vec F S2048 .f32) (v105 : Vec F S3x2048 .f32) (v109 : Vec F S3 .f32) :
    k0_pay14 v92 v93 v94 v105 v109 = kSoft (kLin (kAct broadcasts_S1x2048_S144x2048 v92 v93 v94) v105 v109) := rfl

/-- Entry (p, n, k) of the second assignment of a block: the specification's `z2` of batch element p, the 4 x 2048
    map being the transpose of the 2048 x 4 one. -/
theorem pay14_apply (v1 : Vec Ideal S8x18x4 .f32) (v84 : Vec Ideal S4x2048 .f32) (v89 v93 v94 : Vec Ideal S2048 .f32) (v105 : Vec Ideal S3x2048 .f32) (v109 : Vec Ideal S3 .f32)
    (p : Fin 8) (n : Fin 18) (k : Fin 3) :
    k0_pay14 (k0_pay13 v1 v84 v89) v93 v94 v105 v109 (ix3 p n k)
      = z2 (slab (B := 8) v1 p) (matT v84) (vec v89) (vec v93) (vec v94) (mat v105) (vec v109) n k := by
  rw [pay14_eq, kSoft_apply]
  unfold z2
  refine congrArg (fun l => smax l k) (funext fun k' => ?_)
  rw [kLin_apply]
  unfold lin
  refine congrArg (· + v109 (ix1 k')) (Finset.sum_congr rfl fun c _ => ?_)
  rw [kAct_apply, pay13_apply]
  rfl

end Cert.Bridge.K

end
-- ==== Proof.KAgg.lean ====
/-
  The aggregation stretch of the kernel body, read at explicit coordinates of a block of eight batch elements:
  the summed assignment normalized across the clusters (the decoding) and down the rows (the encoding); the encoding's
  transpose times the features, giving three cluster rows per batch element; those through the first 2048 x 2048 map
  with gain, shift and clip; the decoding times the result, written out as the three clusters' products added up;
  that through the second 2048 x 2048 map with gain, shift and clip; and the features added back.
-/
import proofs.«131870_j89318139887950_2_alg».proof.Proof.KSoft

noncomputable section

namespace Cert.Bridge.K

open Cert.KernelIdeal Cert.KernelIdeal.Gen Idealize.ShloMosaic Idealize.ShloMosaic.ValueIdx Cert.Bridge.Spec Cert.Bridge.Lay

/-- The summed assignment of a block, entry by entry. -/
theorem pay21_apply (a b : FVec Ideal S8x18x3 .f32) (i : S8x18x3.Idx) : k0_pay21 a b i = a i + b i := rfl

/-! ## Decoding: normalized across the clusters -/

theorem pay22_apply (v : FVec Ideal S8x18x3 .f32) (p : Fin 8) (n : Fin 18) (k : Fin 3) :
    k0_pay22 v (ix3 p n k) = dec (fun n k => v (ix3 p n k)) n k := by
  unfold k0_pay22 dec
  simp only [divf_apply, addf_apply, broadcast_apply,
    spread_last _ _ (by decide : (8 : Nat) ≠ 1) (by decide : (18 : Nat) ≠ 1), keep_last]
  exact congrArg (fun s => Ideal.div (v (ix3 p n k)) (s + eps)) (lane_sum v _ _ _ _ p n)

theorem pay24_apply (v : FVec Ideal S8x18x3 .f32) (p : Fin 8) (n : Fin 18) (u : Fin 1) :
    k0_pay24 v (ix3 p n u) = dec (fun n k => v (ix3 p n k)) n 0 := by
  unfold k0_pay24
  simp only [keep_last, drop_last, cut_last 0 (by decide : 0 < 3)]
  exact pay22_apply v p n 0

theorem pay25_apply (v : FVec Ideal S8x18x3 .f32) (p : Fin 8) (n : Fin 18) (u : Fin 1) :
    k0_pay25 v (ix3 p n u) = dec (fun n k => v (ix3 p n k)) n 1 := by
  unfold k0_pay25
  simp only [keep_last, drop_last, cut_last 1 (by decide : 1 < 3)]
  exact pay22_apply v p n 1

theorem pay26_apply (v : FVec Ideal S8x18x3 .f32) (p : Fin 8) (n : Fin 18) (u : Fin 1) :
    k0_pay26 v (ix3 p n u) = dec (fun n k => v (ix3 p n k)) n 2 := by
  unfold k0_pay26
  simp only [keep_last, drop_last, cut_last 2 (by decide : 2 < 3)]
  exact pay22_apply v p n 2

/-! ## Encoding, cluster rows, and the first 2048 x 2048 map -/

/-- The body's encoding of a block: the summed assignment over its sum down the 18 rows plus the small constant. -/
def kEnc {F : FTy → Type} [FloatOps F] (v196 : FVec F S8x18x3 .f32) : FVec F S8x18x3 .f32 :=
  divf v196 (broadcastTo S8x18x3 (addf (shapeCast S8x1x3 (multiReduction .add [1] S8x3 v196 0x00000000#32 reduces_S8x18x3_S8x3 (.inl rfl) rfl) shapeCasts_S8x3_S8x1x3)
    (broadcast S8x1x3 (Scalar.ofBits .f32 0x2B8CBCCC#32))) broadcasts_S8x1x3_S8x18x3)

theorem kEnc_apply (v : FVec Ideal S8x18x3 .f32) (p : Fin 8) (n : Fin 18) (k : Fin 3) :
    kEnc v (ix3 p n k) = enc (fun n k => v (ix3 p n k)) n k := by
  unfold kEnc enc
  simp only [divf_apply, addf_apply, broadcast_apply,
    spread_mid _ _ (by decide : (8 : Nat) ≠ 1) (by decide : (3 : Nat) ≠ 1), keep_mid]
  exact congrArg (fun s => Ideal.div (v (ix3 p n k)) (s + eps)) (mid_sum v _ _ _ _ p k)

theorem pay23_eq {F : FTy → Type} [FloatOps F] (v0 : Vec F S8x18x2048 .f32) (v196 : FVec F S8x18x3 .f32) (v213 : Vec F S2048x2048 .bf16) (v217 v221 v222 : Vec F S2048 .f32) :
    k0_pay23 v0 v196 v213 v217 v221 v222 = shapeCast S8x3x2048 (kAct broadcasts_S1x2048_S24x2048
      (addf (matmul dot_S24x2048_S2048x2048_S24x2048_1_1_0_0_n_n none
          (truncf .bf16 (shapeCast S24x2048 (matmul dot_S8x18x3_S8x18x2048_S8x3x2048_1_1_2_2_0_0 none (truncf .bf16 (kEnc v196) bitsLt_bf16_f32) (truncf .bf16 v0 bitsLt_bf16_f32)
            (constant S8x3x2048 .f32 0x00000000#32)) shapeCasts_S8x3x2048_S24x2048) bitsLt_bf16_f32)
          (shapeCast S2048x2048 v213 shapeCasts_S2048x2048_S2048x2048) (constant S24x2048 .f32 0x00000000#32))
        (broadcastTo S24x2048 (shapeCast S1x2048 v217 shapeCasts_S2048_S1x2048) broadcasts_S1x2048_S24x2048)) v221 v222) shapeCasts_S24x2048_S8x3x2048 := rfl

/-- Cluster row (p, k) of a block after the first map: the specification's `conv` of `clus` of `enc`. -/
theorem pay23_apply (v0 : Vec Ideal S8x18x2048 .f32) (v196 : FVec Ideal S8x18x3 .f32) (v213 : Vec Ideal S2048x2048 .bf16) (v217 v221 v222 : Vec Ideal S2048 .f32)
    (p : Fin 8) (k : Fin 3) (d : Fin 2048) :
    k0_pay23 v0 v196 v213 v217 v221 v222 (ix3 p k d)
      = conv (clus (slab (B := 8) v0 p) (enc (fun n k => v196 (ix3 p n k)))) (mat v213) (vec v217) (vec v221) (vec v222) k d := by
  rw [pay23_eq, unfold_crows, kAct_apply, addf_apply, mm_conv24, spread_vec]
  unfold conv act clus
  refine congrArg (fun s => max ((s + v217 (ix1 d)) * (v221 (ix1 d) * bn) + v222 (ix1 d)) zw) (Finset.sum_congr rfl fun c _ => ?_)
  rw [truncf_apply, fold_crows, mm_clusters, shapeCast_self]
  refine congrArg (· * v213 (ix2 d c)) (Finset.sum_congr rfl fun n _ => ?_)
  rw [truncf_apply, truncf_apply, kEnc_apply]
  rfl

theorem pay27_apply (v0 : Vec Ideal S8x18x2048 .f32) (v196 : FVec Ideal S8x18x3 .f32) (v213 : Vec Ideal S2048x2048 .bf16) (v217 v221 v222 : Vec Ideal S2048 .f32)
    (p : Fin 8) (u : Fin 1) (d : Fin 2048) :
    k0_pay27 v0 v196 v213 v217 v221 v222 (ix3 p u d) = k0_pay23 v0 v196 v213 v217 v221 v222 (ix3 p (0 : Fin 3) d) := by
  unfold k0_pay27
  exact cut_mid 0 (by decide : 0 < 3) _ _ p u d

/-! ## The decoding times the cluster rows, the second map, and the features added back -/

/-- The body's spreading of the three cluster rows back over the 18 rows, the three products added up. -/
def kSpread {F : FTy → Type} [FloatOps F] (v233 : FVec F S8x3x2048 .f32) (v236 v239 v242 : FVec F S8x18x1 .f32) (v243 : FVec F S8x1x2048 .f32) : FVec F S8x18x2048 .f32 :=
  addf (addf
    (mulf (broadcastTo S8x18x2048 v236 broadcasts_S8x18x1_S8x18x2048)
      (broadcastTo S8x18x2048 (shapeCast S8x1x2048 (shapeCast S8x2048 v243 shapeCasts_S8x1x2048_S8x2048) shapeCasts_S8x2048_S8x1x2048) broadcasts_S8x1x2048_S8x18x2048))
    (mulf (broadcastTo S8x18x2048 v239 broadcasts_S8x18x1_S8x18x2048)
      (broadcastTo S8x18x2048 (shapeCast S8x1x2048 (shapeCast S8x2048 (extractStridedSlice S8x1x2048 ![0, 1, 0] v233 slices_S8x3x2048_o0_1_0_S8x1x2048) shapeCasts_S8x1x2048_S8x2048) shapeCasts_S8x2048_S8x1x2048) broadcasts_S8x1x2048_S8x18x2048)))
    (mulf (broadcastTo S8x18x2048 v242 broadcasts_S8x18x1_S8x18x2048)
      (broadcastTo S8x18x2048 (shapeCast S8x1x2048 (shapeCast S8x2048 (extractStridedSlice S8x1x2048 ![0, 2, 0] v233 slices_S8x3x2048_o0_2_0_S8x1x2048) shapeCasts_S8x1x2048_S8x2048) shapeCasts_S8x2048_S8x1x2048) broadcasts_S8x1x2048_S8x18x2048))

theorem kSpread_apply (v233 : FVec Ideal S8x3x2048 .f32) (v236 v239 v242 : FVec Ideal S8x18x1 .f32) (v243 : FVec Ideal S8x1x2048 .f32)
    (p : Fin 8) (n : Fin 18) (c : Fin 2048) :
    kSpread v233 v236 v239 v242 v243 (ix3 p n c)
      = v236 (ix3 p n (0 : Fin 1)) * v243 (ix3 p (0 : Fin 1) c) + v239 (ix3 p n (0 : Fin 1)) * v233 (ix3 p (1 : Fin 3) c) + v242 (ix3 p n (0 : Fin 1)) * v233 (ix3 p (2 : Fin 3) c) := by
  unfold kSpread
  simp only [addf_apply, mulf_apply, spread_last _ _ (by decide : (8 : Nat) ≠ 1) (by decide : (18 : Nat) ≠ 1),
    spread_mid _ _ (by decide : (8 : Nat) ≠ 1) (by decide : (2048 : Nat) ≠ 1), keep_mid, drop_mid,
    cut_mid 1 (by decide : 1 < 3), cut_mid 2 (by decide : 2 < 3)]
  rfl

theorem pay28_eq {F : FTy → Type} [FloatOps F] (v0 : Vec F S8x18x2048 .f32) (v233 : FVec F S8x3x2048 .f32) (v236 v239 v242 : FVec F S8x18x1 .f32) (v243 : FVec F S8x1x2048 .f32)
    (v264 : Vec F S2048x2048 .bf16) (v268 v272 v273 : Vec F S2048 .f32) :
    k0_pay28 v0 v233 v236 v239 v242 v243 v264 v268 v272 v273 = addf (shapeCast S8x18x2048 (kAct broadcasts_S1x2048_S144x2048
      (addf (matmul dot_S144x2048_S2048x2048_S144x2048_1_1_0_0_n_n none
          (truncf .bf16 (shapeCast S144x2048 (kSpread v233 v236 v239 v242 v243) shapeCasts_S8x18x2048_S144x2048) bitsLt_bf16_f32)
          (shapeCast S2048x2048 v264 shapeCasts_S2048x2048_S2048x2048) (constant S144x2048 .f32 0x00000000#32))
        (broadcastTo S144x2048 (shapeCast S1x2048 v268 shapeCasts_S2048_S1x2048) broadcasts_S1x2048_S144x2048)) v272 v273) shapeCasts_S144x2048_S8x18x2048) v0 := rfl

/-- Entry (p, n, d) of the last payload, over any spread rows `Y` the three products add up to. -/
theorem pay28_apply (v0 : Vec Ideal S8x18x2048 .f32) (v233 : FVec Ideal S8x3x2048 .f32) (v236 v239 v242 : FVec Ideal S8x18x1 .f32) (v243 : FVec Ideal S8x1x2048 .f32)
    (v264 : Vec Ideal S2048x2048 .bf16) (v268 v272 v273 : Vec Ideal S2048 .f32) (p : Fin 8) (n : Fin 18) (d : Fin 2048)
    (Y : Fin 18 → Fin 2048 → EReal) (hY : ∀ c, kSpread v233 v236 v239 v242 v243 (ix3 p n c) = Y n c) :
    k0_pay28 v0 v233 v236 v239 v242 v243 v264 v268 v272 v273 (ix3 p n d)
      = conv Y (mat v264) (vec v268) (vec v272) (vec v273) n d + v0 (ix3 p n d) := by
  rw [pay28_eq, addf_apply, unfold_rows, kAct_apply, addf_apply, mm_conv144, spread_vec]
  unfold conv act
  refine congrArg (fun s => max ((s + v268 (ix1 d)) * (v272 (ix1 d) * bn) + v273 (ix1 d)) zw + v0 (ix3 p n d)) (Finset.sum_congr rfl fun c _ => ?_)
  rw [truncf_apply, fold_rows, shapeCast_self, hY]
  rfl

end Cert.Bridge.K

end
-- ==== Proof.SpecArr.lean ====
/-
  The three results that depend on the soft assignments, as functions of whole arrays with a batch axis in front:
  the two tables of inner products of normalized assignment rows, and the aggregated features. The argument arrays
  with a batch axis (the features and the coordinates) enter as arrays, batch element `b` being their slab at `b`;
  the weights enter as plain matrices and vectors, so that one side may hand over a weight matrix stored transposed.
  A result at batch element `b` reads the arguments at `b` only: `*_local` says so in the form the cover of the
  whole array by blocks of batch elements needs.
-/
import proofs.«131870_j89318139887950_2_alg».proof.Proof.Spec

noncomputable section

namespace Cert.Bridge.Spec

open Idealize.ShloMosaic Idealize.ShloMosaic.ValueIdx

section
variable {B : Nat}

/-- The table of the first assignment, per batch element. -/
def Gd21 (X : (⟨3, ![B, 18, 2048]⟩ : Shape).Idx → EReal) (W1 : Fin 3 → Fin 2048 → EReal) (B1 : Fin 3 → EReal) :
    (⟨3, ![B, 18, 18]⟩ : Shape).Idx → EReal :=
  fun y => cosAff (z1 (slab X (y 0)) W1 B1) (y 1) (y 2)

/-- The table of the second assignment, per batch element. -/
def Gd22 (Cd : (⟨3, ![B, 18, 4]⟩ : Shape).Idx → EReal) (W2a : Fin 2048 → Fin 4 → EReal) (B2a G2 Be2 : Fin 2048 → EReal)
    (W2b : Fin 3 → Fin 2048 → EReal) (B2b : Fin 3 → EReal) : (⟨3, ![B, 18, 18]⟩ : Shape).Idx → EReal :=
  fun y => cosAff (z2 (slab Cd (y 0)) W2a B2a G2 Be2 W2b B2b) (y 1) (y 2)

/-- The aggregated features, per batch element. -/
def Gy (X : (⟨3, ![B, 18, 2048]⟩ : Shape).Idx → EReal) (Cd : (⟨3, ![B, 18, 4]⟩ : Shape).Idx → EReal)
    (W1 : Fin 3 → Fin 2048 → EReal) (B1 : Fin 3 → EReal)
    (W2a : Fin 2048 → Fin 4 → EReal) (B2a G2 Be2 : Fin 2048 → EReal)
    (W2b : Fin 3 → Fin 2048 → EReal) (B2b : Fin 3 → EReal)
    (Wc : Fin 2048 → Fin 2048 → EReal) (Bc Gc Bec : Fin 2048 → EReal)
    (W3 : Fin 2048 → Fin 2048 → EReal) (B3 G3 Be3 : Fin 2048 → EReal) : (⟨3, ![B, 18, 2048]⟩ : Shape).Idx → EReal :=
  fun y => yOut (slab X (y 0)) (slab Cd (y 0)) W1 B1 W2a B2a G2 Be2 W2b B2b Wc Bc Gc Bec W3 B3 G3 Be3 (y 1) (y 2)

end

/-! ## A result at a batch element reads the arguments at that batch element only -/

section Local
variable {B B' : Nat}

theorem slab_congr {a c : Nat} (A : (⟨3, ![B, a, c]⟩ : Shape).Idx → EReal) (A' : (⟨3, ![B', a, c]⟩ : Shape).Idx → EReal)
    (b : Fin B) (b' : Fin B') (h : ∀ i j, A (ix3 b i j) = A' (ix3 b' i j)) : slab A b = slab A' b' :=
  funext fun i => funext fun j => h i j

theorem Gd21_local (X : (⟨3, ![B, 18, 2048]⟩ : Shape).Idx → EReal) (X' : (⟨3, ![B', 18, 2048]⟩ : Shape).Idx → EReal)
    (W1 : Fin 3 → Fin 2048 → EReal) (B1 : Fin 3 → EReal) (b : Fin B) (b' : Fin B') (i j : Fin 18)
    (hX : ∀ n c, X (ix3 b n c) = X' (ix3 b' n c)) :
    Gd21 X W1 B1 (ix3 b i j) = Gd21 X' W1 B1 (ix3 b' i j) := by
  show cosAff (z1 (slab X b) W1 B1) i j = cosAff (z1 (slab X' b') W1 B1) i j
  rw [slab_congr X X' b b' hX]

theorem Gd22_local (Cd : (⟨3, ![B, 18, 4]⟩ : Shape).Idx → EReal) (Cd' : (⟨3, ![B', 18, 4]⟩ : Shape).Idx → EReal)
    (W2a : Fin 2048 → Fin 4 → EReal) (B2a G2 Be2 : Fin 2048 → EReal) (W2b : Fin 3 → Fin 2048 → EReal) (B2b : Fin 3 → EReal)
    (b : Fin B) (b' : Fin B') (i j : Fin 18) (hC : ∀ n f, Cd (ix3 b n f) = Cd' (ix3 b' n f)) :
    Gd22 Cd W2a B2a G2 Be2 W2b B2b (ix3 b i j) = Gd22 Cd' W2a B2a G2 Be2 W2b B2b (ix3 b' i j) := by
  show cosAff (z2 (slab Cd b) W2a B2a G2 Be2 W2b B2b) i j = cosAff (z2 (slab Cd' b') W2a B2a G2 Be2 W2b B2b) i j
  rw [slab_congr Cd Cd' b b' hC]

theorem Gy_local (X : (⟨3, ![B, 18, 2048]⟩ : Shape).Idx → EReal) (X' : (⟨3, ![B', 18, 2048]⟩ : Shape).Idx → EReal)
    (Cd : (⟨3, ![B, 18, 4]⟩ : Shape).Idx → EReal) (Cd' : (⟨3, ![B', 18, 4]⟩ : Shape).Idx → EReal)
    (W1 : Fin 3 → Fin 2048 → EReal) (B1 : Fin 3 → EReal)
    (W2a : Fin 2048 → Fin 4 → EReal) (B2a G2 Be2 : Fin 2048 → EReal)
    (W2b : Fin 3 → Fin 2048 → EReal) (B2b : Fin 3 → EReal)
    (Wc : Fin 2048 → Fin 2048 → EReal) (Bc Gc Bec : Fin 2048 → EReal)
    (W3 : Fin 2048 → Fin 2048 → EReal) (B3 G3 Be3 : Fin 2048 → EReal)
    (b : Fin B) (b' : Fin B') (n : Fin 18) (d : Fin 2048)
    (hX : ∀ n c, X (ix3 b n c) = X' (ix3 b' n c)) (hC : ∀ n f, Cd (ix3 b n f) = Cd' (ix3 b' n f)) :
    Gy X Cd W1 B1 W2a B2a G2 Be2 W2b B2b Wc Bc Gc Bec W3 B3 G3 Be3 (ix3 b n d)
      = Gy X' Cd' W1 B1 W2a B2a G2 Be2 W2b B2b Wc Bc Gc Bec W3 B3 G3 Be3 (ix3 b' n d) := by
  show yOut (slab X b) (slab Cd b) W1 B1 W2a B2a G2 Be2 W2b B2b Wc Bc Gc Bec W3 B3 G3 Be3 n d
     = yOut (slab X' b') (slab Cd' b') W1 B1 W2a B2a G2 Be2 W2b B2b Wc Bc Gc Bec W3 B3 G3 Be3 n d
  rw [slab_congr X X' b b' hX, slab_congr Cd Cd' b b' hC]

end Local

end Cert.Bridge.Spec

end
-- ==== Proof.KBlocks.lean ====
/-
  From blocks to arrays. Grid point t stages batch elements 8 t … 8 t + 7 of the features and of the coordinates, and
  every weight whole; what it writes back to a result is the block of eight batch elements at the same place. So a
  result's block at t, computed from the staged blocks, is the block at t of the result's function of the whole arrays,
  because a batch element of a result reads the arguments at that batch element only; and the 64 blocks cover the array.
-/
import proofs.«131870_j89318139887950_2_alg».proof.Proof.ValueP
import proofs.«131870_j89318139887950_2_alg».proof.Proof.KAgg
import proofs.«131870_j89318139887950_2_alg».proof.Proof.SpecArr

set_option maxRecDepth 16384

noncomputable section

namespace Cert.Bridge.K

open Cert.KernelIdeal Cert.KernelIdeal.Gen Idealize.ShloMosaic Idealize.ShloMosaic.TcCoe Idealize.SL.Sem Idealize.ShloMosaic.ValueIdx
open Cert.Bridge.Spec Cert.Bridge.Lay
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Where each window's block sits: decided once over the 64 grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 1) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 1) = 0 :=
  (by decide +kernel : ∀ t : Fin grid0.N, _)
theorem idx17 : ∀ t : Fin cfg0.N, win0_17.index t (0 : Fin 1) = 0 :=
  (by decide +kernel : ∀ t : Fin grid0.N, _)
theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)
theorem idx19 : ∀ t : Fin cfg0.N, win0_19.index t (0 : Fin 3) = t.val ∧ win0_19.index t (1 : Fin 3) = 0 ∧ win0_19.index t (2 : Fin 3) = 0 :=
  (by decide +kernel : ∀ t : Fin grid0.N, _)
theorem idx21 : ∀ t : Fin cfg0.N, win0_21.index t (0 : Fin 3) = t.val ∧ win0_21.index t (1 : Fin 3) = 0 ∧ win0_21.index t (2 : Fin 3) = 0 :=
  (by decide +kernel : ∀ t : Fin grid0.N, _)

/-! ## What a staged block holds -/

variable (m : (ℓ : Loc nD τ sig) → Buf (Elt Ideal) ℓ)

/-- Batch element `8 t + p`. -/
abbrev bat (t : Fin cfg0.N) (p : Fin 8) : Fin 512 := ⟨t.val * 8 + p.val, by have := t.isLt; have h : cfg0.N = 64 := N_0; have := p.isLt; omega⟩

theorem blk0 (c : Dev nD) (t : Fin cfg0.N) (p : Fin 8) (n : Fin 18) (f : Fin 2048) :
    iblk m c 0 t (ix3 p n f) = V m c main_arg0 (ix3 (bat t p) n f) := by
  show V m c main_arg0 (((cfg0.win 0).blk t).view.emb (ix3 p n f)) = V m c main_arg0 (ix3 (bat t p) n f)
  obtain ⟨e0, e1, e2⟩ := idx0 t
  refine congrArg (V m c main_arg0) (funext fun a => Fin.ext ?_)
  match a with
  | ⟨0, _⟩ => show win0_0.index t (0 : Fin 3) * 8 + 1 * p.val = t.val * 8 + p.val; rw [e0]; omega
  | ⟨1, _⟩ => show win0_0.index t (1 : Fin 3) * 18 + 1 * n.val = n.val; rw [e1]; omega
  | ⟨2, _⟩ => show win0_0.index t (2 : Fin 3) * 2048 + 1 * f.val = f.val; rw [e2]; omega
theorem blk1 (c : Dev nD) (t : Fin cfg0.N) (p : Fin 8) (n : Fin 18) (f : Fin 4) :
    iblk m c 1 t (ix3 p n f) = V m c main_arg1 (ix3 (bat t p) n f) := by
  show V m c main_arg1 (((cfg0.win 1).blk t).view.emb (ix3 p n f)) = V m c main_arg1 (ix3 (bat t p) n f)
  obtain ⟨e0, e1, e2⟩ := idx1 t
  refine congrArg (V m c main_arg1) (funext fun a => Fin.ext ?_)
  match a with
  | ⟨0, _⟩ => show win0_1.index t (0 : Fin 3) * 8 + 1 * p.val = t.val * 8 + p.val; rw [e0]; omega
  | ⟨1, _⟩ => show win0_1.index t (1 : Fin 3) * 18 + 1 * n.val = n.val; rw [e1]; omega
  | ⟨2, _⟩ => show win0_1.index t (2 : Fin 3) * 4 + 1 * f.val = f.val; rw [e2]; omega
theorem blk2 (c : Dev nD) (t : Fin cfg0.N) (i0 : Fin 3) (i1 : Fin 2048) :
    iblk m c 2 t (ix2 i0 i1) = V m c main_arg2 (ix2 i0 i1) := by
  show V m c main_arg2 (((cfg0.win 2).blk t).view.emb (ix2 i0 i1)) = V m c main_arg2 (ix2 i0 i1)
  obtain ⟨e0, e1⟩ := idx2 t
  refine congrArg (V m c main_arg2) (funext fun a => Fin.ext ?_)
  match a with
  | ⟨0, _⟩ => show win0_2.index t (0 : Fin 2) * 3 + 1 * i0.val = i0.val; rw [e0]; omega
  | ⟨1, _⟩ => show win0_2.index t (1 : Fin 2) * 2048 + 1 * i1.val = i1.val; rw [e1]; omega
theorem blk3 (c : Dev nD) (t : Fin cfg0.N) (i0 : Fin 3) :
    iblk m c 3 t (ix1 i0) = V m c main_arg3 (ix1 i0) := by
  show V m c main_arg3 (((cfg0.win 3).blk t).view.emb (ix1 i0)) = V m c main_arg3 (ix1 i0)
  have e0 := idx3 t
  refine congrArg (V m c main_arg3) (funext fun a => Fin.ext ?_)
  match a with
  | ⟨0, _⟩ => show win0_3.index t (0 : Fin 1) * 3 + 1 * i0.val = i0.val; rw [e0]; omega
theorem blk4 (c : Dev nD) (t : Fin cfg0.N) (i0 : Fin 4) (i1 : Fin 2048) :
    iblk m c 4 t (ix2 i0 i1) = V m c main_v2 (ix2 i0 i1) := by
  show V m c main_v2 (((cfg0.win 4).blk t).view.emb (ix2 i0 i1)) = V m c main_v2 (ix2 i0 i1)
  obtain ⟨e0, e1⟩ := idx4 t
  refine congrArg (V m c main_v2) (funext fun a => Fin.ext ?_)
  match a with
  | ⟨0, _⟩ => show win0_4.index t (0 : Fin 2) * 4 + 1 * i0.val = i0.val; rw [e0]; omega
  | ⟨1, _⟩ => show win0_4.index t (1 : Fin 2) * 2048 + 1 * i1.val = i1.val; rw [e1]; omega
theorem blk5 (c : Dev nD) (t : Fin cfg0.N) (i0 : Fin 2048) :
    iblk m c 5 t (ix1 i0) = V m c main_arg5 (ix1 i0) := by
  show V m c main_arg5 (((cfg0.win 5).blk t).view.emb (ix1 i0)) = V m c main_arg5 (ix1 i0)
  have e0 := idx5 t
  refine congrArg (V m c main_arg5) (funext fun a => Fin.ext ?_)
  match a with
  | ⟨0, _⟩ => show win0_5.index t (0 : Fin 1) * 2048 + 1 * i0.val = i0.val; rw [e0]; omega
theorem blk6 (c : Dev nD) (t : Fin cfg0.N) (i0 : Fin 2048) :
    iblk m c 6 t (ix1 i0) = V m c main_arg6 (ix1 i0) := by
  show V m c main_arg6 (((cfg0.win 6).blk t).view.emb (ix1 i0)) = V m c main_arg6 (ix1 i0)
  have e0 := idx6 t
  refine congrArg (V m c main_arg6) (funext fun a => Fin.ext ?_)
  match a with
  | ⟨0, _⟩ => show win0_6.index t (0 : Fin 1) * 2048 + 1 * i0.val = i0.val; rw [e0]; omega
theorem blk7 (c : Dev nD) (t : Fin cfg0.N) (i0 : Fin 2048) :
    iblk m c 7 t (ix1 i0) = V m c main_arg7 (ix1 i0) := by
  show V m c main_arg7 (((cfg0.win 7).blk t).view.emb (ix1 i0)) = V m c main_arg7 (ix1 i0)
  have e0 := idx7 t
  refine congrArg (V m c main_arg7) (funext fun a => Fin.ext ?_)
  match a with
  | ⟨0, _⟩ => show win0_7.index t (0 : Fin 1) * 2048 + 1 * i0.val = i0.val; rw [e0]; omega
theorem blk8 (c : Dev nD) (t : Fin cfg0.N) (i0 : Fin 3) (i1 : Fin 2048) :
    iblk m c 8 t (ix2 i0 i1) = V m c main_arg8 (ix2 i0 i1) := by
  show V m c main_arg8 (((cfg0.win 8).blk t).view.emb (ix2 i0 i1)) = V m c main_arg8 (ix2 i0 i1)
  obtain ⟨e0, e1⟩ := idx8 t
  refine congrArg (V m c main_arg8) (funext fun a => Fin.ext ?_)
  match a with
  | ⟨0, _⟩ => show win0_8.index t (0 : Fin 2) * 3 + 1 * i0.val = i0.val; rw [e0]; omega
  | ⟨1, _⟩ => show win0_8.index t (1 : Fin 2) * 2048 + 1 * i1.val = i1.val; rw [e1]; omega
theorem blk9 (c : Dev nD) (t : Fin cfg0.N) (i0 : Fin 3) :
    iblk m c 9 t (ix1 i0) = V m c main_arg9 (ix1 i0) := by
  show V m c main_arg9 (((cfg0.win 9).blk t).view.emb (ix1 i0)) = V m c main_arg9 (ix1 i0)
  have e0 := idx9 t
  refine congrArg (V m c main_arg9) (funext fun a => Fin.ext ?_)
  match a with
  | ⟨0, _⟩ => show win0_9.index t (0 : Fin 1) * 3 + 1 * i0.val = i0.val; rw [e0]; omega
theorem blk10 (c : Dev nD) (t : Fin cfg0.N) (i0 : Fin 2048) (i1 : Fin 2048) :
    iblk m c 10 t (ix2 i0 i1) = V m c main_v0 (ix2 i0 i1) := by
  show V m c main_v0 (((cfg0.win 10).blk t).view.emb (ix2 i0 i1)) = V m c main_v0 (ix2 i0 i1)
  obtain ⟨e0, e1⟩ := idx10 t
  refine congrArg (V m c main_v0) (funext fun a => Fin.ext ?_)
  match a with
  | ⟨0, _⟩ => show win0_10.index t (0 : Fin 2) * 2048 + 1 * i0.val = i0.val; rw [e0]; omega
  | ⟨1, _⟩ => show win0_10.index t (1 : Fin 2) * 2048 + 1 * i1.val = i1.val; rw [e1]; omega
theorem blk11 (c : Dev nD) (t : Fin cfg0.N) (i0 : Fin 2048) :
    iblk m c 11 t (ix1 i0) = V m c main_arg11 (ix1 i0) := by
  show V m c main_arg11 (((cfg0.win 11).blk t).view.emb (ix1 i0)) = V m c main_arg11 (ix1 i0)
  have e0 := idx11 t
  refine congrArg (V m c main_arg11) (funext fun a => Fin.ext ?_)
  match a with
  | ⟨0, _⟩ => show win0_11.index t (0 : Fin 1) * 2048 + 1 * i0.val = i0.val; rw [e0]; omega
theorem blk12 (c : Dev nD) (t : Fin cfg0.N) (i0 : Fin 2048) :
    iblk m c 12 t (ix1 i0) = V m c main_arg12 (ix1 i0) := by
  show V m c main_arg12 (((cfg0.win 12).blk t).view.emb (ix1 i0)) = V m c main_arg12 (ix1 i0)
  have e0 := idx12 t
  refine congrArg (V m c main_arg12) (funext fun a => Fin.ext ?_)
  match a with
  | ⟨0, _⟩ => show win0_12.index t (0 : Fin 1) * 2048 + 1 * i0.val = i0.val; rw [e0]; omega
theorem blk13 (c : Dev nD) (t : Fin cfg0.N) (i0 : Fin 2048) :
    iblk m c 13 t (ix1 i0) = V m c main_arg13 (ix1 i0) := by
  show V m c main_arg13 (((cfg0.win 13).blk t).view.emb (ix1 i0)) = V m c main_arg13 (ix1 i0)
  have e0 := idx13 t
  refine congrArg (V m c main_arg13) (funext fun a => Fin.ext ?_)
  match a with
  | ⟨0, _⟩ => show win0_13.index t (0 : Fin 1) * 2048 + 1 * i0.val = i0.val; rw [e0]; omega
theorem blk14 (c : Dev nD) (t : Fin cfg0.N) (i0 : Fin 2048) (i1 : Fin 2048) :
    iblk m c 14 t (ix2 i0 i1) = V m c main_v1 (ix2 i0 i1) := by
  show V m c main_v1 (((cfg0.win 14).blk t).view.emb (ix2 i0 i1)) = V m c main_v1 (ix2 i0 i1)
  obtain ⟨e0, e1⟩ := idx14 t
  refine congrArg (V m c main_v1) (funext fun a => Fin.ext ?_)
  match a with
  | ⟨0, _⟩ => show win0_14.index t (0 : Fin 2) * 2048 + 1 * i0.val = i0.val; rw [e0]; omega
  | ⟨1, _⟩ => show win0_14.index t (1 : Fin 2) * 2048 + 1 * i1.val = i1.val; rw [e1]; omega
theorem blk15 (c : Dev nD) (t : Fin cfg0.N) (i0 : Fin 2048) :
    iblk m c 15 t (ix1 i0) = V m c main_arg15 (ix1 i0) := by
  show V m c main_arg15 (((cfg0.win 15).blk t).view.emb (ix1 i0)) = V m c main_arg15 (ix1 i0)
  have e0 := idx15 t
  refine congrArg (V m c main_arg15) (funext fun a => Fin.ext ?_)
  match a with
  | ⟨0, _⟩ => show win0_15.index t (0 : Fin 1) * 2048 + 1 * i0.val = i0.val; rw [e0]; omega
theorem blk16 (c : Dev nD) (t : Fin cfg0.N) (i0 : Fin 2048) :
    iblk m c 16 t (ix1 i0) = V m c main_arg16 (ix1 i0) := by
  show V m c main_arg16 (((cfg0.win 16).blk t).view.emb (ix1 i0)) = V m c main_arg16 (ix1 i0)
  have e0 := idx16 t
  refine congrArg (V m c main_arg16) (funext fun a => Fin.ext ?_)
  match a with
  | ⟨0, _⟩ => show win0_16.index t (0 : Fin 1) * 2048 + 1 * i0.val = i0.val; rw [e0]; omega
theorem blk17 (c : Dev nD) (t : Fin cfg0.N) (i0 : Fin 2048) :
    iblk m c 17 t (ix1 i0) = V m c main_arg17 (ix1 i0) := by
  show V m c main_arg17 (((cfg0.win 17).blk t).view.emb (ix1 i0)) = V m c main_arg17 (ix1 i0)
  have e0 := idx17 t
  refine congrArg (V m c main_arg17) (funext fun a => Fin.ext ?_)
  match a with
  | ⟨0, _⟩ => show win0_17.index t (0 : Fin 1) * 2048 + 1 * i0.val = i0.val; rw [e0]; omega

end Cert.Bridge.K

end
-- ==== Proof.KFinal.lean ====
/-
  The three results that read the soft assignments, block by block and then whole: what a grid point leaves in a
  result's block is the specification's function of the staged blocks; the staged blocks are the arrays' blocks at the
  point's eight batch elements, and the specification reads one batch element at a time; the 64 blocks cover the array.
-/
import proofs.«131870_j89318139887950_2_alg».proof.Proof.KBlocks
import Idealize.ShloMosaic.Lib.StableHlo.Run
import Idealize.ShloMosaic.Lib.ValueLayout

set_option maxRecDepth 16384

noncomputable section

namespace Cert.Bridge.K

open Cert.KernelIdeal Cert.KernelIdeal.Gen Idealize.ShloMosaic Idealize.ShloMosaic.TcCoe Idealize.SL.Sem Idealize.ShloMosaic.ValueIdx
open Cert.Bridge.Spec Cert.Bridge.Lay
open Idealize.ShloMosaic.Pipeline (Dat)

/-! ## A result's block from the staged blocks -/

/-- The first table's block: three products of normalized first-assignment entries, added up. -/
theorem block19 (x0 : Vec Ideal S8x18x2048 .f32) (x2 : Vec Ideal S3x2048 .f32) (x3 : Vec Ideal S3 .f32) (p : Fin 8) (i j : Fin 18) :
    ValueP.E19 x0 x2 x3 (ix3 p i j) = Gd21 (B := 8) x0 (mat x2) (vec x3) (ix3 p i j) := by
  have q0 : ValueP.ix19_0 (ix3 p i j) = ix3 p i (0 : Fin 3) := funext fun a => Fin.ext (by
    match a with
    | ⟨0, _⟩ => rfl
    | ⟨1, _⟩ => rfl
    | ⟨2, _⟩ => rfl)
  have q1 : ValueP.ix19_1 (ix3 p i j) = ix2 p i := funext fun a => Fin.ext (by
    match a with
    | ⟨0, _⟩ => rfl
    | ⟨1, _⟩ => rfl)
  have q2 : ValueP.ix19_2 (ix3 p i j) = ix3 p j (0 : Fin 3) := funext fun a => Fin.ext (by
    match a with
    | ⟨0, _⟩ => rfl
    | ⟨1, _⟩ => rfl
    | ⟨2, _⟩ => rfl)
  have q3 : ValueP.ix19_3 (ix3 p i j) = ix2 p j := funext fun a => Fin.ext (by
    match a with
    | ⟨0, _⟩ => rfl
    | ⟨1, _⟩ => rfl)
  have q4 : ValueP.ix19_4 (ix3 p i j) = ix3 p i (1 : Fin 3) := funext fun a => Fin.ext (by
    match a with
    | ⟨0, _⟩ => rfl
    | ⟨1, _⟩ => rfl
    | ⟨2, _⟩ => rfl)
  have q5 : ValueP.ix19_5 (ix3 p i j) = ix2 p i := funext fun a => Fin.ext (by
    match a with
    | ⟨0, _⟩ => rfl
    | ⟨1, _⟩ => rfl)
  have q6 : ValueP.ix19_6 (ix3 p i j) = ix3 p j (1 : Fin 3) := funext fun a => Fin.ext (by
    match a with
    | ⟨0, _⟩ => rfl
    | ⟨1, _⟩ => rfl
    | ⟨2, _⟩ => rfl)
  have q7 : ValueP.ix19_7 (ix3 p i j) = ix2 p j := funext fun a => Fin.ext (by
    match a with
    | ⟨0, _⟩ => rfl
    | ⟨1, _⟩ => rfl)
  have q8 : ValueP.ix19_8 (ix3 p i j) = ix3 p i (2 : Fin 3) := funext fun a => Fin.ext (by
    match a with
    | ⟨0, _⟩ => rfl
    | ⟨1, _⟩ => rfl
    | ⟨2, _⟩ => rfl)
  have q9 : ValueP.ix19_9 (ix3 p i j) = ix2 p i := funext fun a => Fin.ext (by
    match a with
    | ⟨0, _⟩ => rfl
    | ⟨1, _⟩ => rfl)
  have q10 : ValueP.ix19_10 (ix3 p i j) = ix3 p j (2 : Fin 3) := funext fun a => Fin.ext (by
    match a with
    | ⟨0, _⟩ => rfl
    | ⟨1, _⟩ => rfl
    | ⟨2, _⟩ => rfl)
  have q11 : ValueP.ix19_11 (ix3 p i j) = ix2 p j := funext fun a => Fin.ext (by
    match a with
    | ⟨0, _⟩ => rfl
    | ⟨1, _⟩ => rfl)
  show _ = cosAff (z1 (slab (B := 8) x0 p) (mat x2) (vec x3)) i j
  have s : ∀ n : Fin 18, (multiReduction (F := Ideal) .add [2] S8x18 (mulf (k0_pay1 x0 x2 x3) (k0_pay1 x0 x2 x3)) 0x00000000#32
      reduces_S8x18x3_S8x18 (.inl rfl) rfl) (ix2 p n) = sumsq (z1 (slab (B := 8) x0 p) (mat x2) (vec x3) n) := fun n =>
    (lane_sum _ _ _ _ _ p n).trans (Finset.sum_congr rfl fun k _ => by rw [mulf_apply, pay1_apply])
  unfold cosAff l2n
  rw [Fin.sum_univ_three]
  simp only [ValueP.E19, q0, q1, q2, q3, q4, q5, q6, q7, q8, q9, q10, q11, pay1_apply]
  rw [s i, s j]
  rfl

/-- The second table's block, the same over the second assignment. -/
theorem block21 (x1 : Vec Ideal S8x18x4 .f32) (x4 : Vec Ideal S4x2048 .f32) (x5 x6 x7 : Vec Ideal S2048 .f32) (x8 : Vec Ideal S3x2048 .f32) (x9 : Vec Ideal S3 .f32) (p : Fin 8) (i j : Fin 18) :
    ValueP.E21 x1 x4 x5 x6 x7 x8 x9 (ix3 p i j) = Gd22 (B := 8) x1 (matT x4) (vec x5) (vec x6) (vec x7) (mat x8) (vec x9) (ix3 p i j) := by
  have q0 : ValueP.ix21_0 (ix3 p i j) = ix3 p i (0 : Fin 3) := funext fun a => Fin.ext (by
    match a with
    | ⟨0, _⟩ => rfl
    | ⟨1, _⟩ => rfl
    | ⟨2, _⟩ => rfl)
  have q1 : ValueP.ix21_1 (ix3 p i j) = ix2 p i := funext fun a => Fin.ext (by
    match a with
    | ⟨0, _⟩ => rfl
    | ⟨1, _⟩ => rfl)
  have q2 : ValueP.ix21_2 (ix3 p i j) = ix3 p j (0 : Fin 3) := funext fun a => Fin.ext (by
    match a with
    | ⟨0, _⟩ => rfl
    | ⟨1, _⟩ => rfl
    | ⟨2, _⟩ => rfl)
  have q3 : ValueP.ix21_3 (ix3 p i j) = ix2 p j := funext fun a => Fin.ext (by
    match a with
    | ⟨0, _⟩ => rfl
    | ⟨1, _⟩ => rfl)
  have q4 : ValueP.ix21_4 (ix3 p i j) = ix3 p i (1 : Fin 3) := funext fun a => Fin.ext (by
    match a with
    | ⟨0, _⟩ => rfl
    | ⟨1, _⟩ => rfl
    | ⟨2, _⟩ => rfl)
  have q5 : ValueP.ix21_5 (ix3 p i j) = ix2 p i := funext fun a => Fin.ext (by
    match a with
    | ⟨0, _⟩ => rfl
    | ⟨1, _⟩ => rfl)
  have q6 : ValueP.ix21_6 (ix3 p i j) = ix3 p j (1 : Fin 3) := funext fun a => Fin.ext (by
    match a with
    | ⟨0, _⟩ => rfl
    | ⟨1, _⟩ => rfl
    | ⟨2, _⟩ => rfl)
  have q7 : ValueP.ix21_7 (ix3 p i j) = ix2 p j := funext fun a => Fin.ext (by
    match a with
    | ⟨0, _⟩ => rfl
    | ⟨1, _⟩ => rfl)
  have q8 : ValueP.ix21_8 (ix3 p i j) = ix3 p i (2 : Fin 3) := funext fun a => Fin.ext (by
    match a with
    | ⟨0, _⟩ => rfl
    | ⟨1, _⟩ => rfl
    | ⟨2, _⟩ => rfl)
  have q9 : ValueP.ix21_9 (ix3 p i j) = ix2 p i := funext fun a => Fin.ext (by
    match a with
    | ⟨0, _⟩ => rfl
    | ⟨1, _⟩ => rfl)
  have q10 : ValueP.ix21_10 (ix3 p i j) = ix3 p j (2 : Fin 3) := funext fun a => Fin.ext (by
    match a with
    | ⟨0, _⟩ => rfl
    | ⟨1, _⟩ => rfl
    | ⟨2, _⟩ => rfl)
  have q11 : ValueP.ix21_11 (ix3 p i j) = ix2 p j := funext fun a => Fin.ext (by
    match a with
    | ⟨0, _⟩ => rfl
    | ⟨1, _⟩ => rfl)
  show _ = cosAff (z2 (slab (B := 8) x1 p) (matT x4) (vec x5) (vec x6) (vec x7) (mat x8) (vec x9)) i j
  have s : ∀ n : Fin 18, (multiReduction (F := Ideal) .add [2] S8x18 (mulf (k0_pay14 (k0_pay13 x1 x4 x5) x6 x7 x8 x9) (k0_pay14 (k0_pay13 x1 x4 x5) x6 x7 x8 x9)) 0x00000000#32
      reduces_S8x18x3_S8x18 (.inl rfl) rfl) (ix2 p n) = sumsq (z2 (slab (B := 8) x1 p) (matT x4) (vec x5) (vec x6) (vec x7) (mat x8) (vec x9) n) := fun n =>
    (lane_sum _ _ _ _ _ p n).trans (Finset.sum_congr rfl fun k _ => by rw [mulf_apply, pay14_apply])
  unfold cosAff l2n
  rw [Fin.sum_univ_three]
  simp only [ValueP.E21, q0, q1, q2, q3, q4, q5, q6, q7, q8, q9, q10, q11, pay14_apply]
  rw [s i, s j]
  rfl

theorem out19_eq (x0 : Vec Ideal S8x18x2048 .f32) (x1 : Vec Ideal S8x18x4 .f32) (x2 : Vec Ideal S3x2048 .f32) (x3 : Vec Ideal S3 .f32) (x4 : Vec Ideal S4x2048 .f32) (x5 : Vec Ideal S2048 .f32) (x6 : Vec Ideal S2048 .f32) (x7 : Vec Ideal S2048 .f32) (x8 : Vec Ideal S3x2048 .f32) (x9 : Vec Ideal S3 .f32) (x10 : Vec Ideal S2048x2048 .bf16) (x11 : Vec Ideal S2048 .f32) (x12 : Vec Ideal S2048 .f32) (x13 : Vec Ideal S2048 .f32) (x14 : Vec Ideal S2048x2048 .bf16) (x15 : Vec Ideal S2048 .f32) (x16 : Vec Ideal S2048 .f32) (x17 : Vec Ideal S2048 .f32) (y : S8x18x18.Idx) :
    out0_19 x0 x1 x2 x3 x4 x5 x6 x7 x8 x9 x10 x11 x12 x13 x14 x15 x16 x17 y = Gd21 (B := 8) x0 (mat x2) (vec x3) y := by
  obtain ⟨p, i, j, rfl⟩ : ∃ (p : Fin 8) (i j : Fin 18), y = ix3 p i j := ⟨y 0, y 1, y 2, eq_ix3 y⟩
  unfold out0_19
  rw [ValueP.canon19_eq]
  simp only [View.ld_unit_zero (S := S8x18x2048) hz3, View.ld_unit_zero (S := S8x18x4) hz3, View.ld_unit_zero (S := S3x2048) hz2, View.ld_unit_zero (S := S3) hz1, View.ld_unit_zero (S := S4x2048) hz2, View.ld_unit_zero (S := S2048) hz1, View.ld_unit_zero (S := S2048x2048) hz2]
  exact block19 x0 x2 x3 p i j

theorem out21_eq (x0 : Vec Ideal S8x18x2048 .f32) (x1 : Vec Ideal S8x18x4 .f32) (x2 : Vec Ideal S3x2048 .f32) (x3 : Vec Ideal S3 .f32) (x4 : Vec Ideal S4x2048 .f32) (x5 : Vec Ideal S2048 .f32) (x6 : Vec Ideal S2048 .f32) (x7 : Vec Ideal S2048 .f32) (x8 : Vec Ideal S3x2048 .f32) (x9 : Vec Ideal S3 .f32) (x10 : Vec Ideal S2048x2048 .bf16) (x11 : Vec Ideal S2048 .f32) (x12 : Vec Ideal S2048 .f32) (x13 : Vec Ideal S2048 .f32) (x14 : Vec Ideal S2048x2048 .bf16) (x15 : Vec Ideal S2048 .f32) (x16 : Vec Ideal S2048 .f32) (x17 : Vec Ideal S2048 .f32) (y : S8x18x18.Idx) :
    out0_21 x0 x1 x2 x3 x4 x5 x6 x7 x8 x9 x10 x11 x12 x13 x14 x15 x16 x17 y = Gd22 (B := 8) x1 (matT x4) (vec x5) (vec x6) (vec x7) (mat x8) (vec x9) y := by
  obtain ⟨p, i, j, rfl⟩ : ∃ (p : Fin 8) (i j : Fin 18), y = ix3 p i j := ⟨y 0, y 1, y 2, eq_ix3 y⟩
  unfold out0_21
  rw [ValueP.canon21_eq]
  simp only [View.ld_unit_zero (S := S8x18x2048) hz3, View.ld_unit_zero (S := S8x18x4) hz3, View.ld_unit_zero (S := S3x2048) hz2, View.ld_unit_zero (S := S3) hz1, View.ld_unit_zero (S := S4x2048) hz2, View.ld_unit_zero (S := S2048) hz1, View.ld_unit_zero (S := S2048x2048) hz2]
  exact block21 x1 x4 x5 x6 x7 x8 x9 p i j

/-- The aggregated features' block. -/
theorem out18_eq (x0 : Vec Ideal S8x18x2048 .f32) (x1 : Vec Ideal S8x18x4 .f32) (x2 : Vec Ideal S3x2048 .f32) (x3 : Vec Ideal S3 .f32) (x4 : Vec Ideal S4x2048 .f32) (x5 : Vec Ideal S2048 .f32) (x6 : Vec Ideal S2048 .f32) (x7 : Vec Ideal S2048 .f32) (x8 : Vec Ideal S3x2048 .f32) (x9 : Vec Ideal S3 .f32) (x10 : Vec Ideal S2048x2048 .bf16) (x11 : Vec Ideal S2048 .f32) (x12 : Vec Ideal S2048 .f32) (x13 : Vec Ideal S2048 .f32) (x14 : Vec Ideal S2048x2048 .bf16) (x15 : Vec Ideal S2048 .f32) (x16 : Vec Ideal S2048 .f32) (x17 : Vec Ideal S2048 .f32) (y : S8x18x2048.Idx) :
    out0_18 x0 x1 x2 x3 x4 x5 x6 x7 x8 x9 x10 x11 x12 x13 x14 x15 x16 x17 y = Gy (B := 8) x0 x1 (mat x2) (vec x3) (matT x4) (vec x5) (vec x6) (vec x7) (mat x8) (vec x9) (mat x10) (vec x11) (vec x12) (vec x13) (mat x14) (vec x15) (vec x16) (vec x17) y := by
  obtain ⟨p, n, d, rfl⟩ : ∃ (p : Fin 8) (n : Fin 18) (d : Fin 2048), y = ix3 p n d := ⟨y 0, y 1, y 2, eq_ix3 y⟩
  unfold out0_18
  rw [View.canon_unit_zero hz3]
  simp only [View.ld_unit_zero (S := S8x18x2048) hz3, View.ld_unit_zero (S := S8x18x4) hz3, View.ld_unit_zero (S := S3x2048) hz2, View.ld_unit_zero (S := S3) hz1, View.ld_unit_zero (S := S4x2048) hz2, View.ld_unit_zero (S := S2048) hz1, View.ld_unit_zero (S := S2048x2048) hz2]
  have hZ : (fun n k => k0_pay21 (k0_pay1 x0 x2 x3) (k0_pay14 (k0_pay13 x1 x4 x5) x6 x7 x8 x9) (ix3 p n k))
      = zs (z1 (slab (B := 8) x0 p) (mat x2) (vec x3)) (z2 (slab (B := 8) x1 p) (matT x4) (vec x5) (vec x6) (vec x7) (mat x8) (vec x9)) :=
    funext fun n => funext fun k => by rw [pay21_apply, pay1_apply, pay14_apply]; rfl
  refine (pay28_apply x0 _ _ _ _ _ x14 x15 x16 x17 p n d
    (spread (dec (zs (z1 (slab (B := 8) x0 p) (mat x2) (vec x3)) (z2 (slab (B := 8) x1 p) (matT x4) (vec x5) (vec x6) (vec x7) (mat x8) (vec x9))))
      (conv (clus (slab (B := 8) x0 p) (enc (zs (z1 (slab (B := 8) x0 p) (mat x2) (vec x3)) (z2 (slab (B := 8) x1 p) (matT x4) (vec x5) (vec x6) (vec x7) (mat x8) (vec x9)))))
        (mat x10) (vec x11) (vec x12) (vec x13))) (fun c => ?_)).trans ?_
  · rw [kSpread_apply, pay24_apply, pay25_apply, pay26_apply, pay27_apply, pay23_apply, pay23_apply, pay23_apply, hZ]
    unfold spread
    rw [Fin.sum_univ_three]
  · rfl

/-! ## The staged blocks are the arrays' blocks -/

variable (m : (ℓ : Loc nD τ sig) → Buf (Elt Ideal) ℓ)

theorem slab0 (c : Dev nD) (t : Fin cfg0.N) (p : Fin 8) : slab (B := 8) (iblk m c 0 t) p = slab (B := 512) (V m c main_arg0) (bat t p) :=
  funext fun n => funext fun f => blk0 m c t p n f
theorem slab1 (c : Dev nD) (t : Fin cfg0.N) (p : Fin 8) : slab (B := 8) (iblk m c 1 t) p = slab (B := 512) (V m c main_arg1) (bat t p) :=
  funext fun n => funext fun f => blk1 m c t p n f
theorem mat2 (c : Dev nD) (t : Fin cfg0.N) : mat (iblk m c 2 t) = mat (V m c main_arg2) := funext fun i => funext fun j => blk2 m c t i j
theorem vec3 (c : Dev nD) (t : Fin cfg0.N) : vec (iblk m c 3 t) = vec (V m c main_arg3) := funext fun i => blk3 m c t i
theorem mat4 (c : Dev nD) (t : Fin cfg0.N) : mat (iblk m c 4 t) = mat (V m c main_v2) := funext fun i => funext fun j => blk4 m c t i j
theorem matT4 (c : Dev nD) (t : Fin cfg0.N) : matT (iblk m c 4 t) = matT (V m c main_v2) := funext fun i => funext fun j => blk4 m c t j i
theorem vec5 (c : Dev nD) (t : Fin cfg0.N) : vec (iblk m c 5 t) = vec (V m c main_arg5) := funext fun i => blk5 m c t i
theorem vec6 (c : Dev nD) (t : Fin cfg0.N) : vec (iblk m c 6 t) = vec (V m c main_arg6) := funext fun i => blk6 m c t i
theorem vec7 (c : Dev nD) (t : Fin cfg0.N) : vec (iblk m c 7 t) = vec (V m c main_arg7) := funext fun i => blk7 m c t i
theorem mat8 (c : Dev nD) (t : Fin cfg0.N) : mat (iblk m c 8 t) = mat (V m c main_arg8) := funext fun i => funext fun j => blk8 m c t i j
theorem vec9 (c : Dev nD) (t : Fin cfg0.N) : vec (iblk m c 9 t) = vec (V m c main_arg9) := funext fun i => blk9 m c t i
theorem mat10 (c : Dev nD) (t : Fin cfg0.N) : mat (iblk m c 10 t) = mat (V m c main_v0) := funext fun i => funext fun j => blk10 m c t i j
theorem vec11 (c : Dev nD) (t : Fin cfg0.N) : vec (iblk m c 11 t) = vec (V m c main_arg11) := funext fun i => blk11 m c t i
theorem vec12 (c : Dev nD) (t : Fin cfg0.N) : vec (iblk m c 12 t) = vec (V m c main_arg12) := funext fun i => blk12 m c t i
theorem vec13 (c : Dev nD) (t : Fin cfg0.N) : vec (iblk m c 13 t) = vec (V m c main_arg13) := funext fun i => blk13 m c t i
theorem mat14 (c : Dev nD) (t : Fin cfg0.N) : mat (iblk m c 14 t) = mat (V m c main_v1) := funext fun i => funext fun j => blk14 m c t i j
theorem vec15 (c : Dev nD) (t : Fin cfg0.N) : vec (iblk m c 15 t) = vec (V m c main_arg15) := funext fun i => blk15 m c t i
theorem vec16 (c : Dev nD) (t : Fin cfg0.N) : vec (iblk m c 16 t) = vec (V m c main_arg16) := funext fun i => blk16 m c t i
theorem vec17 (c : Dev nD) (t : Fin cfg0.N) : vec (iblk m c 17 t) = vec (V m c main_arg17) := funext fun i => blk17 m c t i

/-! ## Where a result's block sits in its array, and the cover -/

theorem emb19 (t : Fin cfg0.N) (y : S8x18x18.Idx) : ((cfg0.win 19).blk t).view.emb y = ix3 (bat t (y 0)) (y 1) (y 2) := by
  obtain ⟨e0, e1, e2⟩ := idx19 t
  funext a
  apply Fin.ext
  match a with
  | ⟨0, _⟩ => show win0_19.index t (0 : Fin 3) * 8 + 1 * (y 0).val = t.val * 8 + (y 0).val; rw [e0]; omega
  | ⟨1, _⟩ => show win0_19.index t (1 : Fin 3) * 18 + 1 * (y 1).val = (y 1).val; rw [e1]; omega
  | ⟨2, _⟩ => show win0_19.index t (2 : Fin 3) * 18 + 1 * (y 2).val = (y 2).val; rw [e2]; omega

theorem emb21 (t : Fin cfg0.N) (y : S8x18x18.Idx) : ((cfg0.win 21).blk t).view.emb y = ix3 (bat t (y 0)) (y 1) (y 2) := by
  obtain ⟨e0, e1, e2⟩ := idx21 t
  funext a
  apply Fin.ext
  match a with
  | ⟨0, _⟩ => show win0_21.index t (0 : Fin 3) * 8 + 1 * (y 0).val = t.val * 8 + (y 0).val; rw [e0]; omega
  | ⟨1, _⟩ => show win0_21.index t (1 : Fin 3) * 18 + 1 * (y 1).val = (y 1).val; rw [e1]; omega
  | ⟨2, _⟩ => show win0_21.index t (2 : Fin 3) * 18 + 1 * (y 2).val = (y 2).val; rw [e2]; omega

theorem emb18 (t : Fin cfg0.N) (y : S8x18x2048.Idx) : ((cfg0.win 18).blk t).view.emb y = ix3 (bat t (y 0)) (y 1) (y 2) := by
  obtain ⟨e0, e1, e2⟩ := idx18 t
  funext a
  apply Fin.ext
  match a with
  | ⟨0, _⟩ => show win0_18.index t (0 : Fin 3) * 8 + 1 * (y 0).val = t.val * 8 + (y 0).val; rw [e0]; omega
  | ⟨1, _⟩ => show win0_18.index t (1 : Fin 3) * 18 + 1 * (y 1).val = (y 1).val; rw [e1]; omega
  | ⟨2, _⟩ => show win0_18.index t (2 : Fin 3) * 2048 + 1 * (y 2).val = (y 2).val; rw [e2]; omega

theorem mem_blk19 (t : Fin cfg0.N) (i : S512x18x18.Idx) :
    i ∈ ((cfg0.win 19).blk t).view.set ↔ ∀ a : Fin 3, win0_19.index t a * S8x18x18.size a ≤ (i a).val ∧ (i a).val < win0_19.index t a * S8x18x18.size a + S8x18x18.size a := by
  show i ∈ ((View.whole main_v3_1).slice (win0_19.rect t)).set ↔ _
  rw [View.set_slice_whole, Rect.mem_set_unit]
  exact Iff.rfl

theorem cover19 (i : S512x18x18.Idx) : ∃ t : Fin cfg0.N, (cfg0.win 19).flush t = true ∧ i ∈ ((cfg0.win 19).blk t).view.set := by
  have hi0 : (i 0).val < 512 := (i 0).isLt
  have hi1 : (i 1).val < 18 := (i 1).isLt
  have hi2 : (i 2).val < 18 := (i 2).isLt
  have hN : cfg0.N = 64 := N_0
  refine ⟨⟨(i 0).val / 8, by omega⟩, flush0_19 _, ?_⟩
  rw [mem_blk19]
  obtain ⟨e0, e1, e2⟩ := idx19 ⟨(i 0).val / 8, by omega⟩
  intro a
  match a with
  | ⟨0, _⟩ =>
    show win0_19.index ⟨(i 0).val / 8, _⟩ (0 : Fin 3) * 8 ≤ (i 0).val ∧ (i 0).val < win0_19.index ⟨(i 0).val / 8, _⟩ (0 : Fin 3) * 8 + 8
    rw [e0]; show (i 0).val / 8 * 8 ≤ (i 0).val ∧ (i 0).val < (i 0).val / 8 * 8 + 8; omega
  | ⟨1, _⟩ =>
    show win0_19.index ⟨(i 0).val / 8, _⟩ (1 : Fin 3) * 18 ≤ (i 1).val ∧ (i 1).val < win0_19.index ⟨(i 0).val / 8, _⟩ (1 : Fin 3) * 18 + 18
    rw [e1]; omega
  | ⟨2, _⟩ =>
    show win0_19.index ⟨(i 0).val / 8, _⟩ (2 : Fin 3) * 18 ≤ (i 2).val ∧ (i 2).val < win0_19.index ⟨(i 0).val / 8, _⟩ (2 : Fin 3) * 18 + 18
    rw [e2]; omega

theorem mem_blk21 (t : Fin cfg0.N) (i : S512x18x18.Idx) :
    i ∈ ((cfg0.win 21).blk t).view.set ↔ ∀ a : Fin 3, win0_21.index t a * S8x18x18.size a ≤ (i a).val ∧ (i a).val < win0_21.index t a * S8x18x18.size a + S8x18x18.size a := by
  show i ∈ ((View.whole main_v3_3).slice (win0_21.rect t)).set ↔ _
  rw [View.set_slice_whole, Rect.mem_set_unit]
  exact Iff.rfl

theorem cover21 (i : S512x18x18.Idx) : ∃ t : Fin cfg0.N, (cfg0.win 21).flush t = true ∧ i ∈ ((cfg0.win 21).blk t).view.set := by
  have hi0 : (i 0).val < 512 := (i 0).isLt
  have hi1 : (i 1).val < 18 := (i 1).isLt
  have hi2 : (i 2).val < 18 := (i 2).isLt
  have hN : cfg0.N = 64 := N_0
  refine ⟨⟨(i 0).val / 8, by omega⟩, flush0_21 _, ?_⟩
  rw [mem_blk21]
  obtain ⟨e0, e1, e2⟩ := idx21 ⟨(i 0).val / 8, by omega⟩
  intro a
  match a with
  | ⟨0, _⟩ =>
    show win0_21.index ⟨(i 0).val / 8, _⟩ (0 : Fin 3) * 8 ≤ (i 0).val ∧ (i 0).val < win0_21.index ⟨(i 0).val / 8, _⟩ (0 : Fin 3) * 8 + 8
    rw [e0]; show (i 0).val / 8 * 8 ≤ (i 0).val ∧ (i 0).val < (i 0).val / 8 * 8 + 8; omega
  | ⟨1, _⟩ =>
    show win0_21.index ⟨(i 0).val / 8, _⟩ (1 : Fin 3) * 18 ≤ (i 1).val ∧ (i 1).val < win0_21.index ⟨(i 0).val / 8, _⟩ (1 : Fin 3) * 18 + 18
    rw [e1]; omega
  | ⟨2, _⟩ =>
    show win0_21.index ⟨(i 0).val / 8, _⟩ (2 : Fin 3) * 18 ≤ (i 2).val ∧ (i 2).val < win0_21.index ⟨(i 0).val / 8, _⟩ (2 : Fin 3) * 18 + 18
    rw [e2]; omega

theorem mem_blk18 (t : Fin cfg0.N) (i : S512x18x2048.Idx) :
    i ∈ ((cfg0.win 18).blk t).view.set ↔ ∀ a : Fin 3, win0_18.index t a * S8x18x2048.size a ≤ (i a).val ∧ (i a).val < win0_18.index t a * S8x18x2048.size a + S8x18x2048.size a := by
  show i ∈ ((View.whole main_v3_0).slice (win0_18.rect t)).set ↔ _
  rw [View.set_slice_whole, Rect.mem_set_unit]
  exact Iff.rfl

theorem cover18 (i : S512x18x2048.Idx) : ∃ t : Fin cfg0.N, (cfg0.win 18).flush t = true ∧ i ∈ ((cfg0.win 18).blk t).view.set := by
  have hi0 : (i 0).val < 512 := (i 0).isLt
  have hi1 : (i 1).val < 18 := (i 1).isLt
  have hi2 : (i 2).val < 2048 := (i 2).isLt
  have hN : cfg0.N = 64 := N_0
  refine ⟨⟨(i 0).val / 8, by omega⟩, flush0_18 _, ?_⟩
  rw [mem_blk18]
  obtain ⟨e0, e1, e2⟩ := idx18 ⟨(i 0).val / 8, by omega⟩
  intro a
  match a with
  | ⟨0, _⟩ =>
    show win0_18.index ⟨(i 0).val / 8, _⟩ (0 : Fin 3) * 8 ≤ (i 0).val ∧ (i 0).val < win0_18.index ⟨(i 0).val / 8, _⟩ (0 : Fin 3) * 8 + 8
    rw [e0]; show (i 0).val / 8 * 8 ≤ (i 0).val ∧ (i 0).val < (i 0).val / 8 * 8 + 8; omega
  | ⟨1, _⟩ =>
    show win0_18.index ⟨(i 0).val / 8, _⟩ (1 : Fin 3) * 18 ≤ (i 1).val ∧ (i 1).val < win0_18.index ⟨(i 0).val / 8, _⟩ (1 : Fin 3) * 18 + 18
    rw [e1]; omega
  | ⟨2, _⟩ =>
    show win0_18.index ⟨(i 0).val / 8, _⟩ (2 : Fin 3) * 2048 ≤ (i 2).val ∧ (i 2).val < win0_18.index ⟨(i 0).val / 8, _⟩ (2 : Fin 3) * 2048 + 2048
    rw [e2]; omega

/-! ## What each grid point writes back, and the arrays after the run -/

theorem flushed19_eq (c : Dev nD) (t : Fin cfg0.N) :
    (dats m 0 c).flushed 19 t = ((cfg0.win 19).blk t).view.read (Elt Ideal)
      (Gd21 (B := 512) (V m c main_arg0) (mat (V m c main_arg2)) (vec (V m c main_arg3))) := by
  rw [ValueP.flushed19]
  funext y
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = Gd21 (B := 512) (V m c main_arg0) (mat (V m c main_arg2)) (vec (V m c main_arg3)) (((cfg0.win 19).blk t).view.emb y)
  rw [out19_eq, emb19 t y]
  show cosAff (z1 (slab (B := 8) (iblk m c 0 t) (y 0)) (mat (iblk m c 2 t)) (vec (iblk m c 3 t))) (y 1) (y 2)
     = cosAff (z1 (slab (B := 512) (V m c main_arg0) (bat t (y 0))) (mat (V m c main_arg2)) (vec (V m c main_arg3))) (y 1) (y 2)
  rw [slab0 m c t (y 0), mat2 m c t, vec3 m c t]

theorem flushed21_eq (c : Dev nD) (t : Fin cfg0.N) :
    (dats m 0 c).flushed 21 t = ((cfg0.win 21).blk t).view.read (Elt Ideal)
      (Gd22 (B := 512) (V m c main_arg1) (matT (V m c main_v2)) (vec (V m c main_arg5)) (vec (V m c main_arg6)) (vec (V m c main_arg7)) (mat (V m c main_arg8)) (vec (V m c main_arg9))) := by
  rw [ValueP.flushed21]
  funext y
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = Gd22 (B := 512) (V m c main_arg1) (matT (V m c main_v2)) (vec (V m c main_arg5)) (vec (V m c main_arg6)) (vec (V m c main_arg7)) (mat (V m c main_arg8)) (vec (V m c main_arg9)) (((cfg0.win 21).blk t).view.emb y)
  rw [out21_eq, emb21 t y]
  show cosAff (z2 (slab (B := 8) (iblk m c 1 t) (y 0)) (matT (iblk m c 4 t)) (vec (iblk m c 5 t)) (vec (iblk m c 6 t)) (vec (iblk m c 7 t)) (mat (iblk m c 8 t)) (vec (iblk m c 9 t))) (y 1) (y 2)
     = cosAff (z2 (slab (B := 512) (V m c main_arg1) (bat t (y 0))) (matT (V m c main_v2)) (vec (V m c main_arg5)) (vec (V m c main_arg6)) (vec (V m c main_arg7)) (mat (V m c main_arg8)) (vec (V m c main_arg9))) (y 1) (y 2)
  rw [slab1 m c t (y 0), matT4 m c t, vec5 m c t, vec6 m c t, vec7 m c t, mat8 m c t, vec9 m c t]

theorem flushed18_eq (c : Dev nD) (t : Fin cfg0.N) :
    (dats m 0 c).flushed 18 t = ((cfg0.win 18).blk t).view.read (Elt Ideal)
      (Gy (B := 512) (V m c main_arg0) (V m c main_arg1) (mat (V m c main_arg2)) (vec (V m c main_arg3)) (matT (V m c main_v2)) (vec (V m c main_arg5)) (vec (V m c main_arg6)) (vec (V m c main_arg7)) (mat (V m c main_arg8)) (vec (V m c main_arg9)) (mat (V m c main_v0)) (vec (V m c main_arg11)) (vec (V m c main_arg12)) (vec (V m c main_arg13)) (mat (V m c main_v1)) (vec (V m c main_arg15)) (vec (V m c main_arg16)) (vec (V m c main_arg17))) := by
  rw [ValueP.flushed18]
  funext y
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = Gy (B := 512) (V m c main_arg0) (V m c main_arg1) (mat (V m c main_arg2)) (vec (V m c main_arg3)) (matT (V m c main_v2)) (vec (V m c main_arg5)) (vec (V m c main_arg6)) (vec (V m c main_arg7)) (mat (V m c main_arg8)) (vec (V m c main_arg9)) (mat (V m c main_v0)) (vec (V m c main_arg11)) (vec (V m c main_arg12)) (vec (V m c main_arg13)) (mat (V m c main_v1)) (vec (V m c main_arg15)) (vec (V m c main_arg16)) (vec (V m c main_arg17)) (((cfg0.win 18).blk t).view.emb y)
  rw [out18_eq, emb18 t y]
  show yOut (slab (B := 8) (iblk m c 0 t) (y 0)) (slab (B := 8) (iblk m c 1 t) (y 0)) (mat (iblk m c 2 t)) (vec (iblk m c 3 t)) (matT (iblk m c 4 t)) (vec (iblk m c 5 t)) (vec (iblk m c 6 t)) (vec (iblk m c 7 t)) (mat (iblk m c 8 t)) (vec (iblk m c 9 t)) (mat (iblk m c 10 t)) (vec (iblk m c 11 t)) (vec (iblk m c 12 t)) (vec (iblk m c 13 t)) (mat (iblk m c 14 t)) (vec (iblk m c 15 t)) (vec (iblk m c 16 t)) (vec (iblk m c 17 t)) (y 1) (y 2)
     = yOut (slab (B := 512) (V m c main_arg0) (bat t (y 0))) (slab (B := 512) (V m c main_arg1) (bat t (y 0))) (mat (V m c main_arg2)) (vec (V m c main_arg3)) (matT (V m c main_v2)) (vec (V m c main_arg5)) (vec (V m c main_arg6)) (vec (V m c main_arg7)) (mat (V m c main_arg8)) (vec (V m c main_arg9)) (mat (V m c main_v0)) (vec (V m c main_arg11)) (vec (V m c main_arg12)) (vec (V m c main_arg13)) (mat (V m c main_v1)) (vec (V m c main_arg15)) (vec (V m c main_arg16)) (vec (V m c main_arg17)) (y 1) (y 2)
  rw [slab0 m c t (y 0), slab1 m c t (y 0), mat2 m c t, vec3 m c t, matT4 m c t, vec5 m c t, vec6 m c t, vec7 m c t, mat8 m c t, vec9 m c t,
    mat10 m c t, vec11 m c t, vec12 m c t, vec13 m c t, mat14 m c t, vec15 m c t, vec16 m c t, vec17 m c t]

/-! ## The host operations before the region: two format changes and one transposition -/

theorem V_v2 (c : Dev nD) : matT (V m c main_v2) = mat (m ((c : Thread nD τ).loc main_arg4)) := by
  have e : (V m c main_v2 : S4x2048.Idx → EReal) = transpose S4x2048 [1, 0] (m ((c : Thread nD τ).loc main_arg4)) transposes_S2048x4_S4x2048_1_0 := by
    dsimp only [Gen.V, hostOps0]; after_results
  funext i j
  show (V m c main_v2 : S4x2048.Idx → EReal) (ix2 j i) = _
  rw [e]
  exact transpose_ix2_apply _ _ _ _

theorem V_v0 (c : Dev nD) : mat (V m c main_v0) = mat (m ((c : Thread nD τ).loc main_arg10)) := by
  have e : (V m c main_v0 : S2048x2048.Idx → EReal) = truncf (F := Ideal) .bf16 (m ((c : Thread nD τ).loc main_arg10)) bitsLt_bf16_f32 := by
    dsimp only [Gen.V, hostOps0]; after_results
  funext i j
  show (V m c main_v0 : S2048x2048.Idx → EReal) (ix2 i j) = _
  rw [e]; rfl

theorem V_v1 (c : Dev nD) : mat (V m c main_v1) = mat (m ((c : Thread nD τ).loc main_arg14)) := by
  have e : (V m c main_v1 : S2048x2048.Idx → EReal) = truncf (F := Ideal) .bf16 (m ((c : Thread nD τ).loc main_arg14)) bitsLt_bf16_f32 := by
    dsimp only [Gen.V, hostOps0]; after_results
  funext i j
  show (V m c main_v1 : S2048x2048.Idx → EReal) (ix2 i j) = _
  rw [e]; rfl

/-! ## The three arrays after the run -/

/-- An argument array of device `c`. -/
abbrev arg (c : Dev nD) (b : Ref sig .tc) := m ((c : Thread nD τ).loc b)

theorem final19 (c : Dev nD) : (dats m 0 c).arrAt 19 cfg0.N
    = Gd21 (B := 512) (arg m c main_arg0) (mat (arg m c main_arg2)) (vec (arg m c main_arg3)) := by
  rw [(dats m 0 c).arrAt_eq_of_cover 19 _ (fun t _ => flushed19_eq m c t) cover19, V_main_arg0, V_main_arg2, V_main_arg3]

theorem final21 (c : Dev nD) : (dats m 0 c).arrAt 21 cfg0.N
    = Gd22 (B := 512) (arg m c main_arg1) (mat (arg m c main_arg4)) (vec (arg m c main_arg5)) (vec (arg m c main_arg6)) (vec (arg m c main_arg7)) (mat (arg m c main_arg8)) (vec (arg m c main_arg9)) := by
  rw [(dats m 0 c).arrAt_eq_of_cover 21 _ (fun t _ => flushed21_eq m c t) cover21, V_v2, V_main_arg1, V_main_arg5, V_main_arg6, V_main_arg7, V_main_arg8, V_main_arg9]

theorem final18 (c : Dev nD) : (dats m 0 c).arrAt 18 cfg0.N
    = Gy (B := 512) (arg m c main_arg0) (arg m c main_arg1) (mat (arg m c main_arg2)) (vec (arg m c main_arg3)) (mat (arg m c main_arg4)) (vec (arg m c main_arg5)) (vec (arg m c main_arg6)) (vec (arg m c main_arg7))
        (mat (arg m c main_arg8)) (vec (arg m c main_arg9)) (mat (arg m c main_arg10)) (vec (arg m c main_arg11)) (vec (arg m c main_arg12)) (vec (arg m c main_arg13))
        (mat (arg m c main_arg14)) (vec (arg m c main_arg15)) (vec (arg m c main_arg16)) (vec (arg m c main_arg17)) := by
  rw [(dats m 0 c).arrAt_eq_of_cover 18 _ (fun t _ => flushed18_eq m c t) cover18, V_v2, V_v0, V_v1, V_main_arg0, V_main_arg1, V_main_arg2, V_main_arg3,
    V_main_arg5, V_main_arg6, V_main_arg7, V_main_arg8, V_main_arg9, V_main_arg11, V_main_arg12, V_main_arg13, V_main_arg15, V_main_arg16, V_main_arg17]

end Cert.Bridge.K

end
-- ==== Proof.RefZ1.lean ====
/-
  The reference's first soft assignment, read at an index.

  The reference forms, for batch element b and row n, the three logits  (sum over the 2048 features of X times W1) + B1,
  takes their maximum (never below minus infinity's word), exponentiates the logits less that maximum and divides by
  the sum of the three exponentials. Read stage by stage at the index (b, n, k) this is the specification's z1 at (n, k)
  of the slab of X at b.
-/
import proofs.«131870_j89318139887950_2_alg».proof.Proof.SpecArr
import proofs.«131870_j89318139887950_2_alg».proof.Proof.Gen.ReferenceIdeal.Read

noncomputable section

namespace Cert.Bridge.Ref

open Cert.Bridge.Spec Cert.ReferenceIdeal Cert.ReferenceIdeal.Gen Cert.ReferenceIdeal.Read Idealize.ShloMosaic Idealize.ShloMosaic.ValueIdx

/-! ## The maximum over the three clusters -/

/-- The reduced index (b, n) with cluster `k` put back is (b, n, k). -/
theorem lift_row3 (h : S512x18x3.Reduces [2] S512x18) (b : Fin 512) (n : Fin 18) (k : Fin (S512x18x3.size 2)) :
    h.lift (ix2 b n) k = ix3 b n (⟨k.val, k.isLt⟩ : Fin 3) := by
  funext c; apply Fin.ext
  fin_cases c <;> rfl

/-- A reduce with a maximum body over the cluster axis, at row (b, n), is the fold of `max` over the three clusters
    from the initial value's element. -/
theorem reduce_max_row (x : S512x18x3.Idx → EReal) (init : S_.Idx → EReal) (b : Fin 512) (n : Fin 18) :
    Host.reduce (FloatOps.maximumf (F := Ideal) (φ := .f32)) x init reducesTo_S512x18x3_S512x18_d2 h_S_ (ix2 b n)
      = (Finset.univ : Finset (Fin 3)).fold max (init (Shape.Idx.first h_S_)) (fun k => x (ix3 b n k)) := by
  have h : S512x18x3.Reduces [2] S512x18 := by decide
  rw [Host.reduce_eq_fold_single (FloatOps.maximumf (F := Ideal) (φ := .f32)) x init reducesTo_S512x18x3_S512x18_d2 h h_S_]
  have hf : (x ∘ h.lift (ix2 b n)) = fun k : Fin 3 => x (ix3 b n k) := funext fun k => congrArg x (lift_row3 h b n k)
  exact congrArg (fun f => Finset.fold max (init (Shape.Idx.first h_S_)) f (Finset.univ : Finset (Fin 3))) hf

/-! ## The softmax of a row of three values, stage by stage -/

section First
variable (x0 : S512x18x2048.Idx → EReal) (x2 : S3x2048.Idx → EReal) (x3 : S3.Idx → EReal)

/-- The logits: stages %0 … %3. -/
theorem ref_logit1 (b : Fin 512) (n : Fin 18) (k : Fin 3) :
    val_main_v3 (F := Ideal) x0 x2 x3 (ix3 b n k) = lin (slab x0 b) (mat x2) (vec x3) n k := by
  rw [val_main_v3_apply, val_main_v0_apply, val_main_v2_apply, val_main_v1_apply]
  have e1 : ∀ c : Fin 2048, lidx_main_v0 (ix3 b n k) c = ix3 b n c := fun c =>
    funext fun a => Fin.ext (by match a with | ⟨0, _⟩ => rfl | ⟨1, _⟩ => rfl | ⟨2, _⟩ => rfl)
  have e2 : ∀ c : Fin 2048, ridx_main_v0 (ix3 b n k) c = ix2 k c := fun c =>
    funext fun a => Fin.ext (by match a with | ⟨0, _⟩ => rfl | ⟨1, _⟩ => rfl)
  have e3 : idx_main_v1 (idx_main_v2 (ix3 b n k)) = ix1 k :=
    funext fun a => Fin.ext (by match a with | ⟨0, _⟩ => rfl)
  simp only [e1, e2, e3, Ideal.addf_def]
  rfl

/-- The row maximum: stages %4 … %6. -/
theorem ref_rowmax1 (b : Fin 512) (n : Fin 18) :
    val_main_v6 (F := Ideal) x0 x2 x3 (ix2 b n) = rowmax (lin (slab x0 b) (mat x2) (vec x3) n) := by
  rw [val_main_v6_apply, val_main_v5_apply, val_main_cst_0_apply]
  unfold val_main_v4
  rw [reduce_max_row, val_main_cst_apply]
  have hl : (fun k : Fin 3 => val_main_v3 (F := Ideal) x0 x2 x3 (ix3 b n k)) = lin (slab x0 b) (mat x2) (vec x3) n :=
    funext fun k => ref_logit1 x0 x2 x3 b n k
  rw [hl]
  rfl

/-- The exponentials: stages %7 … %10. -/
theorem ref_exp1 (b : Fin 512) (n : Fin 18) (k : Fin 3) :
    val_main_v10 (F := Ideal) x0 x2 x3 (ix3 b n k)
      = Ideal.exp (lin (slab x0 b) (mat x2) (vec x3) n k - rowmax (lin (slab x0 b) (mat x2) (vec x3) n)) := by
  rw [val_main_v10_apply, val_main_v9_apply, val_main_v8_apply, val_main_v7_apply]
  have e : idx_main_v7 (idx_main_v8 (ix3 b n k)) = ix2 b n :=
    funext fun a => Fin.ext (by match a with | ⟨0, _⟩ => rfl | ⟨1, _⟩ => rfl)
  rw [e, ref_rowmax1, ref_logit1]
  rfl

/-- The first soft assignment: stages %0 … %14. -/
theorem ref_z1 (b : Fin 512) (n : Fin 18) (k : Fin 3) :
    val_main_v14 (F := Ideal) x0 x2 x3 (ix3 b n k) = z1 (slab x0 b) (mat x2) (vec x3) n k := by
  rw [val_main_v14_apply, val_main_v13_apply, val_main_v12_apply, val_main_v11_apply, val_main_cst_1_apply]
  have e : ∀ k' : Fin 3, idx_main_v11 (idx_main_v12 (idx_main_v13 (ix3 b n k))) k' = ix3 b n k' := fun k' =>
    funext fun a => Fin.ext (by match a with | ⟨0, _⟩ => rfl | ⟨1, _⟩ => rfl | ⟨2, _⟩ => rfl)
  simp only [e, ref_exp1, Ideal.ofBits_def, Ideal.ofBits_zero_f32, zero_add, Ideal.hostDivf_def]
  rfl

end First

end Cert.Bridge.Ref

end
-- ==== Proof.RefZ2.lean ====
/-
  The reference's second soft assignment, read at an index.

  The hidden row: a linear map of the four coordinates with bias, times the gain scaled by the word `bn`, plus the shift,
  clipped below at zero. Then the same softmax over three clusters as for the first assignment: logits  (sum over the
  2048 hidden features times W2b) + B2b,  their maximum, the exponentials less the maximum, over their sum.
-/
import proofs.«131870_j89318139887950_2_alg».proof.Proof.RefZ1

noncomputable section

namespace Cert.Bridge.Ref

open Cert.Bridge.Spec Cert.ReferenceIdeal Cert.ReferenceIdeal.Gen Cert.ReferenceIdeal.Read Idealize.ShloMosaic Idealize.ShloMosaic.ValueIdx

section Second
variable (x1 : S512x18x4.Idx → EReal) (x4 : S2048x4.Idx → EReal) (x5 x6 x7 : S2048.Idx → EReal)
variable (x8 : S3x2048.Idx → EReal) (x9 : S3.Idx → EReal)

/-- The hidden row: stages %27 … %39. -/
theorem ref_hid (b : Fin 512) (n : Fin 18) (c : Fin 2048) :
    val_main_v39 (F := Ideal) x1 x4 x5 x6 x7 (ix3 b n c) = hid (slab x1 b) (mat x4) (vec x5) (vec x6) (vec x7) n c := by
  rw [val_main_v39_apply, val_main_call2_v0_apply, val_main_call2_cst_apply, val_main_v38_apply, val_main_v37_apply,
    val_main_v36_apply, val_main_v35_apply, val_main_v34_apply, val_main_v33_apply, val_main_v32_apply, val_main_v31_apply,
    val_main_cst_4_apply, val_main_v30_apply, val_main_v29_apply, val_main_v28_apply, val_main_v27_apply]
  have e1 : ∀ f : Fin 4, lidx_main_v27 (ix3 b n c) f = ix3 b n f := fun f =>
    funext fun a => Fin.ext (by match a with | ⟨0, _⟩ => rfl | ⟨1, _⟩ => rfl | ⟨2, _⟩ => rfl)
  have e2 : ∀ f : Fin 4, ridx_main_v27 (ix3 b n c) f = ix2 c f := fun f =>
    funext fun a => Fin.ext (by match a with | ⟨0, _⟩ => rfl | ⟨1, _⟩ => rfl)
  have e3 : idx_main_v28 (idx_main_v29 (ix3 b n c)) = ix1 c :=
    funext fun a => Fin.ext (by match a with | ⟨0, _⟩ => rfl)
  have e4 : idx_main_v33 (idx_main_v34 (ix3 b n c)) = ix1 c :=
    funext fun a => Fin.ext (by match a with | ⟨0, _⟩ => rfl)
  have e5 : idx_main_v36 (idx_main_v37 (ix3 b n c)) = ix1 c :=
    funext fun a => Fin.ext (by match a with | ⟨0, _⟩ => rfl)
  simp only [e1, e2, e3, e4, e5, Ideal.addf_def, Ideal.mulf_def, Ideal.maximumf_def, Ideal.ofBits_def]
  rfl

/-- The logits: stages %40 … %43. -/
theorem ref_logit2 (b : Fin 512) (n : Fin 18) (k : Fin 3) :
    val_main_v43 (F := Ideal) x1 x4 x5 x6 x7 x8 x9 (ix3 b n k)
      = lin (hid (slab x1 b) (mat x4) (vec x5) (vec x6) (vec x7)) (mat x8) (vec x9) n k := by
  rw [val_main_v43_apply, val_main_v40_apply, val_main_v42_apply, val_main_v41_apply]
  have e1 : ∀ c : Fin 2048, lidx_main_v40 (ix3 b n k) c = ix3 b n c := fun c =>
    funext fun a => Fin.ext (by match a with | ⟨0, _⟩ => rfl | ⟨1, _⟩ => rfl | ⟨2, _⟩ => rfl)
  have e2 : ∀ c : Fin 2048, ridx_main_v40 (ix3 b n k) c = ix2 k c := fun c =>
    funext fun a => Fin.ext (by match a with | ⟨0, _⟩ => rfl | ⟨1, _⟩ => rfl)
  have e3 : idx_main_v41 (idx_main_v42 (ix3 b n k)) = ix1 k :=
    funext fun a => Fin.ext (by match a with | ⟨0, _⟩ => rfl)
  simp only [e1, e2, e3, ref_hid, Ideal.addf_def]
  rfl

/-- The row maximum: stages %44 … %46. -/
theorem ref_rowmax2 (b : Fin 512) (n : Fin 18) :
    val_main_v46 (F := Ideal) x1 x4 x5 x6 x7 x8 x9 (ix2 b n)
      = rowmax (lin (hid (slab x1 b) (mat x4) (vec x5) (vec x6) (vec x7)) (mat x8) (vec x9) n) := by
  rw [val_main_v46_apply, val_main_v45_apply, val_main_cst_6_apply]
  unfold val_main_v44
  rw [reduce_max_row, val_main_cst_5_apply]
  have hl : (fun k : Fin 3 => val_main_v43 (F := Ideal) x1 x4 x5 x6 x7 x8 x9 (ix3 b n k))
      = lin (hid (slab x1 b) (mat x4) (vec x5) (vec x6) (vec x7)) (mat x8) (vec x9) n :=
    funext fun k => ref_logit2 x1 x4 x5 x6 x7 x8 x9 b n k
  rw [hl]
  rfl

/-- The exponentials: stages %47 … %50. -/
theorem ref_exp2 (b : Fin 512) (n : Fin 18) (k : Fin 3) :
    val_main_v50 (F := Ideal) x1 x4 x5 x6 x7 x8 x9 (ix3 b n k)
      = Ideal.exp (lin (hid (slab x1 b) (mat x4) (vec x5) (vec x6) (vec x7)) (mat x8) (vec x9) n k
          - rowmax (lin (hid (slab x1 b) (mat x4) (vec x5) (vec x6) (vec x7)) (mat x8) (vec x9) n)) := by
  rw [val_main_v50_apply, val_main_v49_apply, val_main_v48_apply, val_main_v47_apply]
  have e : idx_main_v47 (idx_main_v48 (ix3 b n k)) = ix2 b n :=
    funext fun a => Fin.ext (by match a with | ⟨0, _⟩ => rfl | ⟨1, _⟩ => rfl)
  rw [e, ref_rowmax2, ref_logit2]
  rfl

/-- The second soft assignment: stages %27 … %54. -/
theorem ref_z2 (b : Fin 512) (n : Fin 18) (k : Fin 3) :
    val_main_v54 (F := Ideal) x1 x4 x5 x6 x7 x8 x9 (ix3 b n k)
      = z2 (slab x1 b) (mat x4) (vec x5) (vec x6) (vec x7) (mat x8) (vec x9) n k := by
  rw [val_main_v54_apply, val_main_v53_apply, val_main_v52_apply, val_main_v51_apply, val_main_cst_7_apply]
  have e : ∀ k' : Fin 3, idx_main_v51 (idx_main_v52 (idx_main_v53 (ix3 b n k))) k' = ix3 b n k' := fun k' =>
    funext fun a => Fin.ext (by match a with | ⟨0, _⟩ => rfl | ⟨1, _⟩ => rfl | ⟨2, _⟩ => rfl)
  simp only [e, ref_exp2, Ideal.ofBits_def, Ideal.ofBits_zero_f32, zero_add, Ideal.hostDivf_def]
  rfl

end Second

end Cert.Bridge.Ref

end
-- ==== Proof.RefD.lean ====
/-
  The reference's two tables of inner products of normalized assignment rows.

  Each soft assignment's rows are divided by their Euclidean length (the square root of the sum of the three squares,
  clipped below at the word `eps`), and the table at (b, i, j) is the sum over the three clusters of the products of
  row i's and row j's normalized entries: the specification's `cosAff` of the assignment of batch element b.
-/
import proofs.«131870_j89318139887950_2_alg».proof.Proof.RefZ2

noncomputable section

namespace Cert.Bridge.Ref

open Cert.Bridge.Spec Cert.ReferenceIdeal Cert.ReferenceIdeal.Gen Cert.ReferenceIdeal.Read Idealize.ShloMosaic Idealize.ShloMosaic.ValueIdx

section First
variable (x0 : S512x18x2048.Idx → EReal) (x2 : S3x2048.Idx → EReal) (x3 : S3.Idx → EReal)

/-- A row of the first assignment over its clipped length: stages %21 … %25. -/
theorem ref_l2n1 (b : Fin 512) (n : Fin 18) (k : Fin 3) :
    val_main_v25 (F := Ideal) x0 x2 x3 (ix3 b n k) = l2n (z1 (slab x0 b) (mat x2) (vec x3) n) k := by
  rw [val_main_v25_apply, val_main_v24_apply, val_main_v23_apply, val_main_v22_apply, val_main_cst_3_apply,
    val_main_v21_apply, val_main_call1_v2_apply, val_main_call1_v1_apply, val_main_call1_cst_apply]
  have e : ∀ k' : Fin 3, idx_main_call1_v1 (idx_main_call1_v2 (idx_main_v24 (ix3 b n k))) k' = ix3 b n k' := fun k' =>
    funext fun a => Fin.ext (by match a with | ⟨0, _⟩ => rfl | ⟨1, _⟩ => rfl | ⟨2, _⟩ => rfl)
  simp only [e, val_main_call1_v0_apply, ref_z1, Ideal.ofBits_def, Ideal.ofBits_zero_f32, zero_add, Ideal.hostDivf_def,
    Ideal.hostUnary_sqrt_def, Ideal.maximumf_def, Ideal.mulf_def]
  rfl

/-- The first table: stages %21 … %26. -/
theorem ref_d21 : val_main_v26 (F := Ideal) x0 x2 x3 = Gd21 (B := 512) x0 (mat x2) (vec x3) := by
  funext y
  obtain ⟨b, i, j, rfl⟩ : ∃ (b : Fin 512) (i j : Fin 18), y = ix3 b i j := ⟨y 0, y 1, y 2, eq_ix3 y⟩
  rw [val_main_v26_apply]
  have el : ∀ k : Fin 3, lidx_main_v26 (ix3 b i j) k = ix3 b i k := fun k =>
    funext fun a => Fin.ext (by match a with | ⟨0, _⟩ => rfl | ⟨1, _⟩ => rfl | ⟨2, _⟩ => rfl)
  have er : ∀ k : Fin 3, ridx_main_v26 (ix3 b i j) k = ix3 b j k := fun k =>
    funext fun a => Fin.ext (by match a with | ⟨0, _⟩ => rfl | ⟨1, _⟩ => rfl | ⟨2, _⟩ => rfl)
  simp only [el, er, ref_l2n1]
  rfl

end First

section Second
variable (x1 : S512x18x4.Idx → EReal) (x4 : S2048x4.Idx → EReal) (x5 x6 x7 : S2048.Idx → EReal)
variable (x8 : S3x2048.Idx → EReal) (x9 : S3.Idx → EReal)

/-- A row of the second assignment over its clipped length: stages %93 … %97. -/
theorem ref_l2n2 (b : Fin 512) (n : Fin 18) (k : Fin 3) :
    val_main_v97 (F := Ideal) x1 x4 x5 x6 x7 x8 x9 (ix3 b n k)
      = l2n (z2 (slab x1 b) (mat x4) (vec x5) (vec x6) (vec x7) (mat x8) (vec x9) n) k := by
  rw [val_main_v97_apply, val_main_v96_apply, val_main_v95_apply, val_main_v94_apply, val_main_cst_15_apply,
    val_main_v93_apply, val_main_call5_v2_apply, val_main_call5_v1_apply, val_main_call5_cst_apply]
  have e : ∀ k' : Fin 3, idx_main_call5_v1 (idx_main_call5_v2 (idx_main_v96 (ix3 b n k))) k' = ix3 b n k' := fun k' =>
    funext fun a => Fin.ext (by match a with | ⟨0, _⟩ => rfl | ⟨1, _⟩ => rfl | ⟨2, _⟩ => rfl)
  simp only [e, val_main_call5_v0_apply, ref_z2, Ideal.ofBits_def, Ideal.ofBits_zero_f32, zero_add, Ideal.hostDivf_def,
    Ideal.hostUnary_sqrt_def, Ideal.maximumf_def, Ideal.mulf_def]
  rfl

/-- The second table: stages %93 … %98. -/
theorem ref_d22 : val_main_v98 (F := Ideal) x1 x4 x5 x6 x7 x8 x9
    = Gd22 (B := 512) x1 (mat x4) (vec x5) (vec x6) (vec x7) (mat x8) (vec x9) := by
  funext y
  obtain ⟨b, i, j, rfl⟩ : ∃ (b : Fin 512) (i j : Fin 18), y = ix3 b i j := ⟨y 0, y 1, y 2, eq_ix3 y⟩
  rw [val_main_v98_apply]
  have el : ∀ k : Fin 3, lidx_main_v98 (ix3 b i j) k = ix3 b i k := fun k =>
    funext fun a => Fin.ext (by match a with | ⟨0, _⟩ => rfl | ⟨1, _⟩ => rfl | ⟨2, _⟩ => rfl)
  have er : ∀ k : Fin 3, ridx_main_v98 (ix3 b i j) k = ix3 b j k := fun k =>
    funext fun a => Fin.ext (by match a with | ⟨0, _⟩ => rfl | ⟨1, _⟩ => rfl | ⟨2, _⟩ => rfl)
  simp only [el, er, ref_l2n2]
  rfl

end Second

end Cert.Bridge.Ref

end
-- ==== Proof.RefY.lean ====
/-
  The reference's aggregated features, read at an index.

  The two soft assignments are added; the sum is normalized once down the 18 rows (the encoding) and once across the
  3 clusters (the decoding), each normalizing sum shifted by the word `eps`. The encoding's transpose carries the 18 rows
  of X to 3 cluster rows; a 2048 x 2048 linear map with bias, gain (scaled by the word `bn`), shift and clip at zero acts
  on them; the decoding carries them back to 18 rows; a second such map acts on those, and X is added back.
-/
import proofs.«131870_j89318139887950_2_alg».proof.Proof.RefZ2

noncomputable section

namespace Cert.Bridge.Ref

open Cert.Bridge.Spec Cert.ReferenceIdeal Cert.ReferenceIdeal.Gen Cert.ReferenceIdeal.Read Idealize.ShloMosaic Idealize.ShloMosaic.ValueIdx

section Third
variable (x0 : S512x18x2048.Idx → EReal) (x1 : S512x18x4.Idx → EReal) (x2 : S3x2048.Idx → EReal) (x3 : S3.Idx → EReal)
variable (x4 : S2048x4.Idx → EReal) (x5 x6 x7 : S2048.Idx → EReal) (x8 : S3x2048.Idx → EReal) (x9 : S3.Idx → EReal)
variable (x10 : S2048x2048.Idx → EReal) (x11 x12 x13 : S2048.Idx → EReal)
variable (x14 : S2048x2048.Idx → EReal) (x15 x16 x17 : S2048.Idx → EReal)

/-- The sum of the two soft assignments of batch element `b`. -/
abbrev zsum (b : Fin 512) : Fin 18 → Fin 3 → EReal :=
  zs (z1 (slab x0 b) (mat x2) (vec x3)) (z2 (slab x1 b) (mat x4) (vec x5) (vec x6) (vec x7) (mat x8) (vec x9))

/-- The three cluster rows of batch element `b` after the first 2048 x 2048 map. -/
abbrev urows (b : Fin 512) : Fin 3 → Fin 2048 → EReal :=
  conv (clus (slab x0 b) (enc (zsum x0 x1 x2 x3 x4 x5 x6 x7 x8 x9 b))) (mat x10) (vec x11) (vec x12) (vec x13)

/-- The sum of the assignments: stage %99. -/
theorem ref_zs (b : Fin 512) (n : Fin 18) (k : Fin 3) :
    val_main_v99 (F := Ideal) x0 x1 x2 x3 x4 x5 x6 x7 x8 x9 (ix3 b n k) = zsum x0 x1 x2 x3 x4 x5 x6 x7 x8 x9 b n k := by
  rw [val_main_v99_apply, ref_z1, ref_z2]
  rfl

/-- The encoding, normalized down the rows: stages %100 … %105. -/
theorem ref_enc (b : Fin 512) (n : Fin 18) (k : Fin 3) :
    val_main_v105 (F := Ideal) x0 x1 x2 x3 x4 x5 x6 x7 x8 x9 (ix3 b n k) = enc (zsum x0 x1 x2 x3 x4 x5 x6 x7 x8 x9 b) n k := by
  rw [val_main_v105_apply, val_main_v104_apply, val_main_v103_apply, val_main_v102_apply, val_main_cst_17_apply,
    val_main_v101_apply, val_main_v100_apply, val_main_cst_16_apply]
  have e : ∀ n' : Fin 18, idx_main_v100 (idx_main_v101 (idx_main_v104 (ix3 b n k))) n' = ix3 b n' k := fun n' =>
    funext fun a => Fin.ext (by match a with | ⟨0, _⟩ => rfl | ⟨1, _⟩ => rfl | ⟨2, _⟩ => rfl)
  simp only [e, ref_zs, Ideal.ofBits_def, Ideal.ofBits_zero_f32, zero_add, Ideal.hostDivf_def, Ideal.addf_def]
  rfl

/-- The decoding, normalized across the clusters: stages %106 … %111. -/
theorem ref_dec (b : Fin 512) (n : Fin 18) (k : Fin 3) :
    val_main_v111 (F := Ideal) x0 x1 x2 x3 x4 x5 x6 x7 x8 x9 (ix3 b n k) = dec (zsum x0 x1 x2 x3 x4 x5 x6 x7 x8 x9 b) n k := by
  rw [val_main_v111_apply, val_main_v110_apply, val_main_v109_apply, val_main_v108_apply, val_main_cst_19_apply,
    val_main_v107_apply, val_main_v106_apply, val_main_cst_18_apply]
  have e : ∀ k' : Fin 3, idx_main_v106 (idx_main_v107 (idx_main_v110 (ix3 b n k))) k' = ix3 b n k' := fun k' =>
    funext fun a => Fin.ext (by match a with | ⟨0, _⟩ => rfl | ⟨1, _⟩ => rfl | ⟨2, _⟩ => rfl)
  simp only [e, ref_zs, Ideal.ofBits_def, Ideal.ofBits_zero_f32, zero_add, Ideal.hostDivf_def, Ideal.addf_def]
  rfl

/-- The cluster rows, the encoding's transpose times X: stage %112. -/
theorem ref_clus (b : Fin 512) (k : Fin 3) (c : Fin 2048) :
    val_main_v112 (F := Ideal) x0 x1 x2 x3 x4 x5 x6 x7 x8 x9 (ix3 b k c)
      = clus (slab x0 b) (enc (zsum x0 x1 x2 x3 x4 x5 x6 x7 x8 x9 b)) k c := by
  rw [val_main_v112_apply]
  have el : ∀ n : Fin 18, lidx_main_v112 (ix3 b k c) n = ix3 b n k := fun n =>
    funext fun a => Fin.ext (by match a with | ⟨0, _⟩ => rfl | ⟨1, _⟩ => rfl | ⟨2, _⟩ => rfl)
  have er : ∀ n : Fin 18, ridx_main_v112 (ix3 b k c) n = ix3 b n c := fun n =>
    funext fun a => Fin.ext (by match a with | ⟨0, _⟩ => rfl | ⟨1, _⟩ => rfl | ⟨2, _⟩ => rfl)
  simp only [el, er, ref_enc]
  rfl

/-- The cluster rows after the first map with bias, gain, shift and clip: stages %113 … %125. -/
theorem ref_urows (b : Fin 512) (k : Fin 3) (d : Fin 2048) :
    val_main_v125 (F := Ideal) x0 x1 x2 x3 x4 x5 x6 x7 x8 x9 x10 x11 x12 x13 (ix3 b k d)
      = urows x0 x1 x2 x3 x4 x5 x6 x7 x8 x9 x10 x11 x12 x13 b k d := by
  rw [val_main_v125_apply, val_main_call6_v0_apply, val_main_call6_cst_apply, val_main_v124_apply, val_main_v123_apply,
    val_main_v122_apply, val_main_v121_apply, val_main_v120_apply, val_main_v119_apply, val_main_v118_apply,
    val_main_v117_apply, val_main_cst_20_apply, val_main_v116_apply, val_main_v115_apply, val_main_v114_apply,
    val_main_v113_apply]
  have e1 : ∀ c : Fin 2048, lidx_main_v113 (ix3 b k d) c = ix3 b k c := fun c =>
    funext fun a => Fin.ext (by match a with | ⟨0, _⟩ => rfl | ⟨1, _⟩ => rfl | ⟨2, _⟩ => rfl)
  have e2 : ∀ c : Fin 2048, ridx_main_v113 (ix3 b k d) c = ix2 d c := fun c =>
    funext fun a => Fin.ext (by match a with | ⟨0, _⟩ => rfl | ⟨1, _⟩ => rfl)
  have e3 : idx_main_v114 (idx_main_v115 (ix3 b k d)) = ix1 d :=
    funext fun a => Fin.ext (by match a with | ⟨0, _⟩ => rfl)
  have e4 : idx_main_v119 (idx_main_v120 (ix3 b k d)) = ix1 d :=
    funext fun a => Fin.ext (by match a with | ⟨0, _⟩ => rfl)
  have e5 : idx_main_v122 (idx_main_v123 (ix3 b k d)) = ix1 d :=
    funext fun a => Fin.ext (by match a with | ⟨0, _⟩ => rfl)
  simp only [e1, e2, e3, e4, e5, ref_clus, Ideal.addf_def, Ideal.mulf_def, Ideal.maximumf_def, Ideal.ofBits_def]
  rfl

/-- Back to the 18 rows, the decoding times the cluster rows: stage %126. -/
theorem ref_spread (b : Fin 512) (n : Fin 18) (c : Fin 2048) :
    val_main_v126 (F := Ideal) x0 x1 x2 x3 x4 x5 x6 x7 x8 x9 x10 x11 x12 x13 (ix3 b n c)
      = spread (dec (zsum x0 x1 x2 x3 x4 x5 x6 x7 x8 x9 b)) (urows x0 x1 x2 x3 x4 x5 x6 x7 x8 x9 x10 x11 x12 x13 b) n c := by
  rw [val_main_v126_apply]
  have el : ∀ k : Fin 3, lidx_main_v126 (ix3 b n c) k = ix3 b n k := fun k =>
    funext fun a => Fin.ext (by match a with | ⟨0, _⟩ => rfl | ⟨1, _⟩ => rfl | ⟨2, _⟩ => rfl)
  have er : ∀ k : Fin 3, ridx_main_v126 (ix3 b n c) k = ix3 b k c := fun k =>
    funext fun a => Fin.ext (by match a with | ⟨0, _⟩ => rfl | ⟨1, _⟩ => rfl | ⟨2, _⟩ => rfl)
  simp only [el, er, ref_dec, ref_urows]
  rfl

/-- The aggregated features: stages %99 … %140. -/
theorem ref_y : val_main_v140 (F := Ideal) x0 x1 x2 x3 x4 x5 x6 x7 x8 x9 x10 x11 x12 x13 x14 x15 x16 x17
    = Gy (B := 512) x0 x1 (mat x2) (vec x3) (mat x4) (vec x5) (vec x6) (vec x7) (mat x8) (vec x9)
        (mat x10) (vec x11) (vec x12) (vec x13) (mat x14) (vec x15) (vec x16) (vec x17) := by
  funext y
  obtain ⟨b, n, d, rfl⟩ : ∃ (b : Fin 512) (n : Fin 18) (d : Fin 2048), y = ix3 b n d := ⟨y 0, y 1, y 2, eq_ix3 y⟩
  rw [val_main_v140_apply, val_main_v139_apply, val_main_call7_v0_apply, val_main_call7_cst_apply, val_main_v138_apply,
    val_main_v137_apply, val_main_v136_apply, val_main_v135_apply, val_main_v134_apply, val_main_v133_apply,
    val_main_v132_apply, val_main_v131_apply, val_main_cst_21_apply, val_main_v130_apply, val_main_v129_apply,
    val_main_v128_apply, val_main_v127_apply]
  have e1 : ∀ c : Fin 2048, lidx_main_v127 (ix3 b n d) c = ix3 b n c := fun c =>
    funext fun a => Fin.ext (by match a with | ⟨0, _⟩ => rfl | ⟨1, _⟩ => rfl | ⟨2, _⟩ => rfl)
  have e2 : ∀ c : Fin 2048, ridx_main_v127 (ix3 b n d) c = ix2 d c := fun c =>
    funext fun a => Fin.ext (by match a with | ⟨0, _⟩ => rfl | ⟨1, _⟩ => rfl)
  have e3 : idx_main_v128 (idx_main_v129 (ix3 b n d)) = ix1 d :=
    funext fun a => Fin.ext (by match a with | ⟨0, _⟩ => rfl)
  have e4 : idx_main_v133 (idx_main_v134 (ix3 b n d)) = ix1 d :=
    funext fun a => Fin.ext (by match a with | ⟨0, _⟩ => rfl)
  have e5 : idx_main_v136 (idx_main_v137 (ix3 b n d)) = ix1 d :=
    funext fun a => Fin.ext (by match a with | ⟨0, _⟩ => rfl)
  simp only [e1, e2, e3, e4, e5, ref_spread, Ideal.addf_def, Ideal.mulf_def, Ideal.maximumf_def, Ideal.ofBits_def]
  rfl

end Third

end Cert.Bridge.Ref

end
-- ==== Proof.Dist.lean ====
/-
  The spatial-centre distance affinity, index by index.

  Each of the 18 parts of a batch carries a box (y, x, height, width) in the four columns of its coordinate row.
  The centre of a box along an image axis is its corner coordinate plus the floor of half its extent. For a pair of
  parts (i, j) of one batch, r is the squared Euclidean distance of the two centres (the square of the x difference
  first, then the square of the y difference), and the affinity is 1 - 2 * sqrt r, with the square root guarded so
  that it is only taken where r > 0 (and is 0 elsewhere).

  The float words are kept as words: 0x3F800000 is 1, 0x40000000 is 2, 0x3F000000 is one half, 0x00000000 is 0.

  The functions are stated for any number `B` of batches, so that the same function reads a block of 8 batches and
  the whole array of 512: the affinity of a pair of parts only looks at the coordinate rows of its own batch.
-/
import Idealize.ShloMosaic.PureOps.Ideal
import Idealize.ShloMosaic.PureOps.Ideal.Laws
import Idealize.ShloMosaic.Lib.ValueIdx

noncomputable section

namespace Cert.Bridge.Dist

open Idealize.ShloMosaic Idealize.ShloMosaic.ValueIdx

/-- The centre of part `n` of batch `b` along one image axis: the corner coordinate (column `c`) plus the floor of
    half the extent (column `e`), the half taken as a product with the word of one half. -/
def centre {B : Nat} (x : (⟨3, ![B, 18, 4]⟩ : Shape).Idx → EReal) (c e : Fin 4) (b : Fin B) (n : Fin 18) : EReal :=
  x (ix3 b n c) + Ideal.liftRound Int.floor (x (ix3 b n e) * Ideal.ofBits .f32 0x3F000000#32)

/-- The squared distance of the centres of parts `i` and `j` of batch `b`: the x difference (columns 1 and 3)
    squared plus the y difference (columns 0 and 2) squared, each difference taken as part `j` minus part `i`. -/
def sqDist {B : Nat} (x : (⟨3, ![B, 18, 4]⟩ : Shape).Idx → EReal) (b : Fin B) (i j : Fin 18) : EReal :=
  (centre x 1 3 b j - centre x 1 3 b i) * (centre x 1 3 b j - centre x 1 3 b i)
    + (centre x 0 2 b j - centre x 0 2 b i) * (centre x 0 2 b j - centre x 0 2 b i)

/-- The affinity of parts `i` and `j` of batch `b`: one minus twice the guarded square root of their squared
    distance. -/
def affinity {B : Nat} (x : (⟨3, ![B, 18, 4]⟩ : Shape).Idx → EReal) (b : Fin B) (i j : Fin 18) : EReal :=
  Ideal.ofBits .f32 0x3F800000#32
    - Ideal.ofBits .f32 0x40000000#32
      * Scalar.select (Ideal.cmp .ogt (sqDist x b i j) (Ideal.ofBits .f32 0x00000000#32))
          (Ideal.sqrt (Scalar.select (Ideal.cmp .ogt (sqDist x b i j) (Ideal.ofBits .f32 0x00000000#32))
            (sqDist x b i j) (Ideal.ofBits .f32 0x3F800000#32)))
          (Ideal.ofBits .f32 0x00000000#32)

/-- The centre of a part only looks at that part's own coordinate row. -/
theorem centre_congr {B B' : Nat} (x : (⟨3, ![B, 18, 4]⟩ : Shape).Idx → EReal)
    (x' : (⟨3, ![B', 18, 4]⟩ : Shape).Idx → EReal) (b : Fin B) (b' : Fin B')
    (h : ∀ (n : Fin 18) (k : Fin 4), x (ix3 b n k) = x' (ix3 b' n k)) (c e : Fin 4) (n : Fin 18) :
    centre x c e b n = centre x' c e b' n := by
  unfold centre; rw [h n c, h n e]

/-- The affinity of a pair of parts only looks at the coordinate rows of its own batch: two coordinate arrays (of any
    two batch counts) that agree on batch `b` of the one and batch `b'` of the other give the same affinities there. -/
theorem affinity_congr {B B' : Nat} (x : (⟨3, ![B, 18, 4]⟩ : Shape).Idx → EReal)
    (x' : (⟨3, ![B', 18, 4]⟩ : Shape).Idx → EReal) (b : Fin B) (b' : Fin B') (i j i' j' : Fin 18)
    (hi : i = i') (hj : j = j') (h : ∀ (n : Fin 18) (k : Fin 4), x (ix3 b n k) = x' (ix3 b' n k)) :
    affinity x b i j = affinity x' b' i' j' := by
  subst hi hj
  have hs : sqDist x b i j = sqDist x' b' i j := by
    unfold sqDist
    rw [centre_congr x x' b b' h 1 3 j, centre_congr x x' b b' h 1 3 i,
      centre_congr x x' b b' h 0 2 j, centre_congr x x' b b' h 0 2 i]
  unfold affinity; rw [hs]

/-- THE SPECIFICATION: the whole [512, 18, 18] array of affinities as one function of the [512, 18, 4] coordinate
    array, index by index. -/
def G (x : (⟨3, ![512, 18, 4]⟩ : Shape).Idx → EReal) : (⟨3, ![512, 18, 18]⟩ : Shape).Idx → EReal :=
  fun y => affinity x (y 0) (y 1) (y 2)

/-- `G` at an index given by its coordinates. -/
theorem G_ix3 (x : (⟨3, ![512, 18, 4]⟩ : Shape).Idx → EReal) (b : Fin 512) (i j : Fin 18) :
    G x (ix3 b i j) = affinity x b i j := rfl

end Cert.Bridge.Dist

end
-- ==== Proof.DistCover.lean ====
/-
  Where the blocks of the affinity array sit. The kernel runs on 64 points; point t handles batches 8t .. 8t+7: it
  reads block (t, 0, 0) of the [512, 18, 4] coordinate array (blocks of [8, 18, 4]) and writes block (t, 0, 0) of the
  [512, 18, 18] affinity array (blocks of [8, 18, 18]). So an index (b, i, j) of the affinity array lies in the block
  of point b / 8, and every index is covered.
-/
import proofs.«131870_j89318139887950_2_alg».proof.Proof.Gen.KernelIdeal.Frame
import Idealize.ShloMosaic.Lib.Pipeline.Value

noncomputable section

namespace Cert.Bridge.Dist

open Cert.KernelIdeal Cert.KernelIdeal.Gen Idealize.ShloMosaic Idealize.ShloMosaic.TcCoe Idealize.SL.Sem
open Idealize.ShloMosaic.Pipeline (Dat)

/-- The zero offsets of a whole-block rectangle of rank 3, as the constant function. -/
theorem zero3 : (![0, 0, 0] : Fin 3 → Nat) = fun _ => 0 := funext fun a => by fin_cases a <;> rfl

/-- The index maps of the coordinate window and of the affinity window, decided over the grid: point `t` takes
    block (t, 0, 0) of each. -/
theorem index_facts : ∀ t : Fin cfg0.N,
    win0_1.index t (0 : Fin 3) = t.val ∧ win0_1.index t (1 : Fin 3) = 0 ∧ win0_1.index t (2 : Fin 3) = 0
    ∧ win0_22.index t (0 : Fin 3) = t.val ∧ win0_22.index t (1 : Fin 3) = 0 ∧ win0_22.index t (2 : Fin 3) = 0 :=
  (by decide +kernel : ∀ t : Fin grid0.N, _)

/-- An index of the affinity array is in point `t`'s block iff each coordinate is in the block's range on its axis. -/
theorem mem_block (t : Fin cfg0.N) (i : S512x18x18.Idx) :
    i ∈ ((cfg0.win 22).blk t).view.set ↔ ∀ a : Fin 3, win0_22.index t a * S8x18x18.size a ≤ (i a).val ∧ (i a).val < win0_22.index t a * S8x18x18.size a + S8x18x18.size a := by
  show i ∈ ((View.whole main_v3_4).slice (win0_22.rect t)).set ↔ _
  rw [View.set_slice_whole, Rect.mem_set_unit]
  exact Iff.rfl

/-- EVERY INDEX IS COVERED: (b, i, j) lies in the block of point b / 8, and every point writes its block back. -/
theorem covered (i : S512x18x18.Idx) :
    ∃ t : Fin cfg0.N, (cfg0.win 22).flush t = true ∧ i ∈ ((cfg0.win 22).blk t).view.set := by
  have hi0 : (i 0).val < 512 := (i 0).isLt
  have hi1 : (i 1).val < 18 := (i 1).isLt
  have hi2 : (i 2).val < 18 := (i 2).isLt
  obtain ⟨t, ht⟩ : ∃ t : Fin cfg0.N, t.val = (i 0).val / 8 :=
    ⟨⟨(i 0).val / 8, by show (i 0).val / 8 < 64; omega⟩, rfl⟩
  obtain ⟨-, -, -, e0, e1, e2⟩ := index_facts t
  refine ⟨t, flush0_22 t, ?_⟩
  rw [mem_block]
  intro a
  match a with
  | ⟨0, _⟩ => show win0_22.index t (0 : Fin 3) * 8 ≤ (i 0).val ∧ (i 0).val < win0_22.index t (0 : Fin 3) * 8 + 8; omega
  | ⟨1, _⟩ => show win0_22.index t (1 : Fin 3) * 18 ≤ (i 1).val ∧ (i 1).val < win0_22.index t (1 : Fin 3) * 18 + 18; omega
  | ⟨2, _⟩ => show win0_22.index t (2 : Fin 3) * 18 ≤ (i 2).val ∧ (i 2).val < win0_22.index t (2 : Fin 3) * 18 + 18; omega

end Cert.Bridge.Dist

end
-- ==== Proof.DistBlock.lean ====
/-
  What one grid point leaves in its [8, 18, 18] block of the affinity array: the affinities of the 8 batches of the
  point's [8, 18, 4] coordinate block. The body's layout operations (column slices, the two broadcasts along the part
  axes) are already read through, so the block is one index-by-index function of the coordinate block, each value
  read at (batch, part i or part j, column); spelling those read positions by their coordinates turns that function
  into `affinity` at 8 batches.
-/
import proofs.«131870_j89318139887950_2_alg».proof.Proof.ValueP
import proofs.«131870_j89318139887950_2_alg».proof.Proof.Dist
import proofs.«131870_j89318139887950_2_alg».proof.Proof.DistCover

noncomputable section

namespace Cert.Bridge.Dist

open Cert.KernelIdeal Cert.KernelIdeal.Gen Cert.KernelIdeal.ValueP Idealize.ShloMosaic Idealize.ShloMosaic.TcCoe
open Idealize.SL.Sem Idealize.ShloMosaic.ValueIdx

/-! ## Where the block function reads the coordinate block: (batch, part, column) -/

theorem rd_0 (b : Fin 8) (p q : Fin 18) : ix22_0 (ix3 b p q) = ix3 b q 1 :=
  funext fun a => by match a with | ⟨0, _⟩ => rfl | ⟨1, _⟩ => rfl | ⟨2, _⟩ => rfl
theorem rd_1 (b : Fin 8) (p q : Fin 18) : ix22_1 (ix3 b p q) = ix3 b q 3 :=
  funext fun a => by match a with | ⟨0, _⟩ => rfl | ⟨1, _⟩ => rfl | ⟨2, _⟩ => rfl
theorem rd_2 (b : Fin 8) (p q : Fin 18) : ix22_2 (ix3 b p q) = ix3 b p 1 :=
  funext fun a => by match a with | ⟨0, _⟩ => rfl | ⟨1, _⟩ => rfl | ⟨2, _⟩ => rfl
theorem rd_3 (b : Fin 8) (p q : Fin 18) : ix22_3 (ix3 b p q) = ix3 b p 3 :=
  funext fun a => by match a with | ⟨0, _⟩ => rfl | ⟨1, _⟩ => rfl | ⟨2, _⟩ => rfl
theorem rd_4 (b : Fin 8) (p q : Fin 18) : ix22_4 (ix3 b p q) = ix3 b q 1 :=
  funext fun a => by match a with | ⟨0, _⟩ => rfl | ⟨1, _⟩ => rfl | ⟨2, _⟩ => rfl
theorem rd_5 (b : Fin 8) (p q : Fin 18) : ix22_5 (ix3 b p q) = ix3 b q 3 :=
  funext fun a => by match a with | ⟨0, _⟩ => rfl | ⟨1, _⟩ => rfl | ⟨2, _⟩ => rfl
theorem rd_6 (b : Fin 8) (p q : Fin 18) : ix22_6 (ix3 b p q) = ix3 b p 1 :=
  funext fun a => by match a with | ⟨0, _⟩ => rfl | ⟨1, _⟩ => rfl | ⟨2, _⟩ => rfl
theorem rd_7 (b : Fin 8) (p q : Fin 18) : ix22_7 (ix3 b p q) = ix3 b p 3 :=
  funext fun a => by match a with | ⟨0, _⟩ => rfl | ⟨1, _⟩ => rfl | ⟨2, _⟩ => rfl
theorem rd_8 (b : Fin 8) (p q : Fin 18) : ix22_8 (ix3 b p q) = ix3 b q 0 :=
  funext fun a => by match a with | ⟨0, _⟩ => rfl | ⟨1, _⟩ => rfl | ⟨2, _⟩ => rfl
theorem rd_9 (b : Fin 8) (p q : Fin 18) : ix22_9 (ix3 b p q) = ix3 b q 2 :=
  funext fun a => by match a with | ⟨0, _⟩ => rfl | ⟨1, _⟩ => rfl | ⟨2, _⟩ => rfl
theorem rd_10 (b : Fin 8) (p q : Fin 18) : ix22_10 (ix3 b p q) = ix3 b p 0 :=
  funext fun a => by match a with | ⟨0, _⟩ => rfl | ⟨1, _⟩ => rfl | ⟨2, _⟩ => rfl
theorem rd_11 (b : Fin 8) (p q : Fin 18) : ix22_11 (ix3 b p q) = ix3 b p 2 :=
  funext fun a => by match a with | ⟨0, _⟩ => rfl | ⟨1, _⟩ => rfl | ⟨2, _⟩ => rfl
theorem rd_12 (b : Fin 8) (p q : Fin 18) : ix22_12 (ix3 b p q) = ix3 b q 0 :=
  funext fun a => by match a with | ⟨0, _⟩ => rfl | ⟨1, _⟩ => rfl | ⟨2, _⟩ => rfl
theorem rd_13 (b : Fin 8) (p q : Fin 18) : ix22_13 (ix3 b p q) = ix3 b q 2 :=
  funext fun a => by match a with | ⟨0, _⟩ => rfl | ⟨1, _⟩ => rfl | ⟨2, _⟩ => rfl
theorem rd_14 (b : Fin 8) (p q : Fin 18) : ix22_14 (ix3 b p q) = ix3 b p 0 :=
  funext fun a => by match a with | ⟨0, _⟩ => rfl | ⟨1, _⟩ => rfl | ⟨2, _⟩ => rfl
theorem rd_15 (b : Fin 8) (p q : Fin 18) : ix22_15 (ix3 b p q) = ix3 b p 2 :=
  funext fun a => by match a with | ⟨0, _⟩ => rfl | ⟨1, _⟩ => rfl | ⟨2, _⟩ => rfl
theorem rd_16 (b : Fin 8) (p q : Fin 18) : ix22_16 (ix3 b p q) = ix3 b q 1 :=
  funext fun a => by match a with | ⟨0, _⟩ => rfl | ⟨1, _⟩ => rfl | ⟨2, _⟩ => rfl
theorem rd_17 (b : Fin 8) (p q : Fin 18) : ix22_17 (ix3 b p q) = ix3 b q 3 :=
  funext fun a => by match a with | ⟨0, _⟩ => rfl | ⟨1, _⟩ => rfl | ⟨2, _⟩ => rfl
theorem rd_18 (b : Fin 8) (p q : Fin 18) : ix22_18 (ix3 b p q) = ix3 b p 1 :=
  funext fun a => by match a with | ⟨0, _⟩ => rfl | ⟨1, _⟩ => rfl | ⟨2, _⟩ => rfl
theorem rd_19 (b : Fin 8) (p q : Fin 18) : ix22_19 (ix3 b p q) = ix3 b p 3 :=
  funext fun a => by match a with | ⟨0, _⟩ => rfl | ⟨1, _⟩ => rfl | ⟨2, _⟩ => rfl
theorem rd_20 (b : Fin 8) (p q : Fin 18) : ix22_20 (ix3 b p q) = ix3 b q 1 :=
  funext fun a => by match a with | ⟨0, _⟩ => rfl | ⟨1, _⟩ => rfl | ⟨2, _⟩ => rfl
theorem rd_21 (b : Fin 8) (p q : Fin 18) : ix22_21 (ix3 b p q) = ix3 b q 3 :=
  funext fun a => by match a with | ⟨0, _⟩ => rfl | ⟨1, _⟩ => rfl | ⟨2, _⟩ => rfl
theorem rd_22 (b : Fin 8) (p q : Fin 18) : ix22_22 (ix3 b p q) = ix3 b p 1 :=
  funext fun a => by match a with | ⟨0, _⟩ => rfl | ⟨1, _⟩ => rfl | ⟨2, _⟩ => rfl
theorem rd_23 (b : Fin 8) (p q : Fin 18) : ix22_23 (ix3 b p q) = ix3 b p 3 :=
  funext fun a => by match a with | ⟨0, _⟩ => rfl | ⟨1, _⟩ => rfl | ⟨2, _⟩ => rfl
theorem rd_24 (b : Fin 8) (p q : Fin 18) : ix22_24 (ix3 b p q) = ix3 b q 0 :=
  funext fun a => by match a with | ⟨0, _⟩ => rfl | ⟨1, _⟩ => rfl | ⟨2, _⟩ => rfl
theorem rd_25 (b : Fin 8) (p q : Fin 18) : ix22_25 (ix3 b p q) = ix3 b q 2 :=
  funext fun a => by match a with | ⟨0, _⟩ => rfl | ⟨1, _⟩ => rfl | ⟨2, _⟩ => rfl
theorem rd_26 (b : Fin 8) (p q : Fin 18) : ix22_26 (ix3 b p q) = ix3 b p 0 :=
  funext fun a => by match a with | ⟨0, _⟩ => rfl | ⟨1, _⟩ => rfl | ⟨2, _⟩ => rfl
theorem rd_27 (b : Fin 8) (p q : Fin 18) : ix22_27 (ix3 b p q) = ix3 b p 2 :=
  funext fun a => by match a with | ⟨0, _⟩ => rfl | ⟨1, _⟩ => rfl | ⟨2, _⟩ => rfl
theorem rd_28 (b : Fin 8) (p q : Fin 18) : ix22_28 (ix3 b p q) = ix3 b q 0 :=
  funext fun a => by match a with | ⟨0, _⟩ => rfl | ⟨1, _⟩ => rfl | ⟨2, _⟩ => rfl
theorem rd_29 (b : Fin 8) (p q : Fin 18) : ix22_29 (ix3 b p q) = ix3 b q 2 :=
  funext fun a => by match a with | ⟨0, _⟩ => rfl | ⟨1, _⟩ => rfl | ⟨2, _⟩ => rfl
theorem rd_30 (b : Fin 8) (p q : Fin 18) : ix22_30 (ix3 b p q) = ix3 b p 0 :=
  funext fun a => by match a with | ⟨0, _⟩ => rfl | ⟨1, _⟩ => rfl | ⟨2, _⟩ => rfl
theorem rd_31 (b : Fin 8) (p q : Fin 18) : ix22_31 (ix3 b p q) = ix3 b p 2 :=
  funext fun a => by match a with | ⟨0, _⟩ => rfl | ⟨1, _⟩ => rfl | ⟨2, _⟩ => rfl
theorem rd_32 (b : Fin 8) (p q : Fin 18) : ix22_32 (ix3 b p q) = ix3 b q 1 :=
  funext fun a => by match a with | ⟨0, _⟩ => rfl | ⟨1, _⟩ => rfl | ⟨2, _⟩ => rfl
theorem rd_33 (b : Fin 8) (p q : Fin 18) : ix22_33 (ix3 b p q) = ix3 b q 3 :=
  funext fun a => by match a with | ⟨0, _⟩ => rfl | ⟨1, _⟩ => rfl | ⟨2, _⟩ => rfl
theorem rd_34 (b : Fin 8) (p q : Fin 18) : ix22_34 (ix3 b p q) = ix3 b p 1 :=
  funext fun a => by match a with | ⟨0, _⟩ => rfl | ⟨1, _⟩ => rfl | ⟨2, _⟩ => rfl
theorem rd_35 (b : Fin 8) (p q : Fin 18) : ix22_35 (ix3 b p q) = ix3 b p 3 :=
  funext fun a => by match a with | ⟨0, _⟩ => rfl | ⟨1, _⟩ => rfl | ⟨2, _⟩ => rfl
theorem rd_36 (b : Fin 8) (p q : Fin 18) : ix22_36 (ix3 b p q) = ix3 b q 1 :=
  funext fun a => by match a with | ⟨0, _⟩ => rfl | ⟨1, _⟩ => rfl | ⟨2, _⟩ => rfl
theorem rd_37 (b : Fin 8) (p q : Fin 18) : ix22_37 (ix3 b p q) = ix3 b q 3 :=
  funext fun a => by match a with | ⟨0, _⟩ => rfl | ⟨1, _⟩ => rfl | ⟨2, _⟩ => rfl
theorem rd_38 (b : Fin 8) (p q : Fin 18) : ix22_38 (ix3 b p q) = ix3 b p 1 :=
  funext fun a => by match a with | ⟨0, _⟩ => rfl | ⟨1, _⟩ => rfl | ⟨2, _⟩ => rfl
theorem rd_39 (b : Fin 8) (p q : Fin 18) : ix22_39 (ix3 b p q) = ix3 b p 3 :=
  funext fun a => by match a with | ⟨0, _⟩ => rfl | ⟨1, _⟩ => rfl | ⟨2, _⟩ => rfl
theorem rd_40 (b : Fin 8) (p q : Fin 18) : ix22_40 (ix3 b p q) = ix3 b q 0 :=
  funext fun a => by match a with | ⟨0, _⟩ => rfl | ⟨1, _⟩ => rfl | ⟨2, _⟩ => rfl
theorem rd_41 (b : Fin 8) (p q : Fin 18) : ix22_41 (ix3 b p q) = ix3 b q 2 :=
  funext fun a => by match a with | ⟨0, _⟩ => rfl | ⟨1, _⟩ => rfl | ⟨2, _⟩ => rfl
theorem rd_42 (b : Fin 8) (p q : Fin 18) : ix22_42 (ix3 b p q) = ix3 b p 0 :=
  funext fun a => by match a with | ⟨0, _⟩ => rfl | ⟨1, _⟩ => rfl | ⟨2, _⟩ => rfl
theorem rd_43 (b : Fin 8) (p q : Fin 18) : ix22_43 (ix3 b p q) = ix3 b p 2 :=
  funext fun a => by match a with | ⟨0, _⟩ => rfl | ⟨1, _⟩ => rfl | ⟨2, _⟩ => rfl
theorem rd_44 (b : Fin 8) (p q : Fin 18) : ix22_44 (ix3 b p q) = ix3 b q 0 :=
  funext fun a => by match a with | ⟨0, _⟩ => rfl | ⟨1, _⟩ => rfl | ⟨2, _⟩ => rfl
theorem rd_45 (b : Fin 8) (p q : Fin 18) : ix22_45 (ix3 b p q) = ix3 b q 2 :=
  funext fun a => by match a with | ⟨0, _⟩ => rfl | ⟨1, _⟩ => rfl | ⟨2, _⟩ => rfl
theorem rd_46 (b : Fin 8) (p q : Fin 18) : ix22_46 (ix3 b p q) = ix3 b p 0 :=
  funext fun a => by match a with | ⟨0, _⟩ => rfl | ⟨1, _⟩ => rfl | ⟨2, _⟩ => rfl
theorem rd_47 (b : Fin 8) (p q : Fin 18) : ix22_47 (ix3 b p q) = ix3 b p 2 :=
  funext fun a => by match a with | ⟨0, _⟩ => rfl | ⟨1, _⟩ => rfl | ⟨2, _⟩ => rfl

/-! ## The block -/

/-- THE BLOCK at (b, p, q) is the affinity of parts p and q of batch b of the coordinate block. -/
theorem block_eq (x0 : Vec Ideal S8x18x2048 .f32) (x1 : Vec Ideal S8x18x4 .f32) (x2 : Vec Ideal S3x2048 .f32) (x3 : Vec Ideal S3 .f32) (x4 : Vec Ideal S4x2048 .f32) (x5 : Vec Ideal S2048 .f32) (x6 : Vec Ideal S2048 .f32) (x7 : Vec Ideal S2048 .f32) (x8 : Vec Ideal S3x2048 .f32) (x9 : Vec Ideal S3 .f32) (x10 : Vec Ideal S2048x2048 .bf16) (x11 : Vec Ideal S2048 .f32) (x12 : Vec Ideal S2048 .f32) (x13 : Vec Ideal S2048 .f32) (x14 : Vec Ideal S2048x2048 .bf16) (x15 : Vec Ideal S2048 .f32) (x16 : Vec Ideal S2048 .f32) (x17 : Vec Ideal S2048 .f32)
    (b : Fin 8) (p q : Fin 18) :
    out0_22 (F := Ideal) x0 x1 x2 x3 x4 x5 x6 x7 x8 x9 x10 x11 x12 x13 x14 x15 x16 x17 (ix3 b p q) = affinity x1 b p q := by
  unfold Gen.out0_22
  simp only [View.ld_unit_zero (S := S8x18x4) zero3]
  rw [ValueP.canon22_eq]
  unfold ValueP.E22
  rw [rd_0 b p q, rd_1 b p q, rd_2 b p q, rd_3 b p q, rd_4 b p q, rd_5 b p q, rd_6 b p q, rd_7 b p q, rd_8 b p q,
    rd_9 b p q, rd_10 b p q, rd_11 b p q, rd_12 b p q, rd_13 b p q, rd_14 b p q, rd_15 b p q, rd_16 b p q,
    rd_17 b p q, rd_18 b p q, rd_19 b p q, rd_20 b p q, rd_21 b p q, rd_22 b p q, rd_23 b p q, rd_24 b p q,
    rd_25 b p q, rd_26 b p q, rd_27 b p q, rd_28 b p q, rd_29 b p q, rd_30 b p q, rd_31 b p q, rd_32 b p q,
    rd_33 b p q, rd_34 b p q, rd_35 b p q, rd_36 b p q, rd_37 b p q, rd_38 b p q, rd_39 b p q, rd_40 b p q,
    rd_41 b p q, rd_42 b p q, rd_43 b p q, rd_44 b p q, rd_45 b p q, rd_46 b p q, rd_47 b p q]
  simp only [Ideal.ofBits_def, Ideal.addf_def, Ideal.subf_def, Ideal.mulf_def, Ideal.floor_def, Ideal.sqrt_def,
    Ideal.cmpf_def]
  rfl

/-- ONE POINT, over variables: a block index y = (b, p, q) and an array index i = (b', p, q), and a coordinate
    array X whose batch b' is batch b of the coordinate block: the block at y is `G X` at i. -/
theorem point_eq (X : S512x18x4.Idx → EReal) (x0 : Vec Ideal S8x18x2048 .f32) (x1 : Vec Ideal S8x18x4 .f32) (x2 : Vec Ideal S3x2048 .f32) (x3 : Vec Ideal S3 .f32) (x4 : Vec Ideal S4x2048 .f32) (x5 : Vec Ideal S2048 .f32) (x6 : Vec Ideal S2048 .f32) (x7 : Vec Ideal S2048 .f32) (x8 : Vec Ideal S3x2048 .f32) (x9 : Vec Ideal S3 .f32) (x10 : Vec Ideal S2048x2048 .bf16) (x11 : Vec Ideal S2048 .f32) (x12 : Vec Ideal S2048 .f32) (x13 : Vec Ideal S2048 .f32) (x14 : Vec Ideal S2048x2048 .bf16) (x15 : Vec Ideal S2048 .f32) (x16 : Vec Ideal S2048 .f32) (x17 : Vec Ideal S2048 .f32)
    (y : S8x18x18.Idx) (i : S512x18x18.Idx) (b : Fin 8) (p q : Fin 18) (b' : Fin 512)
    (hy0 : (y 0).val = b.val) (hy1 : (y 1).val = p.val) (hy2 : (y 2).val = q.val)
    (hi0 : (i 0).val = b'.val) (hi1 : (i 1).val = p.val) (hi2 : (i 2).val = q.val)
    (hx : ∀ (n : Fin 18) (k : Fin 4), x1 (ix3 b n k) = X (ix3 b' n k)) :
    out0_22 (F := Ideal) x0 x1 x2 x3 x4 x5 x6 x7 x8 x9 x10 x11 x12 x13 x14 x15 x16 x17 y = G X i := by
  have ey : y = ix3 b p q := funext fun a => Fin.ext (by
    match a with | ⟨0, _⟩ => exact hy0 | ⟨1, _⟩ => exact hy1 | ⟨2, _⟩ => exact hy2)
  have ei : i = ix3 b' p q := funext fun a => Fin.ext (by
    match a with | ⟨0, _⟩ => exact hi0 | ⟨1, _⟩ => exact hi1 | ⟨2, _⟩ => exact hi2)
  rw [ey, ei, block_eq, G_ix3]
  exact affinity_congr x1 X b b' p q p q rfl rfl hx

end Cert.Bridge.Dist

end
-- ==== Proof.DistKernel.lean ====
/-
  From the blocks to the whole affinity array. Point t writes back block (t, 0, 0) of the [512, 18, 18] array; what
  it writes is the affinities of the 8 batches of block (t, 0, 0) of the [512, 18, 4] coordinate array, that is,
  of batches 8t .. 8t+7 of the coordinate array as the kernel finds it. So what point t writes back is block t of
  ONE whole-array function, `G` of the coordinate array; the blocks cover every index; hence the array ends holding
  `G` of the coordinate argument.
-/
import proofs.«131870_j89318139887950_2_alg».proof.Proof.DistBlock

noncomputable section

namespace Cert.Bridge.Dist

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- WHAT POINT `t` WRITES BACK is block `t` of `G` of the coordinate array as the kernel finds it. -/
theorem flushed_eq (c : Dev nD) (t : Fin cfg0.N) :
    (dats m 0 c).flushed 22 t = ((cfg0.win 22).blk t).view.read (Elt Ideal) (G (V m c main_arg1)) := by
  rw [ValueP.flushed22]
  obtain ⟨f0, f1, f2, e0, e1, e2⟩ := index_facts t
  have ht : t.val < 64 := t.isLt
  funext y
  have hy0 : (y 0).val < 8 := (y 0).isLt
  have hy1 : (y 1).val < 18 := (y 1).isLt
  have hy2 : (y 2).val < 18 := (y 2).isLt
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
    = G (V m c main_arg1) (((cfg0.win 22).blk t).view.emb y)
  refine point_eq (V m c main_arg1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    y (((cfg0.win 22).blk t).view.emb y) ⟨(y 0).val, hy0⟩ ⟨(y 1).val, hy1⟩ ⟨(y 2).val, hy2⟩
    ⟨t.val * 8 + (y 0).val, by omega⟩ rfl rfl rfl ?_ ?_ ?_ ?_
  · show win0_22.index t (0 : Fin 3) * 8 + 1 * (y 0).val = t.val * 8 + (y 0).val; omega
  · show win0_22.index t (1 : Fin 3) * 18 + 1 * (y 1).val = (y 1).val; omega
  · show win0_22.index t (2 : Fin 3) * 18 + 1 * (y 2).val = (y 2).val; omega
  · intro n k
    have hn : n.val < 18 := n.isLt
    have hk : k.val < 4 := k.isLt
    show V m c main_arg1 (((cfg0.win 1).blk t).view.emb (ix3 (⟨(y 0).val, hy0⟩ : Fin 8) n k))
      = V m c main_arg1 (ix3 (⟨t.val * 8 + (y 0).val, by omega⟩ : Fin 512) n k)
    refine congrArg (V m c main_arg1) ?_
    funext a; apply Fin.ext
    match a with
    | ⟨0, _⟩ => show win0_1.index t (0 : Fin 3) * 8 + 1 * (y 0).val = t.val * 8 + (y 0).val; omega
    | ⟨1, _⟩ => show win0_1.index t (1 : Fin 3) * 18 + 1 * n.val = n.val; omega
    | ⟨2, _⟩ => show win0_1.index t (2 : Fin 3) * 4 + 1 * k.val = k.val; omega

/-- THE AFFINITY ARRAY after the run is `G` of the coordinate argument. -/
theorem kernel_final (c : Dev nD) :
    (dats m 0 c).arrAt 22 cfg0.N = G (m ((c : Thread nD τ).loc main_arg1)) :=
  ((dats m 0 c).arrAt_eq_of_cover 22 (G (V m c main_arg1)) (fun t _ => flushed_eq m c t) covered).trans
    (congrArg G (V_main_arg1 m c))

end Cert.Bridge.Dist

end
-- ==== Proof.Scalars.lean ====
/-
  The float words the two programs spell differently, as the extended reals they denote, and the one scalar law
  the bridge needs: the kernel halves a coordinate by multiplying with the word of 0.5, the reference by dividing
  with the word of 2.0; on every extended real the two agree, because dividing by a nonzero real is multiplying by
  its reciprocal, infinities included.
-/
import Idealize.ShloMosaic.PureOps.Ideal
import Idealize.ShloMosaic.PureOps.Ideal.Laws

noncomputable section

namespace Cert.Bridge

open Idealize.ShloMosaic

/-- The word of `0.5` denotes the real one half. -/
theorem ofBits_half : Ideal.ofBits .f32 0x3F000000#32 = (((1 : ℝ) / 2 : ℝ) : EReal) := by
  simp [Ideal.ofBits, Ideal.ieee, -EReal.coe_mul]; norm_num

/-- The word of `2.0` denotes the real two. -/
theorem ofBits_two : Ideal.ofBits .f32 0x40000000#32 = ((2 : ℝ) : EReal) := by
  simp [Ideal.ofBits, Ideal.ieee, -EReal.coe_mul]; norm_num

/-- Halving by a product with one half is halving by a quotient by two, on every extended real. -/
theorem mul_half_eq_div_two (x : EReal) :
    x * Ideal.ofBits .f32 0x3F000000#32 = Ideal.div x (Ideal.ofBits .f32 0x40000000#32) := by
  rw [ofBits_half, ofBits_two, Ideal.div_coe (by norm_num : (2 : ℝ) ≠ 0)]

end Cert.Bridge

end
-- ==== Proof.DistRef.lean ====
/-
  The reference computes the affinity array in one pass over whole arrays: it slices the four coordinate columns,
  forms the two centre coordinates of every part (corner plus the floor of the extent divided by two), broadcasts
  them along the two part axes, takes the differences (part j minus part i), squares and adds them (x square first),
  guards the square root where the sum is positive, and returns one minus twice the root.

  Read index by index, that is the specification `G`. The one difference in spelling is the halving: the reference
  divides by the word of 2, the specification multiplies by the word of one half; on the extended reals the two
  agree (`Cert.Bridge.mul_half_eq_div_two`).
-/
import proofs.«131870_j89318139887950_2_alg».proof.Proof.Gen.ReferenceIdeal.Read
import proofs.«131870_j89318139887950_2_alg».proof.Proof.Dist
import proofs.«131870_j89318139887950_2_alg».proof.Proof.Scalars

noncomputable section

namespace Cert.Bridge.Dist

open Cert.ReferenceIdeal Cert.ReferenceIdeal.Read Idealize.ShloMosaic Idealize.ShloMosaic.ValueIdx

/-! ## Where each broadcast and each slice reads -/

/-- The y centres broadcast along the first part axis are read at (b, j). -/
theorem idx_y_j (b : Fin 512) (p q : Fin 18) : idx_main_v71 (idx_main_v73 (ix3 b p q)) = ix2 b q :=
  funext fun a => Fin.ext (by match a with | ⟨0, _⟩ => rfl | ⟨1, _⟩ => rfl)

/-- The y centres broadcast along the second part axis are read at (b, i). -/
theorem idx_y_i (b : Fin 512) (p q : Fin 18) : idx_main_v72 (idx_main_v74 (ix3 b p q)) = ix2 b p :=
  funext fun a => Fin.ext (by match a with | ⟨0, _⟩ => rfl | ⟨1, _⟩ => rfl)

/-- The x centres broadcast along the first part axis are read at (b, j). -/
theorem idx_x_j (b : Fin 512) (p q : Fin 18) : idx_main_v77 (idx_main_v79 (ix3 b p q)) = ix2 b q :=
  funext fun a => Fin.ext (by match a with | ⟨0, _⟩ => rfl | ⟨1, _⟩ => rfl)

/-- The x centres broadcast along the second part axis are read at (b, i). -/
theorem idx_x_i (b : Fin 512) (p q : Fin 18) : idx_main_v78 (idx_main_v80 (ix3 b p q)) = ix2 b p :=
  funext fun a => Fin.ext (by match a with | ⟨0, _⟩ => rfl | ⟨1, _⟩ => rfl)

/-- Column 0 (the y corner) of part n of batch b. -/
theorem idx_col0 (b : Fin 512) (n : Fin 18) : idx_main_v55 (idx_main_v56 (ix2 b n)) = ix3 b n 0 :=
  funext fun a => Fin.ext (by
    have hb : b.val < 512 := b.isLt
    have hn : n.val < 18 := n.isLt
    match a with
    | ⟨0, _⟩ => show (b.val * 18 + n.val) / 18 = b.val; omega
    | ⟨1, _⟩ => show (b.val * 18 + n.val) / 1 % 18 = n.val; omega
    | ⟨2, _⟩ => rfl)

/-- Column 2 (the height) of part n of batch b. -/
theorem idx_col2 (b : Fin 512) (n : Fin 18) : idx_main_v57 (idx_main_v58 (ix2 b n)) = ix3 b n 2 :=
  funext fun a => Fin.ext (by
    have hb : b.val < 512 := b.isLt
    have hn : n.val < 18 := n.isLt
    match a with
    | ⟨0, _⟩ => show (b.val * 18 + n.val) / 18 = b.val; omega
    | ⟨1, _⟩ => show (b.val * 18 + n.val) / 1 % 18 = n.val; omega
    | ⟨2, _⟩ => rfl)

/-- Column 1 (the x corner) of part n of batch b. -/
theorem idx_col1 (b : Fin 512) (n : Fin 18) : idx_main_v63 (idx_main_v64 (ix2 b n)) = ix3 b n 1 :=
  funext fun a => Fin.ext (by
    have hb : b.val < 512 := b.isLt
    have hn : n.val < 18 := n.isLt
    match a with
    | ⟨0, _⟩ => show (b.val * 18 + n.val) / 18 = b.val; omega
    | ⟨1, _⟩ => show (b.val * 18 + n.val) / 1 % 18 = n.val; omega
    | ⟨2, _⟩ => rfl)

/-- Column 3 (the width) of part n of batch b. -/
theorem idx_col3 (b : Fin 512) (n : Fin 18) : idx_main_v65 (idx_main_v66 (ix2 b n)) = ix3 b n 3 :=
  funext fun a => Fin.ext (by
    have hb : b.val < 512 := b.isLt
    have hn : n.val < 18 := n.isLt
    match a with
    | ⟨0, _⟩ => show (b.val * 18 + n.val) / 18 = b.val; omega
    | ⟨1, _⟩ => show (b.val * 18 + n.val) / 1 % 18 = n.val; omega
    | ⟨2, _⟩ => rfl)

/-! ## The reference is the specification -/

/-- THE REFERENCE'S AFFINITY ARRAY is `G` of the coordinate array. -/
theorem reference_eq (x1 : S512x18x4.Idx → EReal) : val_main_v92 (F := Ideal) x1 = G x1 := by
  funext i
  obtain ⟨b, p, q, rfl⟩ : ∃ (b : Fin 512) (p q : Fin 18), i = ix3 b p q := ⟨i 0, i 1, i 2, eq_ix3 i⟩
  simp only [
    val_main_v92_apply, val_main_v91_apply, val_main_cst_14_apply, val_main_v90_apply, val_main_v89_apply,
    val_main_cst_13_apply, val_main_v88_apply, val_main_call4_v1_apply, val_main_call4_v0_apply,
    val_main_cst_12_apply, val_main_v87_apply, val_main_v86_apply, val_main_call3_v1_apply,
    val_main_call3_v0_apply, val_main_cst_11_apply, val_main_v85_apply, val_main_v84_apply, val_main_cst_10_apply,
    val_main_v83_apply, val_main_v82_apply, val_main_v81_apply, val_main_v80_apply, val_main_v79_apply,
    val_main_v78_apply, val_main_v77_apply, val_main_v76_apply, val_main_v75_apply, val_main_v74_apply,
    val_main_v73_apply, val_main_v72_apply, val_main_v71_apply, val_main_v70_apply, val_main_v69_apply,
    val_main_v68_apply, val_main_v67_apply, val_main_cst_9_apply, val_main_v66_apply, val_main_v65_apply,
    val_main_v64_apply, val_main_v63_apply, val_main_v62_apply, val_main_v61_apply, val_main_v60_apply,
    val_main_v59_apply, val_main_cst_8_apply, val_main_v58_apply, val_main_v57_apply, val_main_v56_apply,
    val_main_v55_apply]
  simp only [idx_y_j, idx_y_i, idx_x_j, idx_x_i, idx_col0, idx_col1, idx_col2, idx_col3]
  simp only [Ideal.ofBits_def, Ideal.addf_def, Ideal.subf_def, Ideal.mulf_def, Ideal.hostDivf_def,
    Ideal.hostUnary_floor_def, Ideal.hostUnary_sqrt_def, Ideal.cmpf_def]
  simp only [← Cert.Bridge.mul_half_eq_div_two]
  rfl

end Cert.Bridge.Dist

end
-- ==== Proof.GramSpec.lean ====
/-
  The cosine affinity of the rows of `x`, index by index.

  For a batch `b` and a row `n` the row's Euclidean norm, floored at a small positive constant, is
  `nrm x b n = max (sqrt (∑ c, x[b,n,c] * x[b,n,c])) eps`; the normalized row is `xn x b n c = x[b,n,c] / nrm x b n`;
  and the affinity of rows `i` and `j` of batch `b` is the inner product `∑ c, xn x b i c * xn x b j c`.
  The number of batches `B` is a parameter: the whole array has 512 of them, one block of it has 8.
-/
import Idealize.ShloMosaic.Lib.ValueIdx
import Idealize.ShloMosaic.PureOps.Ideal.Laws

noncomputable section

open scoped BigOperators

namespace Cert.Bridge.Gram

open Idealize.ShloMosaic Idealize.ShloMosaic.ValueIdx

/-- The floored Euclidean norm of row `n` of batch `b`. The floor is kept as its word: it is the same word wherever it
    is met and is never evaluated. -/
def nrm {B : Nat} (x : (⟨3, ![B, 18, 2048]⟩ : Shape).Idx → EReal) (b : Fin B) (n : Fin 18) : EReal :=
  max (Ideal.sqrt (∑ c : Fin 2048, x (ix3 b n c) * x (ix3 b n c))) (Ideal.ofBits .f32 0x2B8CBCCC#32)

/-- Entry `c` of the normalized row `n` of batch `b`. -/
def xn {B : Nat} (x : (⟨3, ![B, 18, 2048]⟩ : Shape).Idx → EReal) (b : Fin B) (n : Fin 18) (c : Fin 2048) : EReal :=
  Ideal.div (x (ix3 b n c)) (nrm x b n)

/-- The affinity of rows `i` and `j` of batch `b`: the inner product of the two normalized rows. -/
def aff {B : Nat} (x : (⟨3, ![B, 18, 2048]⟩ : Shape).Idx → EReal) (b : Fin B) (i j : Fin 18) : EReal :=
  ∑ c : Fin 2048, xn x b i c * xn x b j c

/-- The norm of a row depends on that row only: two arrays that agree on row `n` of batches `b` and `b'` have the same
    norm there. -/
theorem nrm_congr {B B' : Nat} (x : (⟨3, ![B, 18, 2048]⟩ : Shape).Idx → EReal) (x' : (⟨3, ![B', 18, 2048]⟩ : Shape).Idx → EReal)
    (b : Fin B) (b' : Fin B') (n : Fin 18) (h : ∀ c : Fin 2048, x (ix3 b n c) = x' (ix3 b' n c)) :
    nrm x b n = nrm x' b' n := by
  unfold nrm
  rw [Finset.sum_congr rfl fun c _ => by rw [h c]]

/-- Likewise the normalized row. -/
theorem xn_congr {B B' : Nat} (x : (⟨3, ![B, 18, 2048]⟩ : Shape).Idx → EReal) (x' : (⟨3, ![B', 18, 2048]⟩ : Shape).Idx → EReal)
    (b : Fin B) (b' : Fin B') (n : Fin 18) (h : ∀ c : Fin 2048, x (ix3 b n c) = x' (ix3 b' n c)) (c : Fin 2048) :
    xn x b n c = xn x' b' n c := by
  unfold xn
  rw [h c, nrm_congr x x' b b' n h]

/-- And the affinity: it depends on the batch's rows only. -/
theorem aff_congr {B B' : Nat} (x : (⟨3, ![B, 18, 2048]⟩ : Shape).Idx → EReal) (x' : (⟨3, ![B', 18, 2048]⟩ : Shape).Idx → EReal)
    (b : Fin B) (b' : Fin B') (h : ∀ (n : Fin 18) (c : Fin 2048), x (ix3 b n c) = x' (ix3 b' n c)) (i j : Fin 18) :
    aff x b i j = aff x' b' i j := by
  unfold aff
  exact Finset.sum_congr rfl fun c _ => by rw [xn_congr x x' b b' i (h i) c, xn_congr x x' b b' j (h j) c]

/-- THE RESULT: at index `(b, i, j)` the affinity of rows `i` and `j` of batch `b` of `x`. -/
def G (x : (⟨3, ![512, 18, 2048]⟩ : Shape).Idx → EReal) : (⟨3, ![512, 18, 18]⟩ : Shape).Idx → EReal :=
  fun y => aff x ⟨(y 0).val, (y 0).isLt⟩ ⟨(y 1).val, (y 1).isLt⟩ ⟨(y 2).val, (y 2).isLt⟩

/-- At an index given by its coordinates. -/
theorem G_ix3 (x : (⟨3, ![512, 18, 2048]⟩ : Shape).Idx → EReal) (b : Fin 512) (i j : Fin 18) :
    G x (ix3 b i j) = aff x b i j := rfl

end Cert.Bridge.Gram

end
-- ==== Proof.GramPay.lean ====
/-
  The Gram matrix the body forms for one block of 8 batches, read at an index.

  The body normalizes the block's 8 × 18 rows (each divided by its floored Euclidean norm), lays the block out as
  144 rows of 2048 entries (row `18 p + n` is row `n` of batch `p`), and multiplies that matrix by its own transpose.
  Entry `(r, s)` of the product is the inner product of normalized rows `r` and `s`; on the diagonal 18 × 18 blocks,
  `r = 18 p + i` and `s = 18 p + j`, it is the affinity of rows `i` and `j` of batch `p`.
-/
import proofs.«131870_j89318139887950_2_alg».proof.Proof.Gen.KernelIdeal.Skeleton
import proofs.«131870_j89318139887950_2_alg».proof.Proof.GramSpec
import Idealize.ShloMosaic.Lib.Pipeline.Value
import Idealize.ShloMosaic.Lib.ValueIdx
import Idealize.ShloMosaic.PureOps.Ideal.Laws

noncomputable section

open scoped BigOperators

namespace Cert.Bridge.Gram

open Cert.KernelIdeal Cert.KernelIdeal.Gen Idealize.ShloMosaic Idealize.ShloMosaic.ValueIdx

/-- The sum of squares along a row: the lane reduction of the block's squares at `(p, n)`. -/
theorem sumsq_apply (x0 : Vec Ideal S8x18x2048 .f32) (hr : S8x18x2048.Reduces [2] S8x18) (hφ : FKind.Formats .f32)
    (hacc : (0x00000000#32 : BitVec 32) = FKind.add.neutral .f32 hφ) (p : Fin 8) (n : Fin 18) :
    multiReduction (F := Ideal) .add [2] S8x18 (mulf x0 x0) 0x00000000#32 hr hφ hacc (ix2 p n)
      = ∑ c : Fin 2048, x0 (ix3 p n c) * x0 (ix3 p n c) := by
  refine (Ideal.multiReduction_add_single (mulf x0 x0) 0x00000000#32 hr hφ hacc (ix2 p n)).trans ?_
  refine Finset.sum_congr rfl fun c _ => ?_
  have e : hr.lift (ix2 p n) c = ix3 p n c := funext fun a => Fin.ext (by
    match a with
    | ⟨0, _⟩ => rfl
    | ⟨1, _⟩ => rfl
    | ⟨2, _⟩ => rfl)
  rw [e]
  rfl

/-- The body's normalized block at `(p, n, c)` is the normalized row's entry: the norm is computed per row, kept with
    a trailing unit axis, floored, and broadcast back along the row. -/
theorem normalized_apply (x0 : Vec Ideal S8x18x2048 .f32) (hr : S8x18x2048.Reduces [2] S8x18) (hφ : FKind.Formats .f32)
    (hacc : (0x00000000#32 : BitVec 32) = FKind.add.neutral .f32 hφ) (hc : S8x18.ShapeCasts S8x18x1)
    (hb : S8x18x1.Broadcasts S8x18x2048) (p : Fin 8) (n : Fin 18) (c : Fin 2048) :
    divf x0 (broadcastTo S8x18x2048
        (maximumf (sqrt (shapeCast S8x18x1 (multiReduction (F := Ideal) .add [2] S8x18 (mulf x0 x0) 0x00000000#32 hr hφ hacc) hc))
          (broadcast S8x18x1 (Scalar.ofBits (F := Ideal) .f32 0x2B8CBCCC#32))) hb) (ix3 p n c)
      = xn x0 p n c := by
  show Ideal.div (x0 (ix3 p n c)) _ = Ideal.div (x0 (ix3 p n c)) (nrm x0 p n)
  refine congrArg (Ideal.div (x0 (ix3 p n c))) ?_
  refine (broadcastTo_apply _ hb (ix3 p n c) (ix3 p n (0 : Fin 1)) (fun a => by
    match a with
    | ⟨0, _⟩ => show p.val = if (8 : Nat) = 1 then 0 else p.val; rw [if_neg (by decide)]
    | ⟨1, _⟩ => show n.val = if (18 : Nat) = 1 then 0 else n.val; rw [if_neg (by decide)]
    | ⟨2, _⟩ => show (0 : Nat) = if (1 : Nat) = 1 then 0 else c.val; rw [if_pos rfl])).trans ?_
  show max (Ideal.sqrt (shapeCast S8x18x1 (multiReduction (F := Ideal) .add [2] S8x18 (mulf x0 x0) 0x00000000#32 hr hφ hacc) hc (ix3 p n (0 : Fin 1))))
      (Ideal.ofBits .f32 0x2B8CBCCC#32) = nrm x0 p n
  unfold nrm
  refine congrArg (fun z => max (Ideal.sqrt z) (Ideal.ofBits .f32 0x2B8CBCCC#32)) ?_
  refine (shapeCast_apply _ hc (ix3 p n (0 : Fin 1)) (ix2 p n) ?_).trans (sumsq_apply x0 hr hφ hacc p n)
  rw [Shape.rowMajor_val_two, Shape.rowMajor_val_three]
  show p.val * 18 + n.val = (p.val * 18 + n.val) * 1 + 0
  omega

/-- Row `r` of the 144-row layout is row `r % 18` of batch `r / 18`. -/
theorem rows_apply (v : Vec Ideal S8x18x2048 .f32) (h : S8x18x2048.ShapeCasts S144x2048) (r : Fin 144) (c : Fin 2048) :
    shapeCast S144x2048 v h (ix2 r c)
      = v (ix3 (⟨r.val / 18, by have := r.isLt; omega⟩ : Fin 8) (⟨r.val % 18, Nat.mod_lt _ (by decide)⟩ : Fin 18) c) := by
  refine shapeCast_apply v h (ix2 r c) _ ?_
  rw [Shape.rowMajor_val_two, Shape.rowMajor_val_three]
  show (r.val / 18 * 18 + r.val % 18) * 2048 + c.val = r.val * 2048 + c.val
  have := Nat.div_add_mod r.val 18
  omega

theorem lhs_row (j : S144x144.Idx) (q : dot_S144x2048_S144x2048_S144x144_1_1_0_0_n_n.contr.Idx) : (dot_S144x2048_S144x2048_S144x144_1_1_0_0_n_n.lhsIdx j q 0).val = (j 0).val := by
  unfold DotDims.lhsIdx
  rw [dif_neg (show ¬(0 : Fin S144x2048.rank) ∈ dot_S144x2048_S144x2048_S144x144_1_1_0_0_n_n.lhsBatch by decide),
    dif_pos (show (0 : Fin S144x2048.rank) ∈ dot_S144x2048_S144x2048_S144x144_1_1_0_0_n_n.lhsNonContracting by decide)]
  rfl

theorem rhs_row (j : S144x144.Idx) (q : dot_S144x2048_S144x2048_S144x144_1_1_0_0_n_n.contr.Idx) : (dot_S144x2048_S144x2048_S144x144_1_1_0_0_n_n.rhsIdx j q 0).val = (j 1).val := by
  unfold DotDims.rhsIdx
  rw [dif_neg (show ¬(0 : Fin S144x2048.rank) ∈ dot_S144x2048_S144x2048_S144x144_1_1_0_0_n_n.rhsBatch by decide),
    dif_pos (show (0 : Fin S144x2048.rank) ∈ dot_S144x2048_S144x2048_S144x144_1_1_0_0_n_n.rhsNonContracting by decide)]
  rfl

theorem lhs_col (j : S144x144.Idx) (q : dot_S144x2048_S144x2048_S144x144_1_1_0_0_n_n.contr.Idx) : (dot_S144x2048_S144x2048_S144x144_1_1_0_0_n_n.lhsIdx j q 1).val = (q ⟨0, by decide⟩).val :=
  dot_S144x2048_S144x2048_S144x144_1_1_0_0_n_n.lhsIdx_val_of_single rfl j q

theorem rhs_col (j : S144x144.Idx) (q : dot_S144x2048_S144x2048_S144x144_1_1_0_0_n_n.contr.Idx) : (dot_S144x2048_S144x2048_S144x144_1_1_0_0_n_n.rhsIdx j q 1).val = (q ⟨0, by decide⟩).val :=
  dot_S144x2048_S144x2048_S144x144_1_1_0_0_n_n.rhsIdx_val_of_single rfl j q

/-- THE GRAM MATRIX AT `(r, s)`: the inner product of the normalized rows `r` and `s` of the 144-row layout. -/
theorem gram_apply (x0 : Vec Ideal S8x18x2048 .f32) (r s : Fin 144) :
    k0_pay2 (F := Ideal) x0 (ix2 r s)
      = ∑ c : Fin 2048,
          xn x0 (⟨r.val / 18, by have := r.isLt; omega⟩ : Fin 8) (⟨r.val % 18, Nat.mod_lt _ (by decide)⟩ : Fin 18) c
            * xn x0 (⟨s.val / 18, by have := s.isLt; omega⟩ : Fin 8) (⟨s.val % 18, Nat.mod_lt _ (by decide)⟩ : Fin 18) c := by
  unfold k0_pay2
  dsimp only
  refine Eq.trans (Ideal.matmul_constant_zero_apply dot_S144x2048_S144x2048_S144x144_1_1_0_0_n_n none _ _ (ix2 r s)) ?_
  rw [← Equiv.sum_comp (contrEquiv1 dot_S144x2048_S144x2048_S144x144_1_1_0_0_n_n 2048 rfl rfl).symm]
  refine Finset.sum_congr rfl fun k _ => ?_
  have hk := contrEquiv1_symm_val dot_S144x2048_S144x2048_S144x144_1_1_0_0_n_n 2048 rfl rfl k
  have el : dot_S144x2048_S144x2048_S144x144_1_1_0_0_n_n.lhsIdx (ix2 r s)
      ((contrEquiv1 dot_S144x2048_S144x2048_S144x144_1_1_0_0_n_n 2048 rfl rfl).symm k) = ix2 r k :=
    funext fun a => Fin.ext (by
      match a with
      | ⟨0, _⟩ => exact lhs_row _ _
      | ⟨1, _⟩ => exact (lhs_col _ _).trans hk)
  have er : dot_S144x2048_S144x2048_S144x144_1_1_0_0_n_n.rhsIdx (ix2 r s)
      ((contrEquiv1 dot_S144x2048_S144x2048_S144x144_1_1_0_0_n_n 2048 rfl rfl).symm k) = ix2 s k :=
    funext fun a => Fin.ext (by
      match a with
      | ⟨0, _⟩ => exact rhs_row _ _
      | ⟨1, _⟩ => exact (rhs_col _ _).trans hk)
  rw [el, er]
  refine congrArg₂ (· * ·) ?_ ?_
  · exact (rows_apply _ _ r k).trans (normalized_apply x0 _ _ _ _ _ _ _ k)
  · exact (rows_apply _ _ s k).trans (normalized_apply x0 _ _ _ _ _ _ _ k)

end Cert.Bridge.Gram

end
-- ==== Proof.GramKernel.lean ====
/-
  From the blocks to the whole affinity array of the rows of `x`.

  Point `t` of the 64-point grid reads block `(t, 0, 0)` of `x` (8 batches of 18 rows of 2048 entries) and writes back
  block `(t, 0, 0)` of the [512, 18, 18] result. What it writes at `(p, i, j)` is entry `(18 p + i, 18 p + j)` of the
  block's Gram matrix — the diagonal 18 × 18 blocks are sliced out and stacked —, that is, the affinity of rows `i` and
  `j` of batch `p` of the block, which is batch `8 t + p` of `x`. So every point writes back its block of ONE function
  of `x`, the blocks cover the array, and the array ends holding that function.
-/
import proofs.«131870_j89318139887950_2_alg».proof.Proof.ValueP
import proofs.«131870_j89318139887950_2_alg».proof.Proof.GramPay

noncomputable section

open scoped BigOperators

namespace Cert.Bridge.Gram

open Cert.KernelIdeal Cert.KernelIdeal.Gen Idealize.ShloMosaic Idealize.ShloMosaic.TcCoe Idealize.SL.Sem
open Idealize.ShloMosaic.ValueIdx
open Idealize.ShloMosaic.Pipeline (Dat)

/-- The normalized row's entry depends on the batch and the row only through their values. -/
theorem xn_of_eq (x0 : Vec Ideal S8x18x2048 .f32) {p p' : Fin 8} {n n' : Fin 18} (hp : p = p') (hn : n = n') (c : Fin 2048) :
    xn x0 p n c = xn x0 p' n' c := by
  subst hp; subst hn; rfl

/-- ON THE DIAGONAL BLOCKS the Gram matrix holds the affinities: entry `(18 p + i, 18 p + j)` is the affinity of rows
    `i` and `j` of batch `p`. -/
theorem gram_diag (x0 : Vec Ideal S8x18x2048 .f32) (p : Fin 8) (i j : Fin 18) :
    k0_pay2 (F := Ideal) x0 (ix2 (⟨18 * p.val + i.val, by have := p.isLt; have := i.isLt; omega⟩ : Fin 144)
        (⟨18 * p.val + j.val, by have := p.isLt; have := j.isLt; omega⟩ : Fin 144))
      = aff x0 p i j := by
  have hp : p.val < 8 := p.isLt
  have hi : i.val < 18 := i.isLt
  have hj : j.val < 18 := j.isLt
  rw [gram_apply]
  unfold aff
  refine Finset.sum_congr rfl fun c _ => congrArg₂ (· * ·) ?_ ?_
  · exact xn_of_eq x0 (Fin.ext (by show (18 * p.val + i.val) / 18 = p.val; omega))
      (Fin.ext (by show (18 * p.val + i.val) % 18 = i.val; omega)) c
  · exact xn_of_eq x0 (Fin.ext (by show (18 * p.val + j.val) / 18 = p.val; omega))
      (Fin.ext (by show (18 * p.val + j.val) % 18 = j.val; omega)) c

/-- The stack of the 8 diagonal blocks at `(p, i, j)`: the slice at offsets `(18 p, 18 p)`, given a leading unit axis,
    read at `(0, i, j)`. -/
theorem stacked_apply (x0 : Vec Ideal S8x18x2048 .f32) (p : Fin 8) (i j : Fin 18) :
    ValueP.E20 (F := Ideal) x0 (ix3 p i j) = aff x0 p i j := by
  rw [← gram_diag x0 p i j]
  fin_cases p <;>
  · refine (shapeCast_addUnit_apply ![18, 18] _ _ _).trans ?_
    refine extractStridedSlice_apply _ _ _ _ _ (fun a => ?_)
    match a with
    | ⟨0, _⟩ => rfl
    | ⟨1, _⟩ => rfl

/-- The zero offsets of a whole-block rectangle of rank 3, as the constant function. -/
theorem zero_offsets : (![0, 0, 0] : Fin 3 → Nat) = fun _ => 0 := funext fun a => by fin_cases a <;> rfl

/-- WHAT THE BODY LEAVES in the result's block, at `(p, i, j)`: the affinity of rows `i` and `j` of batch `p` of the
    block of `x` it loaded. -/
theorem block_apply (x0 : Vec Ideal S8x18x2048 .f32) (x1 : Vec Ideal S8x18x4 .f32) (x2 : Vec Ideal S3x2048 .f32) (x3 : Vec Ideal S3 .f32)
    (x4 : Vec Ideal S4x2048 .f32) (x5 : Vec Ideal S2048 .f32) (x6 : Vec Ideal S2048 .f32) (x7 : Vec Ideal S2048 .f32)
    (x8 : Vec Ideal S3x2048 .f32) (x9 : Vec Ideal S3 .f32) (x10 : Vec Ideal S2048x2048 .bf16) (x11 : Vec Ideal S2048 .f32)
    (x12 : Vec Ideal S2048 .f32) (x13 : Vec Ideal S2048 .f32) (x14 : Vec Ideal S2048x2048 .bf16) (x15 : Vec Ideal S2048 .f32)
    (x16 : Vec Ideal S2048 .f32) (x17 : Vec Ideal S2048 .f32) (p : Fin 8) (i j : Fin 18) :
    out0_20 x0 x1 x2 x3 x4 x5 x6 x7 x8 x9 x10 x11 x12 x13 x14 x15 x16 x17 (ix3 p i j) = aff x0 p i j := by
  unfold out0_20
  simp only [View.ld_unit_zero (S := S8x18x2048) zero_offsets]
  rw [ValueP.canon20_eq]
  exact stacked_apply x0 p i j

/-- The index maps of the window of `x` and of the result's window, decided over the grid: point `t` takes block
    `(t, 0, 0)` of each. -/
theorem index_facts : ∀ t : Fin cfg0.N,
    win0_0.index t (0 : Fin 3) = t.val ∧ win0_0.index t (1 : Fin 3) = 0 ∧ win0_0.index t (2 : Fin 3) = 0
    ∧ win0_20.index t (0 : Fin 3) = t.val ∧ win0_20.index t (1 : Fin 3) = 0 ∧ win0_20.index t (2 : Fin 3) = 0 :=
  (by decide +kernel : ∀ t : Fin grid0.N, _)

/-- An index of the result is in point `t`'s block iff each coordinate is in the block's range on its axis. -/
theorem mem_block (t : Fin cfg0.N) (i : S512x18x18.Idx) :
    i ∈ ((cfg0.win 20).blk t).view.set ↔ ∀ a : Fin 3, win0_20.index t a * S8x18x18.size a ≤ (i a).val ∧ (i a).val < win0_20.index t a * S8x18x18.size a + S8x18x18.size a := by
  show i ∈ ((View.whole main_v3_2).slice (win0_20.rect t)).set ↔ _
  rw [View.set_slice_whole, Rect.mem_set_unit]
  exact Iff.rfl

/-- EVERY INDEX IS COVERED: `(b, i, j)` lies in the block of point `b / 8`, and every point writes its block back. -/
theorem covered (i : S512x18x18.Idx) :
    ∃ t : Fin cfg0.N, (cfg0.win 20).flush t = true ∧ i ∈ ((cfg0.win 20).blk t).view.set := by
  have hi0 : (i 0).val < 512 := (i 0).isLt
  have hi1 : (i 1).val < 18 := (i 1).isLt
  have hi2 : (i 2).val < 18 := (i 2).isLt
  obtain ⟨t, ht⟩ : ∃ t : Fin cfg0.N, t.val = (i 0).val / 8 :=
    ⟨⟨(i 0).val / 8, by show (i 0).val / 8 < 64; omega⟩, rfl⟩
  obtain ⟨-, -, -, e0, e1, e2⟩ := index_facts t
  refine ⟨t, flush0_20 t, ?_⟩
  rw [mem_block]
  intro a
  match a with
  | ⟨0, _⟩ => show win0_20.index t (0 : Fin 3) * 8 ≤ (i 0).val ∧ (i 0).val < win0_20.index t (0 : Fin 3) * 8 + 8; omega
  | ⟨1, _⟩ => show win0_20.index t (1 : Fin 3) * 18 ≤ (i 1).val ∧ (i 1).val < win0_20.index t (1 : Fin 3) * 18 + 18; omega
  | ⟨2, _⟩ => show win0_20.index t (2 : Fin 3) * 18 ≤ (i 2).val ∧ (i 2).val < win0_20.index t (2 : Fin 3) * 18 + 18; omega

variable (m : (ℓ : Loc nD τ sig) → Buf (Elt Ideal) ℓ)

/-- WHAT POINT `t` WRITES BACK is block `t` of `G` of `x` as the kernel finds it: batch `p` of the block point `t` loads
    is batch `8 t + p` of `x`. -/
theorem flushed_eq (c : Dev nD) (t : Fin cfg0.N) :
    (dats m 0 c).flushed 20 t = ((cfg0.win 20).blk t).view.read (Elt Ideal) (G (V m c main_arg0)) := by
  rw [ValueP.flushed20]
  obtain ⟨f0, f1, f2, e0, e1, e2⟩ := index_facts t
  have ht : t.val < 64 := t.isLt
  funext y
  have hy0 : (y 0).val < 8 := (y 0).isLt
  have hy1 : (y 1).val < 18 := (y 1).isLt
  have hy2 : (y 2).val < 18 := (y 2).isLt
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
    = G (V m c main_arg0) (((cfg0.win 20).blk t).view.emb y)
  have ey : y = ix3 (⟨(y 0).val, hy0⟩ : Fin 8) (⟨(y 1).val, hy1⟩ : Fin 18) (⟨(y 2).val, hy2⟩ : Fin 18) :=
    funext fun a => by match a with | ⟨0, _⟩ => rfl | ⟨1, _⟩ => rfl | ⟨2, _⟩ => rfl
  have ei : ((cfg0.win 20).blk t).view.emb y
      = ix3 (⟨t.val * 8 + (y 0).val, by omega⟩ : Fin 512) (⟨(y 1).val, hy1⟩ : Fin 18) (⟨(y 2).val, hy2⟩ : Fin 18) := by
    funext a; apply Fin.ext
    match a with
    | ⟨0, _⟩ => show win0_20.index t (0 : Fin 3) * 8 + 1 * (y 0).val = t.val * 8 + (y 0).val; omega
    | ⟨1, _⟩ => show win0_20.index t (1 : Fin 3) * 18 + 1 * (y 1).val = (y 1).val; omega
    | ⟨2, _⟩ => show win0_20.index t (2 : Fin 3) * 18 + 1 * (y 2).val = (y 2).val; omega
  rw [ei, G_ix3]
  refine Eq.trans (congrArg _ ey) ?_
  refine (block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    ⟨(y 0).val, hy0⟩ ⟨(y 1).val, hy1⟩ ⟨(y 2).val, hy2⟩).trans ?_
  refine aff_congr (B := 8) (B' := 512) (iblk m c 0 t) (V m c main_arg0) ⟨(y 0).val, hy0⟩ ⟨t.val * 8 + (y 0).val, by omega⟩ (fun n k => ?_) _ _
  have hn : n.val < 18 := n.isLt
  have hk : k.val < 2048 := k.isLt
  show V m c main_arg0 (((cfg0.win 0).blk t).view.emb (ix3 (⟨(y 0).val, hy0⟩ : Fin 8) n k))
    = V m c main_arg0 (ix3 (⟨t.val * 8 + (y 0).val, by omega⟩ : Fin 512) n k)
  refine congrArg (V m c main_arg0) ?_
  funext a; apply Fin.ext
  match a with
  | ⟨0, _⟩ => show win0_0.index t (0 : Fin 3) * 8 + 1 * (y 0).val = t.val * 8 + (y 0).val; omega
  | ⟨1, _⟩ => show win0_0.index t (1 : Fin 3) * 18 + 1 * n.val = n.val; omega
  | ⟨2, _⟩ => show win0_0.index t (2 : Fin 3) * 2048 + 1 * k.val = k.val; omega

/-- THE RESULT ARRAY after the run is `G` of the argument `x`. -/
theorem kernel_final (c : Dev nD) :
    (dats m 0 c).arrAt 20 cfg0.N = G (m ((c : Thread nD τ).loc main_arg0)) :=
  ((dats m 0 c).arrAt_eq_of_cover 20 (G (V m c main_arg0)) (fun t _ => flushed_eq m c t) covered).trans
    (congrArg G (V_main_arg0 m c))

end Cert.Bridge.Gram

end
-- ==== Proof.GramRef.lean ====
/-
  The reference's table of inner products of the normalized rows of `x`, read at an index.

  The reference squares `x`, sums the squares over the 2048 features of a row, takes the square root, floors it at the
  small constant's word, divides the row by that, and takes the inner products of the rows of a batch element: the
  specification's affinity of rows i and j of batch element b.
-/
import proofs.«131870_j89318139887950_2_alg».proof.Proof.GramSpec
import proofs.«131870_j89318139887950_2_alg».proof.Proof.Gen.ReferenceIdeal.Read

noncomputable section

namespace Cert.Bridge.Gram

open Cert.ReferenceIdeal Cert.ReferenceIdeal.Gen Cert.ReferenceIdeal.Read Idealize.ShloMosaic Idealize.ShloMosaic.ValueIdx

/-- A row of `x` over its floored Euclidean norm: the stages of the call to @norm and %15 … %19. -/
theorem reference_xn (x0 : S512x18x2048.Idx → EReal) (b : Fin 512) (n : Fin 18) (c : Fin 2048) :
    val_main_v19 (F := Ideal) x0 (ix3 b n c) = xn x0 b n c := by
  rw [val_main_v19_apply, val_main_v18_apply, val_main_v17_apply, val_main_v16_apply, val_main_cst_2_apply,
    val_main_v15_apply, val_main_call0_v2_apply, val_main_call0_v1_apply, val_main_call0_cst_apply]
  have e : ∀ c' : Fin 2048, idx_main_call0_v1 (idx_main_call0_v2 (idx_main_v18 (ix3 b n c))) c' = ix3 b n c' := fun c' =>
    funext fun a => Fin.ext (by match a with | ⟨0, _⟩ => rfl | ⟨1, _⟩ => rfl | ⟨2, _⟩ => rfl)
  simp only [e, val_main_call0_v0_apply, Ideal.ofBits_def, Ideal.ofBits_zero_f32, zero_add, Ideal.hostDivf_def,
    Ideal.hostUnary_sqrt_def, Ideal.maximumf_def, Ideal.mulf_def]
  rfl

/-- The reference's table is the specification's: stage %20. -/
theorem reference_eq (x0 : S512x18x2048.Idx → EReal) : val_main_v20 (F := Ideal) x0 = G x0 := by
  funext y
  obtain ⟨b, i, j, rfl⟩ : ∃ (b : Fin 512) (i j : Fin 18), y = ix3 b i j := ⟨y 0, y 1, y 2, eq_ix3 y⟩
  rw [val_main_v20_apply, G_ix3]
  have el : ∀ c : Fin 2048, lidx_main_v20 (ix3 b i j) c = ix3 b i c := fun c =>
    funext fun a => Fin.ext (by match a with | ⟨0, _⟩ => rfl | ⟨1, _⟩ => rfl | ⟨2, _⟩ => rfl)
  have er : ∀ c : Fin 2048, ridx_main_v20 (ix3 b i j) c = ix3 b j c := fun c =>
    funext fun a => Fin.ext (by match a with | ⟨0, _⟩ => rfl | ⟨1, _⟩ => rfl | ⟨2, _⟩ => rfl)
  simp only [el, er, reference_xn]
  rfl

end Cert.Bridge.Gram

end
-- ==== Proof.lean ====
/-
  The kernel and its reference compute the same five arrays on the extended reals.

  Both programs form, for each of 512 batch elements, two soft assignments of 18 rows to 3 clusters (softmaxes of linear
  maps of the features and of a hidden layer over the coordinates), the 18 x 18 tables of inner products of their
  length-normalized rows, the table of inner products of the length-normalized feature rows, a table of distances between
  the rows' spatial centres, and the features aggregated through the clusters and two linear maps. The kernel does this
  eight batch elements at a time, with the eight batch elements' rows laid side by side as 144 rows for every matrix
  product, with the three-cluster contractions written out as three products added up, and halving a coordinate by a
  product with one half where the reference divides by two. On the extended reals none of this changes a value: a change
  of float format is the identity, a matrix product is the plain sum of products whatever the tiling, a sum of three
  terms is that sum in any grouping, and a product with one half is a quotient by two, infinities included. No
  finiteness of the inputs is used.

  Each result is stated once as a function of the argument arrays, batch element by batch element; the kernel's array
  after the run and the reference's composed term are each proved equal to it.
-/
import proofs.«131870_j89318139887950_2_alg».proof.Defs
import proofs.«131870_j89318139887950_2_alg».proof.Proof.Gen.Kernel
import proofs.«131870_j89318139887950_2_alg».proof.Proof.Gen.Kernel.Frame
import proofs.«131870_j89318139887950_2_alg».proof.Proof.Gen.KernelIdeal
import proofs.«131870_j89318139887950_2_alg».proof.Proof.Gen.KernelIdeal.Frame
import proofs.«131870_j89318139887950_2_alg».proof.Proof.ValueP
import proofs.«131870_j89318139887950_2_alg».proof.Proof.Gen.ReferenceIdeal
import proofs.«131870_j89318139887950_2_alg».proof.Proof.Gen.ReferenceIdeal.Run
import proofs.«131870_j89318139887950_2_alg».proof.Proof.Gen.ReferenceIdeal.Read
import proofs.«131870_j89318139887950_2_alg».proof.Proof.Gen.Pre_finite_inputs
import proofs.«131870_j89318139887950_2_alg».proof.Proof.KFinal
import proofs.«131870_j89318139887950_2_alg».proof.Proof.RefD
import proofs.«131870_j89318139887950_2_alg».proof.Proof.RefY
import proofs.«131870_j89318139887950_2_alg».proof.Proof.DistKernel
import proofs.«131870_j89318139887950_2_alg».proof.Proof.DistRef
import proofs.«131870_j89318139887950_2_alg».proof.Proof.GramKernel
import proofs.«131870_j89318139887950_2_alg».proof.Proof.GramRef
import Idealize.ShloMosaic.Adequacy
import Idealize.ShloMosaic.Init

set_option maxRecDepth 16384

noncomputable section

namespace Cert.Proof

open Idealize.ShloMosaic Idealize.SL.Sem Idealize.ShloMosaic.ValueIdx Cert.Bridge.Spec

/-- The word-level kernel runs, and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs, and leaves its arguments alone: its run, the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- From arguments that agree, both programs end with the five results at the same functions of the arguments. -/
theorem algebraic : Cert.algebraic_KernelIdeal_ReferenceIdeal := by
  intro m ρ m' ρ' _ hagree
  refine ⟨fun c => Gy (B := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (mat (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3))) (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))) (mat (m ((c.tc : Thread Cert.KernelIdeal.nD Cert.KernelIdeal.τ).loc Cert.KernelIdeal.main_arg8))) (vec (m ((c.tc : Thread Cert.KernelIdeal.nD Cert.KernelIdeal.τ).loc Cert.KernelIdeal.main_arg9))) (mat (m ((c.tc : Thread Cert.KernelIdeal.nD Cert.KernelIdeal.τ).loc Cert.KernelIdeal.main_arg10))) (vec (m ((c.tc : Thread Cert.KernelIdeal.nD Cert.KernelIdeal.τ).loc Cert.KernelIdeal.main_arg11))) (vec (m ((c.tc : Thread Cert.KernelIdeal.nD Cert.KernelIdeal.τ).loc Cert.KernelIdeal.main_arg12))) (vec (m ((c.tc : Thread Cert.KernelIdeal.nD Cert.KernelIdeal.τ).loc Cert.KernelIdeal.main_arg13))) (mat (m ((c.tc : Thread Cert.KernelIdeal.nD Cert.KernelIdeal.τ).loc Cert.KernelIdeal.main_arg14))) (vec (m ((c.tc : Thread Cert.KernelIdeal.nD Cert.KernelIdeal.τ).loc Cert.KernelIdeal.main_arg15))) (vec (m ((c.tc : Thread Cert.KernelIdeal.nD Cert.KernelIdeal.τ).loc Cert.KernelIdeal.main_arg16))) (vec (m ((c.tc : Thread Cert.KernelIdeal.nD Cert.KernelIdeal.τ).loc Cert.KernelIdeal.main_arg17))),
    fun c => Gd21 (B := 512) (m ((c.tc : Thread Cert.KernelIdeal.nD Cert.KernelIdeal.τ).loc Cert.KernelIdeal.main_arg0)) (mat (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3))),
    fun c => Cert.Bridge.Gram.G (m ((c.tc : Thread Cert.KernelIdeal.nD Cert.KernelIdeal.τ).loc Cert.KernelIdeal.main_arg0)),
    fun c => Gd22 (B := 512) (m ((c.tc : Thread Cert.KernelIdeal.nD Cert.KernelIdeal.τ).loc Cert.KernelIdeal.main_arg1)) (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))) (mat (m ((c.tc : Thread Cert.KernelIdeal.nD Cert.KernelIdeal.τ).loc Cert.KernelIdeal.main_arg8))) (vec (m ((c.tc : Thread Cert.KernelIdeal.nD Cert.KernelIdeal.τ).loc Cert.KernelIdeal.main_arg9))),
    fun c => Cert.Bridge.Dist.G (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.ValueP.run_blocks (F := Ideal) m ρ)
    obtain ⟨h0, h1, h2, h3, h4, hargs⟩ := h c
    exact ⟨h0.trans (Cert.Bridge.K.final18 m c), h1.trans (Cert.Bridge.K.final19 m c), h2.trans (Cert.Bridge.Gram.kernel_final m c),
      h3.trans (Cert.Bridge.K.final21 m c), h4.trans (Cert.Bridge.Dist.kernel_final m c), hargs⟩
  · refine (θ_run Cert.ReferenceIdeal.defs _ _).mono (fun r h c => ?_) (Cert.ReferenceIdeal.Value.run (F := Ideal) m' ρ')
    obtain ⟨h0, h1, h2, h3, h4, hargs⟩ := h c
    obtain ⟨a0, a1, a2, a3, a4, a5, a6, a7, a8, a9, a10, a11, a12, a13, a14, a15, a16, a17⟩ := hagree c
    refine ⟨?_, ?_, ?_, ?_, ?_, hargs⟩
    · rw [h0, Cert.ReferenceIdeal.Read.val_main_v140_eq, Cert.Bridge.Ref.ref_y, a0, a1, a2, a3, a4, a5, a6, a7, a8, a9, a10, a11, a12, a13, a14, a15, a16, a17]
    · rw [h1, Cert.ReferenceIdeal.Read.val_main_v26_eq, Cert.Bridge.Ref.ref_d21, a0, a2, a3]
    · rw [h2, Cert.ReferenceIdeal.Read.val_main_v20_eq, Cert.Bridge.Gram.reference_eq, a0]
    · rw [h3, Cert.ReferenceIdeal.Read.val_main_v98_eq, Cert.Bridge.Ref.ref_d22, a1, a4, a5, a6, a7, a8, a9]
    · rw [h4, Cert.ReferenceIdeal.Read.val_main_v92_eq, Cert.Bridge.Dist.reference_eq, a1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
